-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x41024 : Shape := ⟨2, ![4096, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x41024 : S_.BroadcastsInDim S4096x41024 (![] : Fin 0 → Fin S4096x41024.rank)
  reducesTo_S4096x41024_S_d0_1 : S4096x41024.ReducesTo [0, 1] S_
  bcast_S_S256x41024 : S_.BroadcastsInDim S256x41024 (![] : Fin 0 → Fin S256x41024.rank)
  reducesTo_S256x41024_S_d0_1 : S256x41024.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S1x32 .f32) (main_arg11 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_v48 main_v49 main_v50

def fn_part1 {F : FTy → Type} [FloatOps F] (main_arg4 : FVec F S256x41024 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) (main_v13 : IVec S_ 1) (main_v16 : IVec S4096x41024 1) : IVec S_ 1 :=
  let main_c_5 : IVec S_ 1 := constantI S_ 1 1#1
  let main_v17 : IVec S_ 1 := (fun x v => Host.reduce IntOp.andi x v reducesTo_S4096x41024_S_d0_1 h_S_) main_v16 main_c_5
  let main_v18 : IVec S_ 1 := andi main_v13 main_v17
  let main_v19 : FVec F S256x41024 .f32 := Host.absf main_arg4
  let main_cst_6 : FVec F S_ .f32 := constant S_ .f32 0x7F800000#32
  let main_v20 : FVec F S256x41024 .f32 := broadcastInDim S256x41024 ![] bcast_S_S256x41024 main_cst_6
  let main_v21 : IVec S256x41024 1 := cmpf .olt main_v19 main_v20
  let main_c_7 : IVec S_ 1 := constantI S_ 1 1#1
  let main_v22 : IVec S_ 1 := (fun x v => Host.reduce IntOp.andi x v reducesTo_S256x41024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1 .f32) (main_arg1 : FVec F S4096x1 .f32) (main_arg2 : FVec F S4096x41024 .f32) (main_arg3 : FVec F S4096x41024 .f32) (main_arg4 : FVec F S256x41024 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x41024 .f32 := Host.absf main_arg2
  let main_cst_2 : FVec F S_ .f32 := constant S_ .f32 0x7F800000#32
  let main_v10 : FVec F S4096x41024 .f32 := broadcastInDim S4096x41024 ![] bcast_S_S4096x41024 main_cst_2
  let main_v11 : IVec S4096x41024 1 := cmpf .olt main_v9 main_v10
  let main_c_3 : IVec S_ 1 := constantI S_ 1 1#1
  let main_v12 : IVec S_ 1 := (fun x v => Host.reduce IntOp.andi x v reducesTo_S4096x41024_S_d0_1 h_S_) main_v11 main_c_3
  let main_v13 : IVec S_ 1 := andi main_v8 main_v12
  let main_v14 : FVec F S4096x41024 .f32 := Host.absf main_arg3
  let main_cst_4 : FVec F S_ .f32 := constant S_ .f32 0x7F800000#32
  let main_v15 : FVec F S4096x41024 .f32 := broadcastInDim S4096x41024 ![] bcast_S_S4096x41024 main_cst_4
  let main_v16 : IVec S4096x41024 1 := cmpf .olt main_v14 main_v15
  fn_part1 (F := F) main_arg4 main_arg5 main_arg6 main_arg7 main_arg8 main_arg9 main_arg10 main_arg11 main_v13 main_v16
-- ==== Kernel.lean ====
abbrev S4096x1 : Shape := ⟨2, ![4096, 1]⟩
abbrev S4096x41024 : Shape := ⟨2, ![4096, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41024x256 : Shape := ⟨2, ![41024, 256]⟩
abbrev S_ : Shape := ⟨0, ![]⟩
abbrev S41984x256 : Shape := ⟨2, ![41984, 256]⟩
abbrev S1x256 : Shape := ⟨2, ![1, 256]⟩
abbrev S512x32 : Shape := ⟨2, ![512, 32]⟩
abbrev S32x1 : Shape := ⟨2, ![32, 1]⟩
abbrev S1x1 : Shape := ⟨2, ![1, 1]⟩
abbrev S1024x1024 : Shape := ⟨2, ![1024, 1024]⟩
abbrev S1024x256 : Shape := ⟨2, ![1024, 256]⟩
abbrev S1024x1 : Shape := ⟨2, ![1024, 1]⟩
abbrev S1024x512 : Shape := ⟨2, ![1024, 512]⟩
abbrev S1024x32 : Shape := ⟨2, ![1024, 32]⟩

abbrev nBuf : Space → Nat
  | .hbm => 25
  | .vmem => 21
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x41024, .f32⟩
  | .hbm, ⟨3, _⟩ => ⟨S4096x41024, .f32⟩
  | .hbm, ⟨4, _⟩ => ⟨S256x41024, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S41024x256, .f32⟩
  | .hbm, ⟨13, _⟩ => ⟨S_, .i32⟩
  | .hbm, ⟨14, _⟩ => ⟨S_, .f32⟩
  | .hbm, ⟨15, _⟩ => ⟨S41984x256, .f32⟩
  | .hbm, ⟨16, _⟩ => ⟨S41984x256, .bf16⟩
  | .hbm, ⟨17, _⟩ => ⟨S1x256, .f32⟩
  | .hbm, ⟨18, _⟩ => ⟨S512x32, .f32⟩
  | .hbm, ⟨19, _⟩ => ⟨S32x32, .f32⟩
  | .hbm, ⟨20, _⟩ => ⟨S32x1, .f32⟩
  | .hbm, ⟨21, _⟩ => ⟨S1x32, .f32⟩
  | .hbm, ⟨22, _⟩ => ⟨S1x32, .f32⟩
  | .hbm, ⟨23, _⟩ => ⟨S1x1, .f32⟩
  | .hbm, ⟨24, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1024x256, .bf16⟩
  | .local _ .vmem, ⟨6, _⟩ => ⟨S1x256, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S512x32, .f32⟩
  | .local _ .vmem, ⟨12, _⟩ => ⟨S1x32, .f32⟩
  | .local _ .vmem, ⟨13, _⟩ => ⟨S32x32, .f32⟩
  | .local _ .vmem, ⟨14, _⟩ => ⟨S1x32, .f32⟩
  | .local _ .vmem, ⟨15, _⟩ => ⟨S32x1, .f32⟩
  | .local _ .vmem, ⟨16, _⟩ => ⟨S1x1, .f32⟩
  | .local _ .vmem, ⟨17, _⟩ => ⟨S1024x1, .f32⟩
  | .local _ .vmem, ⟨18, _⟩ => ⟨S1024x1, .f32⟩
  | .local _ .vmem, ⟨19, _⟩ => ⟨S1024x256, .f32⟩
  | .local _ .vmem, ⟨20, _⟩ => ⟨S1024x256, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 41], ![false, false]⟩

def k0_cond3 (i : grid0.Coords) : BitVec 1 :=
  let arg1 : BitVec 32 := BitVec.ofNat 32 (i 1).val
  let c40_i32_7 : BitVec 32 := 40#32
  let v10 : BitVec 1 := Scalar.cmpi .eq arg1 c40_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  transposes_S256x41024_S41024x256_1_0 : S256x41024.Transposes [1, 0] S41024x256
  pads_S41024x256_S41984x256_09600_000 : S41024x256.Pads (![0, 0] : Fin 2 → Nat) ![960, 0] ![0, 0] S41984x256
  h_S_ : 0 < S_.numel
  bitsLt_bf16_f32 : FTy.bits .bf16 < FTy.bits .f32
  shapeCasts_S256_S1x256 : S256.ShapeCasts S1x256
  transposes_S32x512_S512x32_1_0 : S32x512.Transposes [1, 0] S512x32
  transposes_S32x32_S32x32_1_0 : S32x32.Transposes [1, 0] S32x32
  transposes_S1x32_S32x1_1_0 : S1x32.Transposes [1, 0] S32x1
  shapeCasts_S32_S1x32 : S32.ShapeCasts S1x32
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  iota_S1024x1024_d1_w32 : S1024x1024.Iotas .tc 32 [1]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  concatenates_S1024x256_S1024x256_S1024x512_d1 : Shape.Concatenates [S1024x256, S1024x256] S1024x512 1
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x1024_S1024x256_S1024x256_1_0_0_1_n_n_wf : DotDims.WF S1024x1024 S1024x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1024.size a < S4096x41024.size a
  hwx0_0 : ∀ i : grid0.Coords, EltTy.bits .f32 = 32 ∨ (Rect.unit (s := S4096x41024) (fun a => cc0_transform_0 i a * S1024x1024.size a) (fun a => (Pipeline.Clip.of (cc0_transform_0 i a) (S1024x1024.size a) (S4096x41024.size a)).extent (S1024x1024.size a)) fun a => Pipeline.Clip.inb (Pipeline.Clip.ok_of (hstart0_0 i a))).WholeWords (EltTy.packing .f32)
  hwxs0_0 : ∀ i : grid0.Coords, EltTy.bits .f32 = 32 ∨ (Rect.unit (s := S1024x1024) (fun _ => 0) (fun a => (Pipeline.Clip.of (cc0_transform_0 i a) (S1024x1024.size a) (S4096x41024.size a)).extent (S1024x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S4096x41024.size a
  hwx0_1 : ∀ i : grid0.Coords, EltTy.bits .f32 = 32 ∨ (Rect.unit (s := S4096x41024) (fun a => cc0_transform_1 i a * S1024x1024.size a) (fun a => (Pipeline.Clip.of (cc0_transform_1 i a) (S1024x1024.size a) (S4096x41024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S4096x41024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S41984x256.size a
  hwx0_2 : ∀ i : grid0.Coords, EltTy.bits .bf16 = 32 ∨ (Rect.block (s := S41984x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S512x32.size a
  hwx0_6 : ∀ i : grid0.Coords, EltTy.bits .f32 = 32 ∨ (Rect.block (s := S512x32) S512x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S4096x1.size a
  hwx0_12 : ∀ i : grid0.Coords, EltTy.bits .f32 = 32 ∨ (Rect.block (s := S4096x1) S1024x1.size (cc0_transform_12 i) (hinb0_12 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpecClip (Memref.whole main_arg2) S1024x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond3 i == 1#1) | ⟨_ + 13, h⟩ => absurd h (Nat.not_lt.2 (Nat.le_add_left _ _))

class Facts : Prop extends Facts₀ where

variable [Facts]
-- ==== ReferenceIdeal.lean ====
abbrev S4096x1 : Shape := ⟨2, ![4096, 1]⟩
abbrev S4096x41024 : Shape := ⟨2, ![4096, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41024x256 : Shape := ⟨2, ![41024, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x41024, .f32⟩
  | .hbm, ⟨3, _⟩ => ⟨S4096x41024, .f32⟩
  | .hbm, ⟨4, _⟩ => ⟨S256x41024, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S41024x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S41024x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S512x32, .f32⟩
  | .hbm, ⟨38, _⟩ => ⟨S4096x32, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S32x32, .f32⟩
  | .hbm, ⟨51, _⟩ => ⟨S4096x32, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S32x1, .f32⟩
  | .hbm, ⟨64, _⟩ => ⟨S4096x1, .f32⟩
  | .hbm, ⟨65, _⟩ => ⟨S1x1, .f32⟩
  | .hbm, ⟨66, _⟩ => ⟨S4096x1, .f32⟩
  | .hbm, ⟨67, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩

abbrev nD : Nat := 1
abbrev τ : Topo := Topo.v7x

variable {F : FTy → Type} [FloatOps F]

class Facts₀ : Prop where
  transposes_S256x41024_S41024x256_1_0 : S256x41024.Transposes [1, 0] S41024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41024_S41024x256_S4096x256_1_0_0_1_n_n_wf : DotDims.WF S4096x41024 S41024x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41024_S41024x256_S4096x256_1_0_0_1_n_n : DotDims S4096x41024 S41024x256 S4096x256 where
  lhsContracting := [1]
  rhsContracting := [0]
  lhsNonContracting := [0]
  rhsNonContracting := [1]
  lhsBatch := []
  rhsBatch := []
  wf := dot_S4096x41024_S41024x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.WBodyConds.lean ====
/-
  The kernel body's three branch conditions as conditions on the grid point, and where each holds.

  The grid is 4 row tiles by 41 column tiles, walked row tile by row tile; a point's position modulo 41 is its column
  tile `k`. The body zeroes its two accumulators when `k = 0`, adds a plain product while `k < 40`, and at `k = 40`
  adds the masked product of the ragged last tile and computes the result rows. The result window is looked at only
  at `k = 40`, where it is also written back.
-/
import proofs.«131451_j14499809591732_2_alg».proof.Proof.Gen.Kernel.Frame
import proofs.«131451_j14499809591732_2_alg».proof.Proof.Gen.Kernel.Skeleton
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulators are reset: the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 41 = 0 :=
  (by decide +kernel : ∀ t : Fin grid0.N, cond0_0 (grid0.coords t) ↔ t.val % 41 = 0)

/-- A plain product is added: the column tile is not the last. -/
abbrev cond0_1 (i : grid0.Coords) : Prop := (Scalar.cmpi .ne (Scalar.extui (Scalar.cmpi .slt (BitVec.ofNat 32 (i 1).val) 40#32)) 0#32) = 1#1
theorem hcond0_1 : ∀ t : Fin cfg0.N, cond0_1 (grid0.coords t) ↔ t.val % 41 ≠ 40 :=
  (by decide +kernel : ∀ t : Fin grid0.N, cond0_1 (grid0.coords t) ↔ t.val % 41 ≠ 40)

/-- The masked product and the result rows: the column tile is the last. -/
abbrev cond0_2 (i : grid0.Coords) : Prop := k0_cond3 i = 1#1
theorem hcond0_2 : ∀ t : Fin cfg0.N, cond0_2 (grid0.coords t) ↔ t.val % 41 = 40 :=
  (by decide +kernel : ∀ t : Fin grid0.N, cond0_2 (grid0.coords t) ↔ t.val % 41 = 40)

/-- The column tile as a word is its number. -/
theorem arg1_last : ∀ t : Fin cfg0.N, t.val % 41 = 40 → BitVec.ofNat 32 ((grid0.coords t) 1).val = 40#32 :=
  (by decide +kernel : ∀ t : Fin grid0.N, t.val % 41 = 40 → BitVec.ofNat 32 ((grid0.coords t) 1).val = 40#32)

/-- The result window is looked at exactly at the last column tile. -/
theorem idle0_12 : ∀ t : Fin cfg0.N, t.val % 41 ≠ 40 → cfg0.idle 12 (grid0.coords t) = true := by decide +kernel
theorem live0_12 : ∀ t : Fin cfg0.N, t.val % 41 = 40 → cfg0.idle 12 (grid0.coords t) = false := by decide +kernel
theorem noFlush0_12 : ∀ t : Fin cfg0.N, t.val % 41 ≠ 40 → (cfg0.win 12).flush t = false := by decide +kernel

/-- The two accumulators as memrefs: whole scoped buffers beside the windows. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view
/-- One staging buffer of the result window, through which its contents are stated. -/
abbrev VO0_12 : View sig .tc .vmem S1024x1 .f32 := (Memref.whole cc0_stg12_0 : Memref sig .tc .vmem S1024x1 .f32).view

/-- What the region may use and need not describe: the two accumulators at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem hz : (![0, 0] : Fin 2 → Nat) = fun _ => 0 := funext fun a => by fin_cases a <;> rfl

end Cert.Kernel.Body

end
-- ==== Proof.WBodyRunA.lean ====
/-
  The kernel body run once, symbolically, at a grid point of case A: the first column tile — the accumulators are zeroed, then the first product is added.
-/
import proofs.«131451_j14499809591732_2_alg».proof.Proof.WBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the twelve inputs' at their contents, the result window's handed back untouched, the two accumulators' at what
    the point before left — the body runs to the end holding the inputs' as they were and each buffer it stored into
    with its stores written, last first; the stores are what the run finds. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) :
    Σ' (LS0 : List (View.Piece (Elt F) S1024x256 .f32)), { LS1 : List (View.Piece (Elt F) S1024x256 .f32) //
      ∀ (xi12 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi12 E K => ?run⟩
  case run =>
    simp only [cc0__nnue_kernel_eq_skeleton]; unfold cc0__nnue_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg15.eq_unread hfs0; obtain rfl := harg16.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; iexact HS0
    · iexists _; iexact HS1

end Cert.Kernel.Body

end
-- ==== Proof.WBodyRunB.lean ====
/-
  The kernel body run once, symbolically, at a grid point of case B: a middle column tile — a product is added to each accumulator.
-/
import proofs.«131451_j14499809591732_2_alg».proof.Proof.WBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the twelve inputs' at their contents, the result window's handed back untouched, the two accumulators' at what
    the point before left — the body runs to the end holding the inputs' as they were and each buffer it stored into
    with its stores written, last first; the stores are what the run finds. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) :
    Σ' (LS0 : List (View.Piece (Elt F) S1024x256 .f32)), { LS1 : List (View.Piece (Elt F) S1024x256 .f32) //
      ∀ (xi12 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi12 E K => ?run⟩
  case run =>
    simp only [cc0__nnue_kernel_eq_skeleton]; unfold cc0__nnue_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg15.eq_unread hfs0; obtain rfl := harg16.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; iexact HS0
    · iexists _; iexact HS1

end Cert.Kernel.Body

end
-- ==== Proof.WBodyRunC.lean ====
/-
  The kernel body run once, symbolically, at a grid point of case C: the last column tile — the masked product is added, and the result rows are computed from the accumulators and stored.
-/
import proofs.«131451_j14499809591732_2_alg».proof.Proof.WBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the twelve inputs' at their contents, the result window's at anything, the two accumulators' at what
    the point before left — the body runs to the end holding the inputs' as they were and each buffer it stored into
    with its stores written, last first; the stores are what the run finds. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) :
    Σ' (L12 : List (View.Piece (Elt F) S1024x1 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__nnue_kernel_eq_skeleton]; unfold cc0__nnue_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg15.eq_unread hfs0; obtain rfl := harg16.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [HS0]
    · iexists _; iexact HS0
    · iexists _; iexact HS1

end Cert.Kernel.Body

end
-- ==== Proof.WBodyOuts.lean ====
/-
  What each case's run leaves in the accumulators and in the result window, as values.

  Each buffer the body stores into is stored whole, so what it holds afterwards is the payload of its last store; a
  load that follows a store of the same buffer reads that store's payload back. Written out, case by case: the
  accumulators after the first column tile are the product added to the zero block, after a middle tile the product
  added to what they held, after the last tile the masked product added to what they held; and the result rows are the
  tail computation of the accumulators just updated.
-/
import proofs.«131451_j14499809591732_2_alg».proof.Proof.WBodyRunA
import proofs.«131451_j14499809591732_2_alg».proof.Proof.WBodyRunB
import proofs.«131451_j14499809591732_2_alg».proof.Proof.WBodyRunC
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stores cover -/

theorem cover_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1, y ∈ pc.1.set :=
  View.cover_of_tiledL _ S1024x256.size (by sl_kernel_rfl) y
theorem cover_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1, y ∈ pc.1.set :=
  View.cover_of_tiledL _ S1024x256.size (by sl_kernel_rfl) y
theorem cover_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1, y ∈ pc.1.set :=
  View.cover_of_tiledL _ S1024x256.size (by sl_kernel_rfl) y
theorem cover_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1, y ∈ pc.1.set :=
  View.cover_of_tiledL _ S1024x256.size (by sl_kernel_rfl) y
theorem cover_C_12 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x1.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1, y ∈ pc.1.set :=
  View.cover_of_tiledL _ S1024x1.size (by sl_kernel_rfl) y
theorem cover_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1, y ∈ pc.1.set :=
  View.cover_of_tiledL _ S1024x256.size (by sl_kernel_rfl) y
theorem cover_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.2.1, y ∈ pc.1.set :=
  View.cover_of_tiledL _ S1024x256.size (by sl_kernel_rfl) y

/-! ## The values -/

/-- A middle column tile: each accumulator ends at what it held plus the tile's product. -/
theorem val_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1 = k0_pay4 x2 x0 xs0 := by
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]
theorem val_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1 = k0_pay5 x2 x1 xs1 := by
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

/-- The first column tile: each accumulator ends at the zero block plus the tile's product. -/
theorem val_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1 = k0_pay4 x2 x0 k0_pay1 := by
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]
theorem val_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1 = k0_pay5 x2 x1 k0_pay2 := by
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

/-- The last column tile: each accumulator ends at what it held plus the masked product; -/
theorem val_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1 = k0_pay8 (BitVec.ofNat 32 (i 1).val) (k0_pay3 x2) x0 xs0 := by
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]
theorem val_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.2.1 = k0_pay9 (BitVec.ofNat 32 (i 1).val) (k0_pay3 x2) x1 xs1 := by
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

/-- and the result rows are the tail computation of the two accumulators just updated. -/
theorem val_C_12 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1
    = k0_pay6 (k0_pay16
        (k0_pay13 x3 (k0_pay8 (BitVec.ofNat 32 (i 1).val) (k0_pay3 x2) x0 xs0) (k0_pay9 (BitVec.ofNat 32 (i 1).val) (k0_pay3 x2) x1 xs1))
        (k0_pay14 x3 (k0_pay8 (BitVec.ofNat 32 (i 1).val) (k0_pay3 x2) x0 xs0) (k0_pay9 (BitVec.ofNat 32 (i 1).val) (k0_pay3 x2) x1 xs1))
        (k0_pay15 x4) x5 x6 x7 x8 x9 x10) (k0_pay17 x11) := by
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz, View.readCov_unit_zero (S := S1024x256) _ hz]

end Cert.Kernel.Body

end
-- ==== Proof.WBodyAcc.lean ====
/-
  The proof data of the pallas region: what every staging buffer and the two accumulators hold, point by point.

  The accumulators are a fold over the column tiles of a row tile: the first tile's product added to the zero block,
  each middle tile's product added to the running value, the last tile's masked product added at the end; the result
  rows are the tail computation of the accumulators at the last tile. A window of the two long inputs holds its block
  on the part inside the array; what lies past the array's end in the ragged last tile is filled with the zero word
  here (the masked product never reads it).
-/
import proofs.«131451_j14499809591732_2_alg».proof.Proof.WBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first long input's block at point `t`, filled out with the zero word past the array's end. -/
def x0c (c : Dev nD) (t : Fin cfg0.N) : Vec F S1024x1024 .f32 :=
  (cfg0.win 0).fill (grid0.coords t) (fun _ => Scalar.ofBits .f32 0x00000000#32) (iblk m c 0 t)
/-- The second's. -/
def x1c (c : Dev nD) (t : Fin cfg0.N) : Vec F S1024x1024 .f32 :=
  (cfg0.win 1).fill (grid0.coords t) (fun _ => Scalar.ofBits .f32 0x00000000#32) (iblk m c 1 t)

/-- The accumulators after a first column tile: the tile's products added to the zero block. -/
def stepA (c : Dev nD) (t : Fin cfg0.N) : Vec F S1024x256 .f32 × Vec F S1024x256 .f32 :=
  (k0_pay4 (iblk m c 2 t) (x0c m c t) k0_pay1, k0_pay5 (iblk m c 2 t) (x1c m c t) k0_pay2)
/-- After a middle tile: the tile's products added to the running values. -/
def stepB (c : Dev nD) (t : Fin cfg0.N) (p : Vec F S1024x256 .f32 × Vec F S1024x256 .f32) :
    Vec F S1024x256 .f32 × Vec F S1024x256 .f32 :=
  (k0_pay4 (iblk m c 2 t) (x0c m c t) p.1, k0_pay5 (iblk m c 2 t) (x1c m c t) p.2)
/-- After the last tile: the masked products added to the running values. -/
def stepC (c : Dev nD) (t : Fin cfg0.N) (p : Vec F S1024x256 .f32 × Vec F S1024x256 .f32) :
    Vec F S1024x256 .f32 × Vec F S1024x256 .f32 :=
  (k0_pay8 (BitVec.ofNat 32 ((grid0.coords t) 1).val) (k0_pay3 (iblk m c 2 t)) (x0c m c t) p.1,
   k0_pay9 (BitVec.ofNat 32 ((grid0.coords t) 1).val) (k0_pay3 (iblk m c 2 t)) (x1c m c t) p.2)

/-- The two accumulators after point `n`, by recursion on the point. -/
def acc (c : Dev nD) : (n : ℕ) → n < cfg0.N → Vec F S1024x256 .f32 × Vec F S1024x256 .f32
  | 0, h => stepA m c ⟨0, h⟩
  | n + 1, h =>
    if (n + 1) % 41 = 0 then stepA m c ⟨n + 1, h⟩
    else if (n + 1) % 41 = 40 then stepC m c ⟨n + 1, h⟩ (acc c n (Nat.lt_of_succ_lt h))
    else stepB m c ⟨n + 1, h⟩ (acc c n (Nat.lt_of_succ_lt h))

theorem acc_A (c : Dev nD) (t : Fin cfg0.N) (h0 : t.val % 41 = 0) : acc m c t.val t.isLt = stepA m c t := by
  obtain ⟨n, hn⟩ := t
  cases n with
  | zero => rfl
  | succ n => exact if_pos h0
theorem acc_B (c : Dev nD) (t : Fin cfg0.N) (h0 : ¬t.val % 41 = 0) (h2 : ¬t.val % 41 = 40) :
    acc m c t.val t.isLt = stepB m c t (acc m c (t.val - 1) (Nat.lt_of_le_of_lt (Nat.sub_le _ _) t.isLt)) := by
  obtain ⟨n, hn⟩ := t
  cases n with
  | zero => exact absurd (Nat.zero_mod _) h0
  | succ n => exact (if_neg h0).trans (if_neg h2)
theorem acc_C (c : Dev nD) (t : Fin cfg0.N) (h2 : t.val % 41 = 40) :
    acc m c t.val t.isLt = stepC m c t (acc m c (t.val - 1) (Nat.lt_of_le_of_lt (Nat.sub_le _ _) t.isLt)) := by
  obtain ⟨n, hn⟩ := t
  cases n with
  | zero => exact absurd (show (0 : ℕ) % 41 = 40 from h2) (by decide)
  | succ n =>
    have h2' : (n + 1) % 41 = 40 := h2
    exact (if_neg (by omega)).trans (if_pos h2')

/-- The result rows stored at point `t` (read only at a last column tile): the tail computation of the accumulators. -/
def out12 (c : Dev nD) (t : Fin cfg0.N) : Vec F S1024x1 .f32 :=
  k0_pay6 (k0_pay16 (k0_pay13 (iblk m c 3 t) (acc m c t.val t.isLt).1 (acc m c t.val t.isLt).2)
      (k0_pay14 (iblk m c 3 t) (acc m c t.val t.isLt).1 (acc m c t.val t.isLt).2) (k0_pay15 (iblk m c 4 t)) (iblk m c 5 t) (iblk m c 6 t) (iblk m c 7 t) (iblk m c 8 t) (iblk m c 9 t) (iblk m c 10 t))
    (k0_pay17 (iblk m c 11 t))

/-- The region's invariant before position `n`: at the start what the launch hands over; afterwards the two accumulators
    at their values after the point before, and the generator register at some state. -/
def PhiS (c : Dev nD) : (n : ℕ) → n ≤ cfg0.N → sProp 𝕄
  | 0, _ => Pipeline.ΦA spec0 c
  | n + 1, hn => iprop(iprop(owns (c : Thread nD τ) scM0_0 fullShare (acc m c n hn).1 ∗ owns (c : Thread nD τ) scM0_1 fullShare (acc m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (acc m c n hn).1 ∗ owns (c : Thread nD τ) scM0_1 fullShare (acc m c n hn).2) ∗ (∃ r, prngReg c r)) := rfl
theorem PhiS_pos (c : Dev nD) (n : ℕ) (h : n ≤ cfg0.N) (hz : n ≠ 0) :
    PhiS m c n h = iprop(iprop(owns (c : Thread nD τ) scM0_0 fullShare (acc m c (n - 1) (by omega)).1 ∗ owns (c : Thread nD τ) scM0_1 fullShare (acc m c (n - 1) (by omega)).2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => x0c m c t
    | ⟨1, _⟩ => x1c m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = x0c m c t := by dsimp only [dats]
theorem after0_1 (c : Dev nD) (t : Fin cfg0.N) : (dats m 0 c).after 1 t = x1c m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out12 m c t := by dsimp only [dats]

theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- A long input's buffer, fetched at every point, holds its block on the part inside the array. -/
theorem before0_0 (c : Dev nD) (t : Fin cfg0.N) (d) :
    (dats m 0 c).before 0 t d = (cfg0.win 0).fill (grid0.coords t) d (iblk m c 0 t) := by
  rw [(dats m 0 c).before_fetched 0 t (fetch0_0 t)]; unfold Dat.fetched Dat.blockOf iblk; rw [A_eq]
theorem before0_1 (c : Dev nD) (t : Fin cfg0.N) (d) :
    (dats m 0 c).before 1 t d = (cfg0.win 1).fill (grid0.coords t) d (iblk m c 1 t) := by
  rw [(dats m 0 c).before_fetched 1 t (fetch0_1 t)]; unfold Dat.fetched Dat.blockOf iblk; rw [A_eq]

end Cert.Kernel.Body

end
-- ==== Proof.WMaskWord.lean ====
/-
  The mask of the last accumulation step, read at an entry.

  The step's block covers columns `40 · 1024 + q` of a 41024-column array for `q < 1024`; the mask compares that
  column number with 41024 as signed 32-bit words. Both numbers are below 2^31, so the comparison is that of the
  numbers, and the mask bit is set exactly for `q < 64`.
-/
import proofs.«131451_j14499809591732_2_alg».proof.Proof.Gen.Kernel.Skeleton
import Idealize.ShloMosaic.Lib.Pipeline.Value
import Idealize.ShloMosaic.Lib.ValueIdx

noncomputable section

namespace Cert.Kernel.MaskWord

open Idealize.ShloMosaic Idealize.ShloMosaic.ValueIdx Idealize.SL.Sem Cert.Kernel Cert.Kernel.Gen

/-- Signed comparison of two 32-bit words below 2^31 is comparison of the numbers. -/
theorem slt_small (x y : Nat) (hx : x < 2^31) (hy : y < 2^31) :
    (BitVec.ofNat 32 x).slt (BitVec.ofNat 32 y) = decide (x < y) := by
  have tx : ∀ z : Nat, z < 2^31 → (BitVec.ofNat 32 z).toInt = (z : Int) := fun z hz => by
    have h : (BitVec.ofNat 32 z).toNat = z := by rw [BitVec.toNat_ofNat]; omega
    rw [BitVec.toInt_eq_toNat_of_lt (by rw [h]; omega), h]
  unfold BitVec.slt
  rw [tx x hx, tx y hy]
  congr 1
  apply propext
  constructor <;> intro h <;> omega

/-- The mask of the last step: column `q` of the block is column `40 · 1024 + q` of the array, which lies inside
    its 41024 columns exactly when `q < 64`. -/
theorem pay7_apply (r q : Fin 1024) :
    k0_pay7 40#32 (ix2 r q) = if q.val < 64 then 1#1 else 0#1 := by
  unfold k0_pay7
  show IntOp.cmpi .slt (IntOp.addi (Scalar.muli 40#32 1024#32) (iota .tc S1024x1024 32 [1] iota_S1024x1024_d1_w32 (ix2 r q))) 41024#32 = _
  rw [iota_single_apply]
  show BitVec.ofBool ((40#32 * 1024#32 + BitVec.ofNat 32 q.val).slt 41024#32) = _
  have hq := q.isLt
  have e : (40#32 * 1024#32 + BitVec.ofNat 32 q.val) = BitVec.ofNat 32 (40960 + q.val) := by
    rw [BitVec.ofNat_add]; rfl
  rw [e, show (41024#32) = BitVec.ofNat 32 41024 from rfl, slt_small _ _ (by omega) (by omega)]
  by_cases h : q.val < 64
  · rw [if_pos h, decide_eq_true (by omega)]; rfl
  · rw [if_neg h, decide_eq_false (by omega)]; rfl

end Cert.Kernel.MaskWord

end
-- ==== Proof.WBodyFill.lean ====
/-
  What lies past the array's end in a long input's buffer never reaches an accumulator.

  At every column tile but the last the block lies inside the array, so the buffer holds the block and nothing else.
  At the last tile only the first 64 of the 1024 columns lie inside; the body keeps exactly those columns and puts the
  zero word in the others before it multiplies, so two buffers that agree on the block give the same masked input.
-/
import proofs.«131451_j14499809591732_2_alg».proof.Proof.WBodyConds
import proofs.«131451_j14499809591732_2_alg».proof.Proof.WMaskWord
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- Away from the last column tile neither long input's block is cut. -/
theorem noclip0_0 : ∀ t : Fin cfg0.N, t.val % 41 ≠ 40 → ∀ a, (cfg0.win 0).clip (grid0.coords t) a = none := by decide +kernel
theorem noclip0_1 : ∀ t : Fin cfg0.N, t.val % 41 ≠ 40 → ∀ a, (cfg0.win 1).clip (grid0.coords t) a = none := by decide +kernel

/-- So there the buffer is the block, whatever it held before. -/
theorem fill0_0_uncut {α : Type} (t : Fin cfg0.N) (h : t.val % 41 ≠ 40) (d d' : (cfg0.win 0).block.Idx → α)
    (g : ((cfg0.win 0).xblock (grid0.coords t)).Idx → α) :
    (cfg0.win 0).fill (grid0.coords t) d g = (cfg0.win 0).fill (grid0.coords t) d' g :=
  Pipeline.fill_of_clip_none (cfg := cfg0) 0 (grid0.coords t) (noclip0_0 t h) d d' g
theorem fill0_1_uncut {α : Type} (t : Fin cfg0.N) (h : t.val % 41 ≠ 40) (d d' : (cfg0.win 1).block.Idx → α)
    (g : ((cfg0.win 1).xblock (grid0.coords t)).Idx → α) :
    (cfg0.win 1).fill (grid0.coords t) d g = (cfg0.win 1).fill (grid0.coords t) d' g :=
  Pipeline.fill_of_clip_none (cfg := cfg0) 1 (grid0.coords t) (noclip0_1 t h) d d' g

/-- At the last column tile the part inside the array is all 1024 rows and the first 64 columns. -/
theorem xsize0_0_last : ∀ t : Fin cfg0.N, t.val % 41 = 40 →
    (cfg0.win 0).xsize (grid0.coords t) 0 = 1024 ∧ (cfg0.win 0).xsize (grid0.coords t) 1 = 64 := by decide +kernel
theorem xsize0_1_last : ∀ t : Fin cfg0.N, t.val % 41 = 40 →
    (cfg0.win 1).xsize (grid0.coords t) 0 = 1024 ∧ (cfg0.win 1).xsize (grid0.coords t) 1 = 64 := by decide +kernel

/-- The masked input of the last tile does not depend on what the buffer held past the array's end. -/
theorem masked_fill0_0 (t : Fin cfg0.N) (h : t.val % 41 = 40) (d d' : Vec F S1024x1024 .f32)
    (g : ((cfg0.win 0).xblock (grid0.coords t)).Idx → Elt F .f32) (z : Vec F S1024x1024 .f32) :
    select (k0_pay7 40#32) ((cfg0.win 0).fill (grid0.coords t) d g : Vec F S1024x1024 .f32) z
      = select (k0_pay7 40#32) ((cfg0.win 0).fill (grid0.coords t) d' g : Vec F S1024x1024 .f32) z := by
  funext j
  obtain ⟨r, q, rfl⟩ : ∃ (r : Fin 1024) (q : Fin 1024), j = ix2 r q := ⟨j 0, j 1, eq_ix2 j⟩
  rw [select_apply, select_apply, Cert.Kernel.MaskWord.pay7_apply]
  by_cases hq : q.val < 64
  · rw [if_pos hq, select_one, select_one]
    have hm : (cfg0.win 0).moved (grid0.coords t) (ix2 r q) = true :=
      ((cfg0.win 0).moved_iff _ _).mpr fun a => by
        match a with
        | ⟨0, _⟩ => exact lt_of_lt_of_eq r.isLt (xsize0_0_last t h).1.symm
        | ⟨1, _⟩ => exact lt_of_lt_of_eq hq (xsize0_0_last t h).2.symm
    unfold Window.fill; rw [dif_pos hm, dif_pos hm]
  · rw [if_neg hq, select_zero, select_zero]
theorem masked_fill0_1 (t : Fin cfg0.N) (h : t.val % 41 = 40) (d d' : Vec F S1024x1024 .f32)
    (g : ((cfg0.win 1).xblock (grid0.coords t)).Idx → Elt F .f32) (z : Vec F S1024x1024 .f32) :
    select (k0_pay7 40#32) ((cfg0.win 1).fill (grid0.coords t) d g : Vec F S1024x1024 .f32) z
      = select (k0_pay7 40#32) ((cfg0.win 1).fill (grid0.coords t) d' g : Vec F S1024x1024 .f32) z := by
  funext j
  obtain ⟨r, q, rfl⟩ : ∃ (r : Fin 1024) (q : Fin 1024), j = ix2 r q := ⟨j 0, j 1, eq_ix2 j⟩
  rw [select_apply, select_apply, Cert.Kernel.MaskWord.pay7_apply]
  by_cases hq : q.val < 64
  · rw [if_pos hq, select_one, select_one]
    have hm : (cfg0.win 1).moved (grid0.coords t) (ix2 r q) = true :=
      ((cfg0.win 1).moved_iff _ _).mpr fun a => by
        match a with
        | ⟨0, _⟩ => exact lt_of_lt_of_eq r.isLt (xsize0_1_last t h).1.symm
        | ⟨1, _⟩ => exact lt_of_lt_of_eq hq (xsize0_1_last t h).2.symm
    unfold Window.fill; rw [dif_pos hm, dif_pos hm]
  · rw [if_neg hq, select_zero, select_zero]

/-- So the last tile's update of each accumulator sees only the block. -/
theorem pay8_fill (t : Fin cfg0.N) (h : t.val % 41 = 40) (d d' : Vec F S1024x1024 .f32)
    (g : ((cfg0.win 0).xblock (grid0.coords t)).Idx → Elt F .f32) (v4 : FVec F S1024x256 .bf16) (p : Vec F S1024x256 .f32) :
    k0_pay8 (BitVec.ofNat 32 ((grid0.coords t) 1).val) v4 ((cfg0.win 0).fill (grid0.coords t) d g) p
      = k0_pay8 (BitVec.ofNat 32 ((grid0.coords t) 1).val) v4 ((cfg0.win 0).fill (grid0.coords t) d' g) p := by
  rw [arg1_last t h]
  unfold k0_pay8
  dsimp only
  rw [masked_fill0_0 t h d d' g]
theorem pay9_fill (t : Fin cfg0.N) (h : t.val % 41 = 40) (d d' : Vec F S1024x1024 .f32)
    (g : ((cfg0.win 1).xblock (grid0.coords t)).Idx → Elt F .f32) (v4 : FVec F S1024x256 .bf16) (p : Vec F S1024x256 .f32) :
    k0_pay9 (BitVec.ofNat 32 ((grid0.coords t) 1).val) v4 ((cfg0.win 1).fill (grid0.coords t) d g) p
      = k0_pay9 (BitVec.ofNat 32 ((grid0.coords t) 1).val) v4 ((cfg0.win 1).fill (grid0.coords t) d' g) p := by
  rw [arg1_last t h]
  unfold k0_pay9
  dsimp only
  rw [masked_fill0_1 t h d d' g]

end Cert.Kernel.Body

end
-- ==== Proof.WBodyPost.lean ====
/-
  What the body is handed at a grid point and what it must hand back, window by window, and the three runs placed at
  the point's own staging buffers.
-/
import proofs.«131451_j14499809591732_2_alg».proof.Proof.WBodyOuts
import proofs.«131451_j14499809591732_2_alg».proof.Proof.WBodyAcc
import proofs.«131451_j14499809591732_2_alg».proof.Proof.WBodyFill

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
abbrev hs0_9 (t : Fin cfg0.N) : (st0_9 t).IsWhole := hstage0_9 ((cfg0.slots t 9).cast nbuf0_9)
abbrev hs0_10 (t : Fin cfg0.N) : (st0_10 t).IsWhole := hstage0_10 ((cfg0.slots t 10).cast nbuf0_10)
abbrev hs0_11 (t : Fin cfg0.N) : (st0_11 t).IsWhole := hstage0_11 ((cfg0.slots t 11).cast nbuf0_11)
abbrev hs0_12 (t : Fin cfg0.N) : (st0_12 t).IsWhole := hstage0_12 ((cfg0.slots t 12).cast nbuf0_12)

/-- What the body is called with at point `t`: the invariant, nothing owed, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

/-- A long input's buffer is handed back holding its block on the part inside the array, anything past it. -/
theorem leaves0_0 (c : Dev nD) (t : Fin cfg0.N) :
    (dats m 0 c).leaves 0 t = iprop(∃ d, owns (c : Thread nD τ) (st0_0 t) fullShare ((cfg0.win 0).fill (grid0.coords t) d (iblk m c 0 t))) := by
  show iprop(∃ d, owns (c : Thread nD τ) (st0_0 t) fullShare ((cfg0.win 0).fill (grid0.coords t) d ((cfg0.win 0).cut (grid0.coords t) ((dats m 0 c).after 0 t)))) = _
  rw [after0_0]; unfold x0c; rw [Window.cut_fill]
theorem leaves0_1 (c : Dev nD) (t : Fin cfg0.N) :
    (dats m 0 c).leaves 1 t = iprop(∃ d, owns (c : Thread nD τ) (st0_1 t) fullShare ((cfg0.win 1).fill (grid0.coords t) d (iblk m c 1 t))) := by
  show iprop(∃ d, owns (c : Thread nD τ) (st0_1 t) fullShare ((cfg0.win 1).fill (grid0.coords t) d ((cfg0.win 1).cut (grid0.coords t) ((dats m 0 c).after 1 t)))) = _
  rw [after0_1]; unfold x1c; rw [Window.cut_fill]
/-- Every other input's buffer is handed back holding its block. -/
theorem leaves0_2 (c : Dev nD) (t : Fin cfg0.N) :
    (dats m 0 c).leaves 2 t = owns (c : Thread nD τ) (st0_2 t) fullShare (iblk m c 2 t) := by
  show owns (c : Thread nD τ) (st0_2 t) fullShare ((dats m 0 c).after 2 t) = _
  rw [after0_2]
theorem leaves0_3 (c : Dev nD) (t : Fin cfg0.N) :
    (dats m 0 c).leaves 3 t = owns (c : Thread nD τ) (st0_3 t) fullShare (iblk m c 3 t) := by
  show owns (c : Thread nD τ) (st0_3 t) fullShare ((dats m 0 c).after 3 t) = _
  rw [after0_3]
theorem leaves0_4 (c : Dev nD) (t : Fin cfg0.N) :
    (dats m 0 c).leaves 4 t = owns (c : Thread nD τ) (st0_4 t) fullShare (iblk m c 4 t) := by
  show owns (c : Thread nD τ) (st0_4 t) fullShare ((dats m 0 c).after 4 t) = _
  rw [after0_4]
theorem leaves0_5 (c : Dev nD) (t : Fin cfg0.N) :
    (dats m 0 c).leaves 5 t = owns (c : Thread nD τ) (st0_5 t) fullShare (iblk m c 5 t) := by
  show owns (c : Thread nD τ) (st0_5 t) fullShare ((dats m 0 c).after 5 t) = _
  rw [after0_5]
theorem leaves0_6 (c : Dev nD) (t : Fin cfg0.N) :
    (dats m 0 c).leaves 6 t = owns (c : Thread nD τ) (st0_6 t) fullShare (iblk m c 6 t) := by
  show owns (c : Thread nD τ) (st0_6 t) fullShare ((dats m 0 c).after 6 t) = _
  rw [after0_6]
theorem leaves0_7 (c : Dev nD) (t : Fin cfg0.N) :
    (dats m 0 c).leaves 7 t = owns (c : Thread nD τ) (st0_7 t) fullShare (iblk m c 7 t) := by
  show owns (c : Thread nD τ) (st0_7 t) fullShare ((dats m 0 c).after 7 t) = _
  rw [after0_7]
theorem leaves0_8 (c : Dev nD) (t : Fin cfg0.N) :
    (dats m 0 c).leaves 8 t = owns (c : Thread nD τ) (st0_8 t) fullShare (iblk m c 8 t) := by
  show owns (c : Thread nD τ) (st0_8 t) fullShare ((dats m 0 c).after 8 t) = _
  rw [after0_8]
theorem leaves0_9 (c : Dev nD) (t : Fin cfg0.N) :
    (dats m 0 c).leaves 9 t = owns (c : Thread nD τ) (st0_9 t) fullShare (iblk m c 9 t) := by
  show owns (c : Thread nD τ) (st0_9 t) fullShare ((dats m 0 c).after 9 t) = _
  rw [after0_9]
theorem leaves0_10 (c : Dev nD) (t : Fin cfg0.N) :
    (dats m 0 c).leaves 10 t = owns (c : Thread nD τ) (st0_10 t) fullShare (iblk m c 10 t) := by
  show owns (c : Thread nD τ) (st0_10 t) fullShare ((dats m 0 c).after 10 t) = _
  rw [after0_10]
theorem leaves0_11 (c : Dev nD) (t : Fin cfg0.N) :
    (dats m 0 c).leaves 11 t = owns (c : Thread nD τ) (st0_11 t) fullShare (iblk m c 11 t) := by
  show owns (c : Thread nD τ) (st0_11 t) fullShare ((dats m 0 c).after 11 t) = _
  rw [after0_11]
/-- The result window at a last column tile is handed back holding the result rows; -/
theorem leaves0_12_live (c : Dev nD) (t : Fin cfg0.N) (h : t.val % 41 = 40) :
    (dats m 0 c).leaves 12 t = owns (c : Thread nD τ) (st0_12 t) fullShare (out12 m c t) := by
  unfold Dat.leaves; rw [live0_12 t h]
  show owns (c : Thread nD τ) (st0_12 t) fullShare ((dats m 0 c).after 12 t) = _
  rw [after0_12]
/-- elsewhere untouched. -/
theorem leaves0_12_idle (c : Dev nD) (t : Fin cfg0.N) (h : t.val % 41 ≠ 40) :
    (dats m 0 c).leaves 12 t = iprop(∃ d, owns (c : Thread nD τ) (st0_12 t) fullShare ((dats m 0 c).before 12 t d)) :=
  (dats m 0 c).leaves_idle 12 t (idle0_12 t h) (noFlush0_12 t h)

end Cert.Kernel.Body

end
-- ==== Proof.WBodySoundA.lean ====
/-
  The body obligation at a grid point of case A: the run of that case applies at the point's own buffers, the
  accumulators it leaves are the next value of the fold, and every window's buffer is handed back as required.
-/
import proofs.«131451_j14499809591732_2_alg».proof.Proof.WBodyPost

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (h0 : t.val % 41 = 0) :
    bodyPre m c t ⊢ wp frame (wpE (defs₀ (F := F)) Variants.none c none) Set.univ (bodyAt0 t) (fun _ => bodyPost m c t) := by
  have h2 : ¬t.val % 41 = 40 := by omega
  have hc0 : cond0_0 (grid0.coords t) := (hcond0_0 t).mpr h0
  have hc1 : cond0_1 (grid0.coords t) := (hcond0_1 t).mpr h2
  have hc2 : ¬cond0_2 (grid0.coords t) := fun h => h2 ((hcond0_2 t).mp h)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12_idle m c t h2]
  rw [acc_A m c t h0]
  by_cases hz : t.val = 0
  · rw [PhiS_castSucc m c t, PhiS_zero m c _ _ hz, PhiA0_eq]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1).2.2 ((dats m 0 c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, ⟨%es0, HS0⟩, ⟨%es1, HS1⟩⟩
    isplitl [HS0 HS1 Hg]
    · isplitl [HS0 HS1]
      · isplitl [HS0]
        · unfold owns; iexists _; isplitr
          swap; · iexact HS0
          ipureintro
          refine ((View.read_writes_eq_canon _ _ _ (cover_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x0c; dsimp only
          rw [fill0_0_uncut t h2 d0 (fun _ => Scalar.ofBits .f32 0x00000000#32)]
        · unfold owns; iexists _; isplitr
          swap; · iexact HS1
          ipureintro
          refine ((View.read_writes_eq_canon _ _ _ (cover_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x1c; dsimp only
          rw [fill0_1_uncut t h2 d1 (fun _ => Scalar.ofBits .f32 0x00000000#32)]
      · iexact Hg
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · rw [PhiS_castSucc m c t, PhiS_pos m c _ _ hz]
    generalize (acc m c (t.val - 1) (by omega)).1 = xs0
    generalize (acc m c (t.val - 1) (by omega)).2 = xs1
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1).2.2 ((dats m 0 c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, ⟨%es0, HS0⟩, ⟨%es1, HS1⟩⟩
    isplitl [HS0 HS1 Hg]
    · isplitl [HS0 HS1]
      · isplitl [HS0]
        · unfold owns; iexists _; isplitr
          swap; · iexact HS0
          ipureintro
          refine ((View.read_writes_eq_canon _ _ _ (cover_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x0c; dsimp only
          rw [fill0_0_uncut t h2 d0 (fun _ => Scalar.ofBits .f32 0x00000000#32)]
        · unfold owns; iexists _; isplitr
          swap; · iexact HS1
          ipureintro
          refine ((View.read_writes_eq_canon _ _ _ (cover_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x1c; dsimp only
          rw [fill0_1_uncut t h2 d1 (fun _ => Scalar.ofBits .f32 0x00000000#32)]
      · iexact Hg
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12

end Cert.Kernel.Body

end
-- ==== Proof.WBodySoundB.lean ====
/-
  The body obligation at a grid point of case B: the run of that case applies at the point's own buffers, the
  accumulators it leaves are the next value of the fold, and every window's buffer is handed back as required.
-/
import proofs.«131451_j14499809591732_2_alg».proof.Proof.WBodyPost

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (h0 : ¬t.val % 41 = 0) (h2 : ¬t.val % 41 = 40) :
    bodyPre m c t ⊢ wp frame (wpE (defs₀ (F := F)) Variants.none c none) Set.univ (bodyAt0 t) (fun _ => bodyPost m c t) := by
  have hz : t.val ≠ 0 := fun h => h0 (by rw [h])
  have hc0 : ¬cond0_0 (grid0.coords t) := fun h => h0 ((hcond0_0 t).mp h)
  have hc1 : cond0_1 (grid0.coords t) := (hcond0_1 t).mpr h2
  have hc2 : ¬cond0_2 (grid0.coords t) := fun h => h2 ((hcond0_2 t).mp h)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12_idle m c t h2]
  rw [acc_B m c t h0 h2]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_B c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2).2.2 ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, ⟨%es0, HS0⟩, ⟨%es1, HS1⟩⟩
  isplitl [HS0 HS1 Hg]
  · isplitl [HS0 HS1]
    · isplitl [HS0]
      · unfold owns; iexists _; isplitr
        swap; · iexact HS0
        ipureintro
        refine ((View.read_writes_eq_canon _ _ _ (cover_B_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_B_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepB x0c; dsimp only
        rw [fill0_0_uncut t h2 d0 (fun _ => Scalar.ofBits .f32 0x00000000#32)]
      · unfold owns; iexists _; isplitr
        swap; · iexact HS1
        ipureintro
        refine ((View.read_writes_eq_canon _ _ _ (cover_B_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_B_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepB x1c; dsimp only
        rw [fill0_1_uncut t h2 d1 (fun _ => Scalar.ofBits .f32 0x00000000#32)]
    · iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12; iexact H12

end Cert.Kernel.Body

end
-- ==== Proof.WBodySoundC.lean ====
/-
  The body obligation at a grid point of case C: the run of that case applies at the point's own buffers, the
  accumulators it leaves are the next value of the fold, and every window's buffer is handed back as required.
-/
import proofs.«131451_j14499809591732_2_alg».proof.Proof.WBodyPost

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (h2 : t.val % 41 = 40) :
    bodyPre m c t ⊢ wp frame (wpE (defs₀ (F := F)) Variants.none c none) Set.univ (bodyAt0 t) (fun _ => bodyPost m c t) := by
  have h0 : ¬t.val % 41 = 0 := by omega
  have hz : t.val ≠ 0 := fun h => h0 (by rw [h])
  have hc0 : ¬cond0_0 (grid0.coords t) := fun h => h0 ((hcond0_0 t).mp h)
  have hc1 : ¬cond0_1 (grid0.coords t) := fun h => ((hcond0_1 t).mp h) h2
  have hc2 : cond0_2 (grid0.coords t) := (hcond0_2 t).mpr h2
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12_live m c t h2]
  rw [acc_C m c t h2]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_C c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, ⟨%e12, H12⟩, ⟨%es0, HS0⟩, ⟨%es1, HS1⟩⟩
  isplitl [HS0 HS1 Hg]
  · isplitl [HS0 HS1]
    · isplitl [HS0]
      · unfold owns; iexists _; isplitr
        swap; · iexact HS0
        ipureintro
        refine ((View.read_writes_eq_canon _ _ _ (cover_C_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_C_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepC x0c; dsimp only
        exact pay8_fill t h2 d0 (fun _ => Scalar.ofBits .f32 0x00000000#32) (iblk m c 0 t) _ _
      · unfold owns; iexists _; isplitr
        swap; · iexact HS1
        ipureintro
        refine ((View.read_writes_eq_canon _ _ _ (cover_C_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_C_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepC x1c; dsimp only
        exact pay9_fill t h2 d1 (fun _ => Scalar.ofBits .f32 0x00000000#32) (iblk m c 1 t) _ _
    · iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro
  refine ((View.read_writes_eq_canon _ _ _ (cover_C_12 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_C_12 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
  unfold out12
  rw [acc_C m c t h2]
  unfold stepC x0c x1c; dsimp only
  rw [pay8_fill t h2 d0 (fun _ => Scalar.ofBits .f32 0x00000000#32) (iblk m c 0 t), pay9_fill t h2 d1 (fun _ => Scalar.ofBits .f32 0x00000000#32) (iblk m c 1 t)]
  rfl

end Cert.Kernel.Body

end
-- ==== Proof.WBodyFrame.lean ====
/-
  The pallas region's frame: the body obligation holds at every grid point (by the point's case), the invariant starts
  as what the launch hands over and gives it back at the end, so every weakly fair execution of the program terminates
  without a fault, the arrays the windows stage end at what the proof data computes, and the arguments end unchanged.
-/
import proofs.«131451_j14499809591732_2_alg».proof.Proof.WBodySoundA
import proofs.«131451_j14499809591732_2_alg».proof.Proof.WBodySoundB
import proofs.«131451_j14499809591732_2_alg».proof.Proof.WBodySoundC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point's position among the column tiles says which case it is. -/
theorem sound_body (c : Dev nD) (t : Fin cfg0.N) :
    bodyPre m c t ⊢ wp frame (wpE (defs₀ (F := F)) Variants.none c none) Set.univ (bodyAt0 t) (fun _ => bodyPost m c t) := by
  by_cases h2 : t.val % 41 = 40
  · exact sound_C m c t h2
  · by_cases h0 : t.val % 41 = 0
    · exact sound_A m c t h0
    · exact sound_B m c t h0 h2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' values are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 164 := N_0; omega), PhiA0_eq]
  iintro ⟨⟨HS0, HS1⟩, Hg⟩
  isplitl [HS0 HS1]
  · isplitl [HS0]
    · iexists _; iexact HS0
    · iexists _; iexact HS1
  iexact Hg

set_option backward.isDefEq.respectTransparency.types false in
/-- Every weakly fair execution of the program terminates, and every final state has every array of the region at what
    the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs and its twelve arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Body

end
-- ==== Proof.BodyConds.lean ====
/-
  The kernel body's three branch conditions as conditions on the grid point, and where each holds.

  The grid is 4 row tiles by 41 column tiles, walked row tile by row tile; a point's position modulo 41 is its column
  tile `k`. The body zeroes its two accumulators when `k = 0`, adds a plain product while `k < 40`, and at `k = 40`
  adds the masked product of the ragged last tile and computes the result rows. The result window is looked at only
  at `k = 40`, where it is also written back.
-/
import proofs.«131451_j14499809591732_2_alg».proof.Proof.Gen.KernelIdeal.Frame
import proofs.«131451_j14499809591732_2_alg».proof.Proof.Gen.KernelIdeal.Skeleton
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulators are reset: the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 41 = 0 :=
  (by decide +kernel : ∀ t : Fin grid0.N, cond0_0 (grid0.coords t) ↔ t.val % 41 = 0)

/-- A plain product is added: the column tile is not the last. -/
abbrev cond0_1 (i : grid0.Coords) : Prop := (Scalar.cmpi .ne (Scalar.extui (Scalar.cmpi .slt (BitVec.ofNat 32 (i 1).val) 40#32)) 0#32) = 1#1
theorem hcond0_1 : ∀ t : Fin cfg0.N, cond0_1 (grid0.coords t) ↔ t.val % 41 ≠ 40 :=
  (by decide +kernel : ∀ t : Fin grid0.N, cond0_1 (grid0.coords t) ↔ t.val % 41 ≠ 40)

/-- The masked product and the result rows: the column tile is the last. -/
abbrev cond0_2 (i : grid0.Coords) : Prop := k0_cond3 i = 1#1
theorem hcond0_2 : ∀ t : Fin cfg0.N, cond0_2 (grid0.coords t) ↔ t.val % 41 = 40 :=
  (by decide +kernel : ∀ t : Fin grid0.N, cond0_2 (grid0.coords t) ↔ t.val % 41 = 40)

/-- The column tile as a word is its number. -/
theorem arg1_last : ∀ t : Fin cfg0.N, t.val % 41 = 40 → BitVec.ofNat 32 ((grid0.coords t) 1).val = 40#32 :=
  (by decide +kernel : ∀ t : Fin grid0.N, t.val % 41 = 40 → BitVec.ofNat 32 ((grid0.coords t) 1).val = 40#32)

/-- The result window is looked at exactly at the last column tile. -/
theorem idle0_12 : ∀ t : Fin cfg0.N, t.val % 41 ≠ 40 → cfg0.idle 12 (grid0.coords t) = true := by decide +kernel
theorem live0_12 : ∀ t : Fin cfg0.N, t.val % 41 = 40 → cfg0.idle 12 (grid0.coords t) = false := by decide +kernel
theorem noFlush0_12 : ∀ t : Fin cfg0.N, t.val % 41 ≠ 40 → (cfg0.win 12).flush t = false := by decide +kernel

/-- The two accumulators as memrefs: whole scoped buffers beside the windows. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view
/-- One staging buffer of the result window, through which its contents are stated. -/
abbrev VO0_12 : View sig .tc .vmem S1024x1 .f32 := (Memref.whole cc0_stg12_0 : Memref sig .tc .vmem S1024x1 .f32).view

/-- What the region may use and need not describe: the two accumulators at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem hz : (![0, 0] : Fin 2 → Nat) = fun _ => 0 := funext fun a => by fin_cases a <;> rfl

end Cert.KernelIdeal.Body

end
-- ==== Proof.BodyRunA.lean ====
/-
  The kernel body run once, symbolically, at a grid point of case A: the first column tile — the accumulators are zeroed, then the first product is added.
-/
import proofs.«131451_j14499809591732_2_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the twelve inputs' at their contents, the result window's handed back untouched, the two accumulators' at what
    the point before left — the body runs to the end holding the inputs' as they were and each buffer it stored into
    with its stores written, last first; the stores are what the run finds. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) :
    Σ' (LS0 : List (View.Piece (Elt F) S1024x256 .f32)), { LS1 : List (View.Piece (Elt F) S1024x256 .f32) //
      ∀ (xi12 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi12 E K => ?run⟩
  case run =>
    simp only [cc0__nnue_kernel_eq_skeleton]; unfold cc0__nnue_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg15.eq_unread hfs0; obtain rfl := harg16.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; iexact HS0
    · iexists _; iexact HS1

end Cert.KernelIdeal.Body

end
-- ==== Proof.BodyRunB.lean ====
/-
  The kernel body run once, symbolically, at a grid point of case B: a middle column tile — a product is added to each accumulator.
-/
import proofs.«131451_j14499809591732_2_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the twelve inputs' at their contents, the result window's handed back untouched, the two accumulators' at what
    the point before left — the body runs to the end holding the inputs' as they were and each buffer it stored into
    with its stores written, last first; the stores are what the run finds. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) :
    Σ' (LS0 : List (View.Piece (Elt F) S1024x256 .f32)), { LS1 : List (View.Piece (Elt F) S1024x256 .f32) //
      ∀ (xi12 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi12 E K => ?run⟩
  case run =>
    simp only [cc0__nnue_kernel_eq_skeleton]; unfold cc0__nnue_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg15.eq_unread hfs0; obtain rfl := harg16.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; iexact HS0
    · iexists _; iexact HS1

end Cert.KernelIdeal.Body

end
-- ==== Proof.BodyRunC.lean ====
/-
  The kernel body run once, symbolically, at a grid point of case C: the last column tile — the masked product is added, and the result rows are computed from the accumulators and stored.
-/
import proofs.«131451_j14499809591732_2_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the twelve inputs' at their contents, the result window's at anything, the two accumulators' at what
    the point before left — the body runs to the end holding the inputs' as they were and each buffer it stored into
    with its stores written, last first; the stores are what the run finds. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) :
    Σ' (L12 : List (View.Piece (Elt F) S1024x1 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__nnue_kernel_eq_skeleton]; unfold cc0__nnue_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg15.eq_unread hfs0; obtain rfl := harg16.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [HS0]
    · iexists _; iexact HS0
    · iexists _; iexact HS1

end Cert.KernelIdeal.Body

end
-- ==== Proof.BodyOuts.lean ====
/-
  What each case's run leaves in the accumulators and in the result window, as values.

  Each buffer the body stores into is stored whole, so what it holds afterwards is the payload of its last store; a
  load that follows a store of the same buffer reads that store's payload back. Written out, case by case: the
  accumulators after the first column tile are the product added to the zero block, after a middle tile the product
  added to what they held, after the last tile the masked product added to what they held; and the result rows are the
  tail computation of the accumulators just updated.
-/
import proofs.«131451_j14499809591732_2_alg».proof.Proof.BodyRunA
import proofs.«131451_j14499809591732_2_alg».proof.Proof.BodyRunB
import proofs.«131451_j14499809591732_2_alg».proof.Proof.BodyRunC
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stores cover -/

theorem cover_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1, y ∈ pc.1.set :=
  View.cover_of_tiledL _ S1024x256.size (by sl_kernel_rfl) y
theorem cover_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1, y ∈ pc.1.set :=
  View.cover_of_tiledL _ S1024x256.size (by sl_kernel_rfl) y
theorem cover_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1, y ∈ pc.1.set :=
  View.cover_of_tiledL _ S1024x256.size (by sl_kernel_rfl) y
theorem cover_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1, y ∈ pc.1.set :=
  View.cover_of_tiledL _ S1024x256.size (by sl_kernel_rfl) y
theorem cover_C_12 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x1.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1, y ∈ pc.1.set :=
  View.cover_of_tiledL _ S1024x1.size (by sl_kernel_rfl) y
theorem cover_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1, y ∈ pc.1.set :=
  View.cover_of_tiledL _ S1024x256.size (by sl_kernel_rfl) y
theorem cover_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) (y : S1024x256.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.2.1, y ∈ pc.1.set :=
  View.cover_of_tiledL _ S1024x256.size (by sl_kernel_rfl) y

/-! ## The values -/

/-- A middle column tile: each accumulator ends at what it held plus the tile's product. -/
theorem val_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1 = k0_pay4 x2 x0 xs0 := by
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]
theorem val_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1 = k0_pay5 x2 x1 xs1 := by
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

/-- The first column tile: each accumulator ends at the zero block plus the tile's product. -/
theorem val_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1 = k0_pay4 x2 x0 k0_pay1 := by
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]
theorem val_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : cond0_1 i) (hc2 : ¬cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1 = k0_pay5 x2 x1 k0_pay2 := by
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

/-- The last column tile: each accumulator ends at what it held plus the masked product; -/
theorem val_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.1 = k0_pay8 (BitVec.ofNat 32 (i 1).val) (k0_pay3 x2) x0 xs0 := by
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]
theorem val_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).2.2.1 = k0_pay9 (BitVec.ofNat 32 (i 1).val) (k0_pay3 x2) x1 xs1 := by
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz]

/-- and the result rows are the tail computation of the two accumulators just updated. -/
theorem val_C_12 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S512x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (hc2 : cond0_2 i)
    (x0 : Vec F S1024x1024 .f32) (x1 : Vec F S1024x1024 .f32) (x2 : Vec F S1024x256 .bf16) (x3 : Vec F S1x256 .f32) (x4 : Vec F S1024x1 .f32) (x5 : Vec F S1024x1 .f32) (x6 : Vec F S512x32 .f32) (x7 : Vec F S1x32 .f32) (x8 : Vec F S32x32 .f32) (x9 : Vec F S1x32 .f32) (x10 : Vec F S32x1 .f32) (x11 : Vec F S1x1 .f32) (xs0 xs1 : Vec F S1024x256 .f32) : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0 xs1).1
    = k0_pay6 (k0_pay16
        (k0_pay13 x3 (k0_pay8 (BitVec.ofNat 32 (i 1).val) (k0_pay3 x2) x0 xs0) (k0_pay9 (BitVec.ofNat 32 (i 1).val) (k0_pay3 x2) x1 xs1))
        (k0_pay14 x3 (k0_pay8 (BitVec.ofNat 32 (i 1).val) (k0_pay3 x2) x0 xs0) (k0_pay9 (BitVec.ofNat 32 (i 1).val) (k0_pay3 x2) x1 xs1))
        (k0_pay15 x4) x5 x6 x7 x8 x9 x10) (k0_pay17 x11) := by
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1024x1024) hz, View.ld_unit_zero (S := S1024x256) hz, View.ld_unit_zero (S := S1x256) hz, View.ld_unit_zero (S := S1024x1) hz, View.ld_unit_zero (S := S512x32) hz, View.ld_unit_zero (S := S1x32) hz, View.ld_unit_zero (S := S32x32) hz, View.ld_unit_zero (S := S32x1) hz, View.ld_unit_zero (S := S1x1) hz, View.readCov_unit_zero (S := S1024x256) _ hz]

end Cert.KernelIdeal.Body

end
-- ==== Proof.BodyAcc.lean ====
/-
  The proof data of the pallas region: what every staging buffer and the two accumulators hold, point by point.

  The accumulators are a fold over the column tiles of a row tile: the first tile's product added to the zero block,
  each middle tile's product added to the running value, the last tile's masked product added at the end; the result
  rows are the tail computation of the accumulators at the last tile. A window of the two long inputs holds its block
  on the part inside the array; what lies past the array's end in the ragged last tile is filled with the zero word
  here (the masked product never reads it).
-/
import proofs.«131451_j14499809591732_2_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first long input's block at point `t`, filled out with the zero word past the array's end. -/
def x0c (c : Dev nD) (t : Fin cfg0.N) : Vec F S1024x1024 .f32 :=
  (cfg0.win 0).fill (grid0.coords t) (fun _ => Scalar.ofBits .f32 0x00000000#32) (iblk m c 0 t)
/-- The second's. -/
def x1c (c : Dev nD) (t : Fin cfg0.N) : Vec F S1024x1024 .f32 :=
  (cfg0.win 1).fill (grid0.coords t) (fun _ => Scalar.ofBits .f32 0x00000000#32) (iblk m c 1 t)

/-- The accumulators after a first column tile: the tile's products added to the zero block. -/
def stepA (c : Dev nD) (t : Fin cfg0.N) : Vec F S1024x256 .f32 × Vec F S1024x256 .f32 :=
  (k0_pay4 (iblk m c 2 t) (x0c m c t) k0_pay1, k0_pay5 (iblk m c 2 t) (x1c m c t) k0_pay2)
/-- After a middle tile: the tile's products added to the running values. -/
def stepB (c : Dev nD) (t : Fin cfg0.N) (p : Vec F S1024x256 .f32 × Vec F S1024x256 .f32) :
    Vec F S1024x256 .f32 × Vec F S1024x256 .f32 :=
  (k0_pay4 (iblk m c 2 t) (x0c m c t) p.1, k0_pay5 (iblk m c 2 t) (x1c m c t) p.2)
/-- After the last tile: the masked products added to the running values. -/
def stepC (c : Dev nD) (t : Fin cfg0.N) (p : Vec F S1024x256 .f32 × Vec F S1024x256 .f32) :
    Vec F S1024x256 .f32 × Vec F S1024x256 .f32 :=
  (k0_pay8 (BitVec.ofNat 32 ((grid0.coords t) 1).val) (k0_pay3 (iblk m c 2 t)) (x0c m c t) p.1,
   k0_pay9 (BitVec.ofNat 32 ((grid0.coords t) 1).val) (k0_pay3 (iblk m c 2 t)) (x1c m c t) p.2)

/-- The two accumulators after point `n`, by recursion on the point. -/
def acc (c : Dev nD) : (n : ℕ) → n < cfg0.N → Vec F S1024x256 .f32 × Vec F S1024x256 .f32
  | 0, h => stepA m c ⟨0, h⟩
  | n + 1, h =>
    if (n + 1) % 41 = 0 then stepA m c ⟨n + 1, h⟩
    else if (n + 1) % 41 = 40 then stepC m c ⟨n + 1, h⟩ (acc c n (Nat.lt_of_succ_lt h))
    else stepB m c ⟨n + 1, h⟩ (acc c n (Nat.lt_of_succ_lt h))

theorem acc_A (c : Dev nD) (t : Fin cfg0.N) (h0 : t.val % 41 = 0) : acc m c t.val t.isLt = stepA m c t := by
  obtain ⟨n, hn⟩ := t
  cases n with
  | zero => rfl
  | succ n => exact if_pos h0
theorem acc_B (c : Dev nD) (t : Fin cfg0.N) (h0 : ¬t.val % 41 = 0) (h2 : ¬t.val % 41 = 40) :
    acc m c t.val t.isLt = stepB m c t (acc m c (t.val - 1) (Nat.lt_of_le_of_lt (Nat.sub_le _ _) t.isLt)) := by
  obtain ⟨n, hn⟩ := t
  cases n with
  | zero => exact absurd (Nat.zero_mod _) h0
  | succ n => exact (if_neg h0).trans (if_neg h2)
theorem acc_C (c : Dev nD) (t : Fin cfg0.N) (h2 : t.val % 41 = 40) :
    acc m c t.val t.isLt = stepC m c t (acc m c (t.val - 1) (Nat.lt_of_le_of_lt (Nat.sub_le _ _) t.isLt)) := by
  obtain ⟨n, hn⟩ := t
  cases n with
  | zero => exact absurd (show (0 : ℕ) % 41 = 40 from h2) (by decide)
  | succ n =>
    have h2' : (n + 1) % 41 = 40 := h2
    exact (if_neg (by omega)).trans (if_pos h2')

/-- The result rows stored at point `t` (read only at a last column tile): the tail computation of the accumulators. -/
def out12 (c : Dev nD) (t : Fin cfg0.N) : Vec F S1024x1 .f32 :=
  k0_pay6 (k0_pay16 (k0_pay13 (iblk m c 3 t) (acc m c t.val t.isLt).1 (acc m c t.val t.isLt).2)
      (k0_pay14 (iblk m c 3 t) (acc m c t.val t.isLt).1 (acc m c t.val t.isLt).2) (k0_pay15 (iblk m c 4 t)) (iblk m c 5 t) (iblk m c 6 t) (iblk m c 7 t) (iblk m c 8 t) (iblk m c 9 t) (iblk m c 10 t))
    (k0_pay17 (iblk m c 11 t))

/-- The region's invariant before position `n`: at the start what the launch hands over; afterwards the two accumulators
    at their values after the point before, and the generator register at some state. -/
def PhiS (c : Dev nD) : (n : ℕ) → n ≤ cfg0.N → sProp 𝕄
  | 0, _ => Pipeline.ΦA spec0 c
  | n + 1, hn => iprop(iprop(owns (c : Thread nD τ) scM0_0 fullShare (acc m c n hn).1 ∗ owns (c : Thread nD τ) scM0_1 fullShare (acc m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (acc m c n hn).1 ∗ owns (c : Thread nD τ) scM0_1 fullShare (acc m c n hn).2) ∗ (∃ r, prngReg c r)) := rfl
theorem PhiS_pos (c : Dev nD) (n : ℕ) (h : n ≤ cfg0.N) (hz : n ≠ 0) :
    PhiS m c n h = iprop(iprop(owns (c : Thread nD τ) scM0_0 fullShare (acc m c (n - 1) (by omega)).1 ∗ owns (c : Thread nD τ) scM0_1 fullShare (acc m c (n - 1) (by omega)).2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => x0c m c t
    | ⟨1, _⟩ => x1c m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = x0c m c t := by dsimp only [dats]
theorem after0_1 (c : Dev nD) (t : Fin cfg0.N) : (dats m 0 c).after 1 t = x1c m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out12 m c t := by dsimp only [dats]

theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- A long input's buffer, fetched at every point, holds its block on the part inside the array. -/
theorem before0_0 (c : Dev nD) (t : Fin cfg0.N) (d) :
    (dats m 0 c).before 0 t d = (cfg0.win 0).fill (grid0.coords t) d (iblk m c 0 t) := by
  rw [(dats m 0 c).before_fetched 0 t (fetch0_0 t)]; unfold Dat.fetched Dat.blockOf iblk; rw [A_eq]
theorem before0_1 (c : Dev nD) (t : Fin cfg0.N) (d) :
    (dats m 0 c).before 1 t d = (cfg0.win 1).fill (grid0.coords t) d (iblk m c 1 t) := by
  rw [(dats m 0 c).before_fetched 1 t (fetch0_1 t)]; unfold Dat.fetched Dat.blockOf iblk; rw [A_eq]

end Cert.KernelIdeal.Body

end
-- ==== Proof.MaskWord.lean ====
/-
  The mask of the last accumulation step, read at an entry.

  The step's block covers columns `40 · 1024 + q` of a 41024-column array for `q < 1024`; the mask compares that
  column number with 41024 as signed 32-bit words. Both numbers are below 2^31, so the comparison is that of the
  numbers, and the mask bit is set exactly for `q < 64`.
-/
import proofs.«131451_j14499809591732_2_alg».proof.Proof.Gen.KernelIdeal.Skeleton
import Idealize.ShloMosaic.Lib.Pipeline.Value
import Idealize.ShloMosaic.Lib.ValueIdx

noncomputable section

namespace Cert.KernelIdeal.MaskWord

open Idealize.ShloMosaic Idealize.ShloMosaic.ValueIdx Idealize.SL.Sem Cert.KernelIdeal Cert.KernelIdeal.Gen

/-- Signed comparison of two 32-bit words below 2^31 is comparison of the numbers. -/
theorem slt_small (x y : Nat) (hx : x < 2^31) (hy : y < 2^31) :
    (BitVec.ofNat 32 x).slt (BitVec.ofNat 32 y) = decide (x < y) := by
  have tx : ∀ z : Nat, z < 2^31 → (BitVec.ofNat 32 z).toInt = (z : Int) := fun z hz => by
    have h : (BitVec.ofNat 32 z).toNat = z := by rw [BitVec.toNat_ofNat]; omega
    rw [BitVec.toInt_eq_toNat_of_lt (by rw [h]; omega), h]
  unfold BitVec.slt
  rw [tx x hx, tx y hy]
  congr 1
  apply propext
  constructor <;> intro h <;> omega

/-- The mask of the last step: column `q` of the block is column `40 · 1024 + q` of the array, which lies inside
    its 41024 columns exactly when `q < 64`. -/
theorem pay7_apply (r q : Fin 1024) :
    k0_pay7 40#32 (ix2 r q) = if q.val < 64 then 1#1 else 0#1 := by
  unfold k0_pay7
  show IntOp.cmpi .slt (IntOp.addi (Scalar.muli 40#32 1024#32) (iota .tc S1024x1024 32 [1] iota_S1024x1024_d1_w32 (ix2 r q))) 41024#32 = _
  rw [iota_single_apply]
  show BitVec.ofBool ((40#32 * 1024#32 + BitVec.ofNat 32 q.val).slt 41024#32) = _
  have hq := q.isLt
  have e : (40#32 * 1024#32 + BitVec.ofNat 32 q.val) = BitVec.ofNat 32 (40960 + q.val) := by
    rw [BitVec.ofNat_add]; rfl
  rw [e, show (41024#32) = BitVec.ofNat 32 41024 from rfl, slt_small _ _ (by omega) (by omega)]
  by_cases h : q.val < 64
  · rw [if_pos h, decide_eq_true (by omega)]; rfl
  · rw [if_neg h, decide_eq_false (by omega)]; rfl

end Cert.KernelIdeal.MaskWord

end
-- ==== Proof.BodyFill.lean ====
/-
  What lies past the array's end in a long input's buffer never reaches an accumulator.

  At every column tile but the last the block lies inside the array, so the buffer holds the block and nothing else.
  At the last tile only the first 64 of the 1024 columns lie inside; the body keeps exactly those columns and puts the
  zero word in the others before it multiplies, so two buffers that agree on the block give the same masked input.
-/
import proofs.«131451_j14499809591732_2_alg».proof.Proof.BodyConds
import proofs.«131451_j14499809591732_2_alg».proof.Proof.MaskWord
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- Away from the last column tile neither long input's block is cut. -/
theorem noclip0_0 : ∀ t : Fin cfg0.N, t.val % 41 ≠ 40 → ∀ a, (cfg0.win 0).clip (grid0.coords t) a = none := by decide +kernel
theorem noclip0_1 : ∀ t : Fin cfg0.N, t.val % 41 ≠ 40 → ∀ a, (cfg0.win 1).clip (grid0.coords t) a = none := by decide +kernel

/-- So there the buffer is the block, whatever it held before. -/
theorem fill0_0_uncut {α : Type} (t : Fin cfg0.N) (h : t.val % 41 ≠ 40) (d d' : (cfg0.win 0).block.Idx → α)
    (g : ((cfg0.win 0).xblock (grid0.coords t)).Idx → α) :
    (cfg0.win 0).fill (grid0.coords t) d g = (cfg0.win 0).fill (grid0.coords t) d' g :=
  Pipeline.fill_of_clip_none (cfg := cfg0) 0 (grid0.coords t) (noclip0_0 t h) d d' g
theorem fill0_1_uncut {α : Type} (t : Fin cfg0.N) (h : t.val % 41 ≠ 40) (d d' : (cfg0.win 1).block.Idx → α)
    (g : ((cfg0.win 1).xblock (grid0.coords t)).Idx → α) :
    (cfg0.win 1).fill (grid0.coords t) d g = (cfg0.win 1).fill (grid0.coords t) d' g :=
  Pipeline.fill_of_clip_none (cfg := cfg0) 1 (grid0.coords t) (noclip0_1 t h) d d' g

/-- At the last column tile the part inside the array is all 1024 rows and the first 64 columns. -/
theorem xsize0_0_last : ∀ t : Fin cfg0.N, t.val % 41 = 40 →
    (cfg0.win 0).xsize (grid0.coords t) 0 = 1024 ∧ (cfg0.win 0).xsize (grid0.coords t) 1 = 64 := by decide +kernel
theorem xsize0_1_last : ∀ t : Fin cfg0.N, t.val % 41 = 40 →
    (cfg0.win 1).xsize (grid0.coords t) 0 = 1024 ∧ (cfg0.win 1).xsize (grid0.coords t) 1 = 64 := by decide +kernel

/-- The masked input of the last tile does not depend on what the buffer held past the array's end. -/
theorem masked_fill0_0 (t : Fin cfg0.N) (h : t.val % 41 = 40) (d d' : Vec F S1024x1024 .f32)
    (g : ((cfg0.win 0).xblock (grid0.coords t)).Idx → Elt F .f32) (z : Vec F S1024x1024 .f32) :
    select (k0_pay7 40#32) ((cfg0.win 0).fill (grid0.coords t) d g : Vec F S1024x1024 .f32) z
      = select (k0_pay7 40#32) ((cfg0.win 0).fill (grid0.coords t) d' g : Vec F S1024x1024 .f32) z := by
  funext j
  obtain ⟨r, q, rfl⟩ : ∃ (r : Fin 1024) (q : Fin 1024), j = ix2 r q := ⟨j 0, j 1, eq_ix2 j⟩
  rw [select_apply, select_apply, Cert.KernelIdeal.MaskWord.pay7_apply]
  by_cases hq : q.val < 64
  · rw [if_pos hq, select_one, select_one]
    have hm : (cfg0.win 0).moved (grid0.coords t) (ix2 r q) = true :=
      ((cfg0.win 0).moved_iff _ _).mpr fun a => by
        match a with
        | ⟨0, _⟩ => exact lt_of_lt_of_eq r.isLt (xsize0_0_last t h).1.symm
        | ⟨1, _⟩ => exact lt_of_lt_of_eq hq (xsize0_0_last t h).2.symm
    unfold Window.fill; rw [dif_pos hm, dif_pos hm]
  · rw [if_neg hq, select_zero, select_zero]
theorem masked_fill0_1 (t : Fin cfg0.N) (h : t.val % 41 = 40) (d d' : Vec F S1024x1024 .f32)
    (g : ((cfg0.win 1).xblock (grid0.coords t)).Idx → Elt F .f32) (z : Vec F S1024x1024 .f32) :
    select (k0_pay7 40#32) ((cfg0.win 1).fill (grid0.coords t) d g : Vec F S1024x1024 .f32) z
      = select (k0_pay7 40#32) ((cfg0.win 1).fill (grid0.coords t) d' g : Vec F S1024x1024 .f32) z := by
  funext j
  obtain ⟨r, q, rfl⟩ : ∃ (r : Fin 1024) (q : Fin 1024), j = ix2 r q := ⟨j 0, j 1, eq_ix2 j⟩
  rw [select_apply, select_apply, Cert.KernelIdeal.MaskWord.pay7_apply]
  by_cases hq : q.val < 64
  · rw [if_pos hq, select_one, select_one]
    have hm : (cfg0.win 1).moved (grid0.coords t) (ix2 r q) = true :=
      ((cfg0.win 1).moved_iff _ _).mpr fun a => by
        match a with
        | ⟨0, _⟩ => exact lt_of_lt_of_eq r.isLt (xsize0_1_last t h).1.symm
        | ⟨1, _⟩ => exact lt_of_lt_of_eq hq (xsize0_1_last t h).2.symm
    unfold Window.fill; rw [dif_pos hm, dif_pos hm]
  · rw [if_neg hq, select_zero, select_zero]

/-- So the last tile's update of each accumulator sees only the block. -/
theorem pay8_fill (t : Fin cfg0.N) (h : t.val % 41 = 40) (d d' : Vec F S1024x1024 .f32)
    (g : ((cfg0.win 0).xblock (grid0.coords t)).Idx → Elt F .f32) (v4 : FVec F S1024x256 .bf16) (p : Vec F S1024x256 .f32) :
    k0_pay8 (BitVec.ofNat 32 ((grid0.coords t) 1).val) v4 ((cfg0.win 0).fill (grid0.coords t) d g) p
      = k0_pay8 (BitVec.ofNat 32 ((grid0.coords t) 1).val) v4 ((cfg0.win 0).fill (grid0.coords t) d' g) p := by
  rw [arg1_last t h]
  unfold k0_pay8
  dsimp only
  rw [masked_fill0_0 t h d d' g]
theorem pay9_fill (t : Fin cfg0.N) (h : t.val % 41 = 40) (d d' : Vec F S1024x1024 .f32)
    (g : ((cfg0.win 1).xblock (grid0.coords t)).Idx → Elt F .f32) (v4 : FVec F S1024x256 .bf16) (p : Vec F S1024x256 .f32) :
    k0_pay9 (BitVec.ofNat 32 ((grid0.coords t) 1).val) v4 ((cfg0.win 1).fill (grid0.coords t) d g) p
      = k0_pay9 (BitVec.ofNat 32 ((grid0.coords t) 1).val) v4 ((cfg0.win 1).fill (grid0.coords t) d' g) p := by
  rw [arg1_last t h]
  unfold k0_pay9
  dsimp only
  rw [masked_fill0_1 t h d d' g]

end Cert.KernelIdeal.Body

end
-- ==== Proof.BodyPost.lean ====
/-
  What the body is handed at a grid point and what it must hand back, window by window, and the three runs placed at
  the point's own staging buffers.
-/
import proofs.«131451_j14499809591732_2_alg».proof.Proof.BodyOuts
import proofs.«131451_j14499809591732_2_alg».proof.Proof.BodyAcc
import proofs.«131451_j14499809591732_2_alg».proof.Proof.BodyFill

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
abbrev hs0_9 (t : Fin cfg0.N) : (st0_9 t).IsWhole := hstage0_9 ((cfg0.slots t 9).cast nbuf0_9)
abbrev hs0_10 (t : Fin cfg0.N) : (st0_10 t).IsWhole := hstage0_10 ((cfg0.slots t 10).cast nbuf0_10)
abbrev hs0_11 (t : Fin cfg0.N) : (st0_11 t).IsWhole := hstage0_11 ((cfg0.slots t 11).cast nbuf0_11)
abbrev hs0_12 (t : Fin cfg0.N) : (st0_12 t).IsWhole := hstage0_12 ((cfg0.slots t 12).cast nbuf0_12)

/-- What the body is called with at point `t`: the invariant, nothing owed, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

/-- A long input's buffer is handed back holding its block on the part inside the array, anything past it. -/
theorem leaves0_0 (c : Dev nD) (t : Fin cfg0.N) :
    (dats m 0 c).leaves 0 t = iprop(∃ d, owns (c : Thread nD τ) (st0_0 t) fullShare ((cfg0.win 0).fill (grid0.coords t) d (iblk m c 0 t))) := by
  show iprop(∃ d, owns (c : Thread nD τ) (st0_0 t) fullShare ((cfg0.win 0).fill (grid0.coords t) d ((cfg0.win 0).cut (grid0.coords t) ((dats m 0 c).after 0 t)))) = _
  rw [after0_0]; unfold x0c; rw [Window.cut_fill]
theorem leaves0_1 (c : Dev nD) (t : Fin cfg0.N) :
    (dats m 0 c).leaves 1 t = iprop(∃ d, owns (c : Thread nD τ) (st0_1 t) fullShare ((cfg0.win 1).fill (grid0.coords t) d (iblk m c 1 t))) := by
  show iprop(∃ d, owns (c : Thread nD τ) (st0_1 t) fullShare ((cfg0.win 1).fill (grid0.coords t) d ((cfg0.win 1).cut (grid0.coords t) ((dats m 0 c).after 1 t)))) = _
  rw [after0_1]; unfold x1c; rw [Window.cut_fill]
/-- Every other input's buffer is handed back holding its block. -/
theorem leaves0_2 (c : Dev nD) (t : Fin cfg0.N) :
    (dats m 0 c).leaves 2 t = owns (c : Thread nD τ) (st0_2 t) fullShare (iblk m c 2 t) := by
  show owns (c : Thread nD τ) (st0_2 t) fullShare ((dats m 0 c).after 2 t) = _
  rw [after0_2]
theorem leaves0_3 (c : Dev nD) (t : Fin cfg0.N) :
    (dats m 0 c).leaves 3 t = owns (c : Thread nD τ) (st0_3 t) fullShare (iblk m c 3 t) := by
  show owns (c : Thread nD τ) (st0_3 t) fullShare ((dats m 0 c).after 3 t) = _
  rw [after0_3]
theorem leaves0_4 (c : Dev nD) (t : Fin cfg0.N) :
    (dats m 0 c).leaves 4 t = owns (c : Thread nD τ) (st0_4 t) fullShare (iblk m c 4 t) := by
  show owns (c : Thread nD τ) (st0_4 t) fullShare ((dats m 0 c).after 4 t) = _
  rw [after0_4]
theorem leaves0_5 (c : Dev nD) (t : Fin cfg0.N) :
    (dats m 0 c).leaves 5 t = owns (c : Thread nD τ) (st0_5 t) fullShare (iblk m c 5 t) := by
  show owns (c : Thread nD τ) (st0_5 t) fullShare ((dats m 0 c).after 5 t) = _
  rw [after0_5]
theorem leaves0_6 (c : Dev nD) (t : Fin cfg0.N) :
    (dats m 0 c).leaves 6 t = owns (c : Thread nD τ) (st0_6 t) fullShare (iblk m c 6 t) := by
  show owns (c : Thread nD τ) (st0_6 t) fullShare ((dats m 0 c).after 6 t) = _
  rw [after0_6]
theorem leaves0_7 (c : Dev nD) (t : Fin cfg0.N) :
    (dats m 0 c).leaves 7 t = owns (c : Thread nD τ) (st0_7 t) fullShare (iblk m c 7 t) := by
  show owns (c : Thread nD τ) (st0_7 t) fullShare ((dats m 0 c).after 7 t) = _
  rw [after0_7]
theorem leaves0_8 (c : Dev nD) (t : Fin cfg0.N) :
    (dats m 0 c).leaves 8 t = owns (c : Thread nD τ) (st0_8 t) fullShare (iblk m c 8 t) := by
  show owns (c : Thread nD τ) (st0_8 t) fullShare ((dats m 0 c).after 8 t) = _
  rw [after0_8]
theorem leaves0_9 (c : Dev nD) (t : Fin cfg0.N) :
    (dats m 0 c).leaves 9 t = owns (c : Thread nD τ) (st0_9 t) fullShare (iblk m c 9 t) := by
  show owns (c : Thread nD τ) (st0_9 t) fullShare ((dats m 0 c).after 9 t) = _
  rw [after0_9]
theorem leaves0_10 (c : Dev nD) (t : Fin cfg0.N) :
    (dats m 0 c).leaves 10 t = owns (c : Thread nD τ) (st0_10 t) fullShare (iblk m c 10 t) := by
  show owns (c : Thread nD τ) (st0_10 t) fullShare ((dats m 0 c).after 10 t) = _
  rw [after0_10]
theorem leaves0_11 (c : Dev nD) (t : Fin cfg0.N) :
    (dats m 0 c).leaves 11 t = owns (c : Thread nD τ) (st0_11 t) fullShare (iblk m c 11 t) := by
  show owns (c : Thread nD τ) (st0_11 t) fullShare ((dats m 0 c).after 11 t) = _
  rw [after0_11]
/-- The result window at a last column tile is handed back holding the result rows; -/
theorem leaves0_12_live (c : Dev nD) (t : Fin cfg0.N) (h : t.val % 41 = 40) :
    (dats m 0 c).leaves 12 t = owns (c : Thread nD τ) (st0_12 t) fullShare (out12 m c t) := by
  unfold Dat.leaves; rw [live0_12 t h]
  show owns (c : Thread nD τ) (st0_12 t) fullShare ((dats m 0 c).after 12 t) = _
  rw [after0_12]
/-- elsewhere untouched. -/
theorem leaves0_12_idle (c : Dev nD) (t : Fin cfg0.N) (h : t.val % 41 ≠ 40) :
    (dats m 0 c).leaves 12 t = iprop(∃ d, owns (c : Thread nD τ) (st0_12 t) fullShare ((dats m 0 c).before 12 t d)) :=
  (dats m 0 c).leaves_idle 12 t (idle0_12 t h) (noFlush0_12 t h)

end Cert.KernelIdeal.Body

end
-- ==== Proof.BodySoundA.lean ====
/-
  The body obligation at a grid point of case A: the run of that case applies at the point's own buffers, the
  accumulators it leaves are the next value of the fold, and every window's buffer is handed back as required.
-/
import proofs.«131451_j14499809591732_2_alg».proof.Proof.BodyPost

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (h0 : t.val % 41 = 0) :
    bodyPre m c t ⊢ wp frame (wpE (defs₀ (F := F)) Variants.none c none) Set.univ (bodyAt0 t) (fun _ => bodyPost m c t) := by
  have h2 : ¬t.val % 41 = 40 := by omega
  have hc0 : cond0_0 (grid0.coords t) := (hcond0_0 t).mpr h0
  have hc1 : cond0_1 (grid0.coords t) := (hcond0_1 t).mpr h2
  have hc2 : ¬cond0_2 (grid0.coords t) := fun h => h2 ((hcond0_2 t).mp h)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12_idle m c t h2]
  rw [acc_A m c t h0]
  by_cases hz : t.val = 0
  · rw [PhiS_castSucc m c t, PhiS_zero m c _ _ hz, PhiA0_eq]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1).2.2 ((dats m 0 c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, ⟨%es0, HS0⟩, ⟨%es1, HS1⟩⟩
    isplitl [HS0 HS1 Hg]
    · isplitl [HS0 HS1]
      · isplitl [HS0]
        · unfold owns; iexists _; isplitr
          swap; · iexact HS0
          ipureintro
          refine ((View.read_writes_eq_canon _ _ _ (cover_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x0c; dsimp only
          rw [fill0_0_uncut t h2 d0 (fun _ => Scalar.ofBits .f32 0x00000000#32)]
        · unfold owns; iexists _; isplitr
          swap; · iexact HS1
          ipureintro
          refine ((View.read_writes_eq_canon _ _ _ (cover_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x1c; dsimp only
          rw [fill0_1_uncut t h2 d1 (fun _ => Scalar.ofBits .f32 0x00000000#32)]
      · iexact Hg
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · rw [PhiS_castSucc m c t, PhiS_pos m c _ _ hz]
    generalize (acc m c (t.val - 1) (by omega)).1 = xs0
    generalize (acc m c (t.val - 1) (by omega)).2 = xs1
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1).2.2 ((dats m 0 c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, ⟨%es0, HS0⟩, ⟨%es1, HS1⟩⟩
    isplitl [HS0 HS1 Hg]
    · isplitl [HS0 HS1]
      · isplitl [HS0]
        · unfold owns; iexists _; isplitr
          swap; · iexact HS0
          ipureintro
          refine ((View.read_writes_eq_canon _ _ _ (cover_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x0c; dsimp only
          rw [fill0_0_uncut t h2 d0 (fun _ => Scalar.ofBits .f32 0x00000000#32)]
        · unfold owns; iexists _; isplitr
          swap; · iexact HS1
          ipureintro
          refine ((View.read_writes_eq_canon _ _ _ (cover_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans (val_A_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs0 xs1)).trans ?_
          unfold stepA x1c; dsimp only
          rw [fill0_1_uncut t h2 d1 (fun _ => Scalar.ofBits .f32 0x00000000#32)]
      · iexact Hg
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12

end Cert.KernelIdeal.Body

end
-- ==== Proof.BodySoundB.lean ====
/-
  The body obligation at a grid point of case B: the run of that case applies at the point's own buffers, the
  accumulators it leaves are the next value of the fold, and every window's buffer is handed back as required.
-/
import proofs.«131451_j14499809591732_2_alg».proof.Proof.BodyPost

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (h0 : ¬t.val % 41 = 0) (h2 : ¬t.val % 41 = 40) :
    bodyPre m c t ⊢ wp frame (wpE (defs₀ (F := F)) Variants.none c none) Set.univ (bodyAt0 t) (fun _ => bodyPost m c t) := by
  have hz : t.val ≠ 0 := fun h => h0 (by rw [h])
  have hc0 : ¬cond0_0 (grid0.coords t) := fun h => h0 ((hcond0_0 t).mp h)
  have hc1 : cond0_1 (grid0.coords t) := (hcond0_1 t).mpr h2
  have hc2 : ¬cond0_2 (grid0.coords t) := fun h => h2 ((hcond0_2 t).mp h)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12_idle m c t h2]
  rw [acc_B m c t h0 h2]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_B c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2).2.2 ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, ⟨%es0, HS0⟩, ⟨%es1, HS1⟩⟩
  isplitl [HS0 HS1 Hg]
  · isplitl [HS0 HS1]
    · isplitl [HS0]
      · unfold owns; iexists _; isplitr
        swap; · iexact HS0
        ipureintro
        refine ((View.read_writes_eq_canon _ _ _ (cover_B_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_B_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepB x0c; dsimp only
        rw [fill0_0_uncut t h2 d0 (fun _ => Scalar.ofBits .f32 0x00000000#32)]
      · unfold owns; iexists _; isplitr
        swap; · iexact HS1
        ipureintro
        refine ((View.read_writes_eq_canon _ _ _ (cover_B_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_B_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepB x1c; dsimp only
        rw [fill0_1_uncut t h2 d1 (fun _ => Scalar.ofBits .f32 0x00000000#32)]
    · iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12; iexact H12

end Cert.KernelIdeal.Body

end
-- ==== Proof.BodySoundC.lean ====
/-
  The body obligation at a grid point of case C: the run of that case applies at the point's own buffers, the
  accumulators it leaves are the next value of the fold, and every window's buffer is handed back as required.
-/
import proofs.«131451_j14499809591732_2_alg».proof.Proof.BodyPost

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (h2 : t.val % 41 = 40) :
    bodyPre m c t ⊢ wp frame (wpE (defs₀ (F := F)) Variants.none c none) Set.univ (bodyAt0 t) (fun _ => bodyPost m c t) := by
  have h0 : ¬t.val % 41 = 0 := by omega
  have hz : t.val ≠ 0 := fun h => h0 (by rw [h])
  have hc0 : ¬cond0_0 (grid0.coords t) := fun h => h0 ((hcond0_0 t).mp h)
  have hc1 : ¬cond0_1 (grid0.coords t) := fun h => ((hcond0_1 t).mp h) h2
  have hc2 : cond0_2 (grid0.coords t) := (hcond0_2 t).mpr h2
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12_live m c t h2]
  rw [acc_C m c t h2]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_C c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, ⟨%e12, H12⟩, ⟨%es0, HS0⟩, ⟨%es1, HS1⟩⟩
  isplitl [HS0 HS1 Hg]
  · isplitl [HS0 HS1]
    · isplitl [HS0]
      · unfold owns; iexists _; isplitr
        swap; · iexact HS0
        ipureintro
        refine ((View.read_writes_eq_canon _ _ _ (cover_C_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_C_0 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepC x0c; dsimp only
        exact pay8_fill t h2 d0 (fun _ => Scalar.ofBits .f32 0x00000000#32) (iblk m c 0 t) _ _
      · unfold owns; iexists _; isplitr
        swap; · iexact HS1
        ipureintro
        refine ((View.read_writes_eq_canon _ _ _ (cover_C_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_C_1 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
        unfold stepC x1c; dsimp only
        exact pay9_fill t h2 d1 (fun _ => Scalar.ofBits .f32 0x00000000#32) (iblk m c 1 t) _ _
    · iexact Hg
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro
  refine ((View.read_writes_eq_canon _ _ _ (cover_C_12 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans (val_C_12 c (grid0.coords t) _ _ _ _ _ _ _ _ _ _ _ _ _ _ _ _ _ _ _ _ _ _ _ _ _ _ _ _ _ _ hc0 hc1 hc2 ((cfg0.win 0).fill (grid0.coords t) d0 (iblk m c 0 t)) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (acc m c (t.val - 1) (Nat.lt_of_le_of_lt (Nat.sub_le _ _) t.isLt)).1 (acc m c (t.val - 1) (Nat.lt_of_le_of_lt (Nat.sub_le _ _) t.isLt)).2)).trans ?_
  unfold out12
  rw [acc_C m c t h2]
  unfold stepC x0c x1c; dsimp only
  rw [pay8_fill t h2 d0 (fun _ => Scalar.ofBits .f32 0x00000000#32) (iblk m c 0 t), pay9_fill t h2 d1 (fun _ => Scalar.ofBits .f32 0x00000000#32) (iblk m c 1 t)]
  rfl

end Cert.KernelIdeal.Body

end
-- ==== Proof.BodyFrame.lean ====
/-
  The pallas region's frame: the body obligation holds at every grid point (by the point's case), the invariant starts
  as what the launch hands over and gives it back at the end, so every weakly fair execution of the program terminates
  without a fault, the arrays the windows stage end at what the proof data computes, and the arguments end unchanged.
-/
import proofs.«131451_j14499809591732_2_alg».proof.Proof.BodySoundA
import proofs.«131451_j14499809591732_2_alg».proof.Proof.BodySoundB
import proofs.«131451_j14499809591732_2_alg».proof.Proof.BodySoundC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point's position among the column tiles says which case it is. -/
theorem sound_body (c : Dev nD) (t : Fin cfg0.N) :
    bodyPre m c t ⊢ wp frame (wpE (defs₀ (F := F)) Variants.none c none) Set.univ (bodyAt0 t) (fun _ => bodyPost m c t) := by
  by_cases h2 : t.val % 41 = 40
  · exact sound_C m c t h2
  · by_cases h0 : t.val % 41 = 0
    · exact sound_A m c t h0
    · exact sound_B m c t h0 h2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' values are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 164 := N_0; omega), PhiA0_eq]
  iintro ⟨⟨HS0, HS1⟩, Hg⟩
  isplitl [HS0 HS1]
  · isplitl [HS0]
    · iexists _; iexact HS0
    · iexists _; iexact HS1
  iexact Hg

set_option backward.isDefEq.respectTransparency.types false in
/-- Every weakly fair execution of the program terminates, and every final state has every array of the region at what
    the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs and its twelve arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Body

end
-- ==== Proof.BlockReads.lean ====
/-
  Each window's block at a grid point, read at an entry, in terms of the array the region finds.

  The grid has 4 × 41 points; point `t` is at row tile `t / 41` and column tile `t % 41`. A window's block at `t` is
  the rectangle of its array that starts, on each axis, at the block index times the block's extent; so an entry of
  the block at coordinates `y` is the array's entry at `index × extent + y` on each axis. The block indices are
  decided once over the whole grid. Two windows have blocks that overhang their array's last column tile: there the
  transfer moves only the leading 64 of 1024 columns and the rest of the staging buffer keeps what it held.
-/
import proofs.«131451_j14499809591732_2_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- A grid point is below 164. -/
theorem t_lt (t : Fin cfg0.N) : t.val < 164 := Nat.lt_of_lt_of_eq t.isLt N_0

/-- The block indices of the moving windows, decided over the grid: row tile `t / 41`, column tile `t % 41`. -/
theorem idx_facts : ∀ t : Fin cfg0.N,
    win0_0.index t (0 : Fin 2) = t.val / 41 ∧ win0_0.index t (1 : Fin 2) = t.val % 41
    ∧ win0_1.index t (0 : Fin 2) = t.val / 41 ∧ win0_1.index t (1 : Fin 2) = t.val % 41
    ∧ win0_2.index t (0 : Fin 2) = t.val % 41 ∧ win0_2.index t (1 : Fin 2) = 0
    ∧ win0_4.index t (0 : Fin 2) = t.val / 41 ∧ win0_4.index t (1 : Fin 2) = 0
    ∧ win0_5.index t (0 : Fin 2) = t.val / 41 ∧ win0_5.index t (1 : Fin 2) = 0
    ∧ win0_12.index t (0 : Fin 2) = t.val / 41 ∧ win0_12.index t (1 : Fin 2) = 0 :=
  (by decide +kernel : ∀ t : Fin grid0.N, _)

/-- The block indices of the windows that hold a whole array: zero on both axes. -/
theorem idx_whole : ∀ t : Fin cfg0.N,
    win0_3.index t (0 : Fin 2) = 0 ∧ win0_3.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- A row of a row tile is a row of the array. -/
theorem row_lt (t : Fin cfg0.N) (r : Fin 1024) : t.val / 41 * 1024 + r.val < 4096 := by
  have := t_lt t; have := r.isLt; omega

/-- A row of a column tile of the padded weight array is a row of it. -/
theorem wrow_lt (t : Fin cfg0.N) (q : Fin 1024) : t.val % 41 * 1024 + q.val < 41984 := by
  have := Nat.mod_lt t.val (show 0 < 41 by decide); have := q.isLt; omega

/-- Window 2's block: rows `(t % 41) · 1024 + q` of the padded, rounded weight array. -/
theorem iblk2_apply (c : Dev nD) (t : Fin cfg0.N) (q : Fin 1024) (j : Fin 256) :
    (iblk m c 2 t : Vec F S1024x256 .bf16) (ix2 q j)
      = V m c main_v2 (ix2 ⟨t.val % 41 * 1024 + q.val, wrow_lt t q⟩ j) := by
  obtain ⟨-, -, -, -, e0, e1, -⟩ := idx_facts t
  unfold iblk
  rw [View.read_apply]
  show V m c main_v2 (((cfg0.win 2).blk t).view.emb (ix2 q j)) = V m c main_v2 _
  refine congrArg (V m c main_v2) (funext fun a => Fin.ext ?_)
  match a with
  | ⟨0, _⟩ => show win0_2.index t (0 : Fin 2) * 1024 + 1 * q.val = t.val % 41 * 1024 + q.val; omega
  | ⟨1, _⟩ => show win0_2.index t (1 : Fin 2) * 256 + 1 * j.val = j.val; omega

/-- Window 4's block: rows `(t / 41) · 1024 + r` of the first per-row scalar array. -/
theorem iblk4_apply (c : Dev nD) (t : Fin cfg0.N) (r : Fin 1024) :
    (iblk m c 4 t : Vec F S1024x1 .f32) (ix2 r (0 : Fin 1))
      = V m c main_arg0 (ix2 ⟨t.val / 41 * 1024 + r.val, row_lt t r⟩ (0 : Fin 1)) := by
  obtain ⟨-, -, -, -, -, -, e0, e1, -⟩ := idx_facts t
  unfold iblk
  rw [View.read_apply]
  show V m c main_arg0 (((cfg0.win 4).blk t).view.emb (ix2 r (0 : Fin 1))) = V m c main_arg0 _
  refine congrArg (V m c main_arg0) (funext fun a => Fin.ext ?_)
  match a with
  | ⟨0, _⟩ => show win0_4.index t (0 : Fin 2) * 1024 + 1 * r.val = t.val / 41 * 1024 + r.val; omega
  | ⟨1, _⟩ => show win0_4.index t (1 : Fin 2) * 1 + 1 * 0 = 0; omega

/-- Window 5's block: rows `(t / 41) · 1024 + r` of the second per-row scalar array. -/
theorem iblk5_apply (c : Dev nD) (t : Fin cfg0.N) (r : Fin 1024) :
    (iblk m c 5 t : Vec F S1024x1 .f32) (ix2 r (0 : Fin 1))
      = V m c main_arg1 (ix2 ⟨t.val / 41 * 1024 + r.val, row_lt t r⟩ (0 : Fin 1)) := by
  obtain ⟨-, -, -, -, -, -, -, -, e0, e1, -⟩ := idx_facts t
  unfold iblk
  rw [View.read_apply]
  show V m c main_arg1 (((cfg0.win 5).blk t).view.emb (ix2 r (0 : Fin 1))) = V m c main_arg1 _
  refine congrArg (V m c main_arg1) (funext fun a => Fin.ext ?_)
  match a with
  | ⟨0, _⟩ => show win0_5.index t (0 : Fin 2) * 1024 + 1 * r.val = t.val / 41 * 1024 + r.val; omega
  | ⟨1, _⟩ => show win0_5.index t (1 : Fin 2) * 1 + 1 * 0 = 0; omega

/-- Window 3's block is its whole array, at every point. -/
theorem iblk3_eq (c : Dev nD) (t : Fin cfg0.N) : (iblk m c 3 t : Vec F S1x256 .f32) = V m c main_v3 := by
  obtain ⟨e0, e1, -⟩ := idx_whole t
  funext y
  unfold iblk
  rw [View.read_apply]
  show V m c main_v3 (((cfg0.win 3).blk t).view.emb y) = V m c main_v3 y
  refine congrArg (V m c main_v3) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 6's block is its whole array, at every point. -/
theorem iblk6_eq (c : Dev nD) (t : Fin cfg0.N) : (iblk m c 6 t : Vec F S512x32 .f32) = V m c main_v4 := by
  obtain ⟨-, -, e0, e1, -⟩ := idx_whole t
  funext y
  unfold iblk
  rw [View.read_apply]
  show V m c main_v4 (((cfg0.win 6).blk t).view.emb y) = V m c main_v4 y
  refine congrArg (V m c main_v4) (funext fun a => Fin.ext ?_)
  match a with
  | ⟨0, _⟩ => show win0_6.index t (0 : Fin 2) * 512 + 1 * (y 0).val = (y 0).val; omega
  | ⟨1, _⟩ => show win0_6.index t (1 : Fin 2) * 32 + 1 * (y 1).val = (y 1).val; omega

/-- Window 7's block is its whole array, at every point. -/
theorem iblk7_eq (c : Dev nD) (t : Fin cfg0.N) : (iblk m c 7 t : Vec F S1x32 .f32) = V m c main_v7 := by
  obtain ⟨-, -, -, -, e0, e1, -⟩ := idx_whole t
  funext y
  unfold iblk
  rw [View.read_apply]
  show V m c main_v7 (((cfg0.win 7).blk t).view.emb y) = V m c main_v7 y
  refine congrArg (V m c main_v7) (funext fun a => Fin.ext ?_)
  match a with
  | ⟨0, _⟩ => show win0_7.index t (0 : Fin 2) * 1 + 1 * (y 0).val = (y 0).val; omega
  | ⟨1, _⟩ => show win0_7.index t (1 : Fin 2) * 32 + 1 * (y 1).val = (y 1).val; omega

/-- Window 8's block is its whole array, at every point. -/
theorem iblk8_eq (c : Dev nD) (t : Fin cfg0.N) : (iblk m c 8 t : Vec F S32x32 .f32) = V m c main_v5 := by
  obtain ⟨-, -, -, -, -, -, e0, e1, -⟩ := idx_whole t
  funext y
  unfold iblk
  rw [View.read_apply]
  show V m c main_v5 (((cfg0.win 8).blk t).view.emb y) = V m c main_v5 y
  refine congrArg (V m c main_v5) (funext fun a => Fin.ext ?_)
  match a with
  | ⟨0, _⟩ => show win0_8.index t (0 : Fin 2) * 32 + 1 * (y 0).val = (y 0).val; omega
  | ⟨1, _⟩ => show win0_8.index t (1 : Fin 2) * 32 + 1 * (y 1).val = (y 1).val; omega

/-- Window 9's block is its whole array, at every point. -/
theorem iblk9_eq (c : Dev nD) (t : Fin cfg0.N) : (iblk m c 9 t : Vec F S1x32 .f32) = V m c main_v8 := by
  obtain ⟨-, -, -, -, -, -, -, -, e0, e1, -⟩ := idx_whole t
  funext y
  unfold iblk
  rw [View.read_apply]
  show V m c main_v8 (((cfg0.win 9).blk t).view.emb y) = V m c main_v8 y
  refine congrArg (V m c main_v8) (funext fun a => Fin.ext ?_)
  match a with
  | ⟨0, _⟩ => show win0_9.index t (0 : Fin 2) * 1 + 1 * (y 0).val = (y 0).val; omega
  | ⟨1, _⟩ => show win0_9.index t (1 : Fin 2) * 32 + 1 * (y 1).val = (y 1).val; omega

/-- Window 10's block is its whole array, at every point. -/
theorem iblk10_eq (c : Dev nD) (t : Fin cfg0.N) : (iblk m c 10 t : Vec F S32x1 .f32) = V m c main_v6 := by
  obtain ⟨-, -, -, -, -, -, -, -, -, -, e0, e1, -⟩ := idx_whole t
  funext y
  unfold iblk
  rw [View.read_apply]
  show V m c main_v6 (((cfg0.win 10).blk t).view.emb y) = V m c main_v6 y
  refine congrArg (V m c main_v6) (funext fun a => Fin.ext ?_)
  match a with
  | ⟨0, _⟩ => show win0_10.index t (0 : Fin 2) * 32 + 1 * (y 0).val = (y 0).val; omega
  | ⟨1, _⟩ => show win0_10.index t (1 : Fin 2) * 1 + 1 * (y 1).val = (y 1).val; omega

/-- Window 11's block is its whole array, at every point. -/
theorem iblk11_eq (c : Dev nD) (t : Fin cfg0.N) : (iblk m c 11 t : Vec F S1x1 .f32) = V m c main_v9 := by
  obtain ⟨-, -, -, -, -, -, -, -, -, -, -, -, e0, e1⟩ := idx_whole t
  funext y
  unfold iblk
  rw [View.read_apply]
  show V m c main_v9 (((cfg0.win 11).blk t).view.emb y) = V m c main_v9 y
  refine congrArg (V m c main_v9) (funext fun a => Fin.ext ?_)
  match a with
  | ⟨0, _⟩ => show win0_11.index t (0 : Fin 2) * 1 + 1 * (y 0).val = (y 0).val; omega
  | ⟨1, _⟩ => show win0_11.index t (1 : Fin 2) * 1 + 1 * (y 1).val = (y 1).val; omega

/-- How much of a block of the two overhanging windows a transfer moves, decided over the grid: every row; every
    column but at the last column tile, where only the leading 64 lie inside the array. -/
theorem xsize_facts : ∀ t : Fin cfg0.N,
    win0_0.xsize (grid0.coords t) (0 : Fin 2) = 1024
    ∧ win0_0.xsize (grid0.coords t) (1 : Fin 2) = (if t.val % 41 = 40 then 64 else 1024)
    ∧ win0_1.xsize (grid0.coords t) (0 : Fin 2) = 1024
    ∧ win0_1.xsize (grid0.coords t) (1 : Fin 2) = (if t.val % 41 = 40 then 64 else 1024) :=
  (by decide +kernel : ∀ t : Fin grid0.N, _)

/-- Window 0's block through the fill: the entry at `(r, q)` is the array's at row `(t / 41) · 1024 + r`, column
    `(t % 41) · 1024 + q` when that column is inside the array, and the filler's entry otherwise. -/
theorem fill0_apply (c : Dev nD) (t : Fin cfg0.N) (d : S1024x1024.Idx → Elt F .f32) (r q : Fin 1024) :
    (cfg0.win 0).fill (grid0.coords t) d (iblk m c 0 t) (ix2 r q)
      = if h : t.val % 41 * 1024 + q.val < 41024 then
          V m c main_arg2 (ix2 ⟨t.val / 41 * 1024 + r.val, row_lt t r⟩ ⟨t.val % 41 * 1024 + q.val, h⟩)
        else d (ix2 r q) := by
  obtain ⟨x0, x1, -, -⟩ := xsize_facts t
  obtain ⟨e0, e1, -⟩ := idx_facts t
  have ht := t_lt t
  have hr := r.isLt
  have hq := q.isLt
  have hmv : (cfg0.win 0).moved (grid0.coords t) (ix2 r q) = true ↔ t.val % 41 * 1024 + q.val < 41024 := by
    rw [Pipeline.Window.moved_iff]
    constructor
    · intro h
      have h1 : q.val < win0_0.xsize (grid0.coords t) (1 : Fin 2) := h 1
      rw [x1] at h1
      split at h1 <;> omega
    · intro h a
      match a with
      | ⟨0, _⟩ => show r.val < win0_0.xsize (grid0.coords t) (0 : Fin 2); rw [x0]; exact hr
      | ⟨1, _⟩ => show q.val < win0_0.xsize (grid0.coords t) (1 : Fin 2); rw [x1]; split <;> omega
  unfold Pipeline.Window.fill
  by_cases h : t.val % 41 * 1024 + q.val < 41024
  · rw [dif_pos (hmv.mpr h), dif_pos h]
    unfold iblk
    rw [View.read_apply]
    show V m c main_arg2 (((cfg0.win 0).blk t).view.emb _) = V m c main_arg2 _
    refine congrArg (V m c main_arg2) (funext fun a => Fin.ext ?_)
    match a with
    | ⟨0, _⟩ => show win0_0.index t (0 : Fin 2) * 1024 + 1 * r.val = t.val / 41 * 1024 + r.val; omega
    | ⟨1, _⟩ => show win0_0.index t (1 : Fin 2) * 1024 + 1 * q.val = t.val % 41 * 1024 + q.val; omega
  · rw [dif_neg (fun hm => h (hmv.mp hm)), dif_neg h]

/-- Window 1's block through the fill: the entry at `(r, q)` is the array's at row `(t / 41) · 1024 + r`, column
    `(t % 41) · 1024 + q` when that column is inside the array, and the filler's entry otherwise. -/
theorem fill1_apply (c : Dev nD) (t : Fin cfg0.N) (d : S1024x1024.Idx → Elt F .f32) (r q : Fin 1024) :
    (cfg0.win 1).fill (grid0.coords t) d (iblk m c 1 t) (ix2 r q)
      = if h : t.val % 41 * 1024 + q.val < 41024 then
          V m c main_arg3 (ix2 ⟨t.val / 41 * 1024 + r.val, row_lt t r⟩ ⟨t.val % 41 * 1024 + q.val, h⟩)
        else d (ix2 r q) := by
  obtain ⟨-, -, x0, x1⟩ := xsize_facts t
  obtain ⟨-, -, e0, e1, -⟩ := idx_facts t
  have ht := t_lt t
  have hr := r.isLt
  have hq := q.isLt
  have hmv : (cfg0.win 1).moved (grid0.coords t) (ix2 r q) = true ↔ t.val % 41 * 1024 + q.val < 41024 := by
    rw [Pipeline.Window.moved_iff]
    constructor
    · intro h
      have h1 : q.val < win0_1.xsize (grid0.coords t) (1 : Fin 2) := h 1
      rw [x1] at h1
      split at h1 <;> omega
    · intro h a
      match a with
      | ⟨0, _⟩ => show r.val < win0_1.xsize (grid0.coords t) (0 : Fin 2); rw [x0]; exact hr
      | ⟨1, _⟩ => show q.val < win0_1.xsize (grid0.coords t) (1 : Fin 2); rw [x1]; split <;> omega
  unfold Pipeline.Window.fill
  by_cases h : t.val % 41 * 1024 + q.val < 41024
  · rw [dif_pos (hmv.mpr h), dif_pos h]
    unfold iblk
    rw [View.read_apply]
    show V m c main_arg3 (((cfg0.win 1).blk t).view.emb _) = V m c main_arg3 _
    refine congrArg (V m c main_arg3) (funext fun a => Fin.ext ?_)
    match a with
    | ⟨0, _⟩ => show win0_1.index t (0 : Fin 2) * 1024 + 1 * r.val = t.val / 41 * 1024 + r.val; omega
    | ⟨1, _⟩ => show win0_1.index t (1 : Fin 2) * 1024 + 1 * q.val = t.val % 41 * 1024 + q.val; omega
  · rw [dif_neg (fun hm => h (hmv.mp hm)), dif_neg h]

/-- An entry of the result array lies in point `t`'s block iff its row lies in row tile `t / 41`. -/
theorem mem_blk12 (t : Fin cfg0.N) (i : S4096x1.Idx) :
    i ∈ ((cfg0.win 12).blk t).view.set
      ↔ t.val / 41 * 1024 ≤ (i 0).val ∧ (i 0).val < t.val / 41 * 1024 + 1024 := by
  obtain ⟨-, -, -, -, -, -, -, -, -, -, e0, e1⟩ := idx_facts t
  show i ∈ ((View.whole main_v10).slice (win0_12.rect t)).set ↔ _
  rw [View.set_slice_whole, Rect.mem_set_unit]
  constructor
  · intro h
    have h0 : win0_12.index t (0 : Fin 2) * 1024 ≤ (i 0).val ∧ (i 0).val < win0_12.index t (0 : Fin 2) * 1024 + 1024 := h 0
    omega
  · intro h a
    match a with
    | ⟨0, _⟩ =>
      show win0_12.index t (0 : Fin 2) * 1024 ≤ (i 0).val ∧ (i 0).val < win0_12.index t (0 : Fin 2) * 1024 + 1024
      omega
    | ⟨1, _⟩ =>
      show win0_12.index t (1 : Fin 2) * 1 ≤ (i 1).val ∧ (i 1).val < win0_12.index t (1 : Fin 2) * 1 + 1
      have h1 : (i 1).val < 1 := (i 1).isLt
      omega

/-- Every entry of the result array lies in the block of a point that writes its block back: the last column tile of
    the entry's row tile. -/
theorem cover12 (i : S4096x1.Idx) :
    ∃ t : Fin cfg0.N, (cfg0.win 12).flush t = true ∧ i ∈ ((cfg0.win 12).blk t).view.set := by
  have hi : (i 0).val < 4096 := (i 0).isLt
  have hN : (i 0).val / 1024 * 41 + 40 < cfg0.N := Nat.lt_of_lt_of_eq (by omega) N_0.symm
  refine ⟨⟨(i 0).val / 1024 * 41 + 40, hN⟩, (flush0_12 _).mpr ?_, (mem_blk12 _ i).mpr ?_⟩
  · show ((i 0).val / 1024 * 41 + 40) % 41 = 40
    omega
  · show ((i 0).val / 1024 * 41 + 40) / 41 * 1024 ≤ (i 0).val ∧ (i 0).val < ((i 0).val / 1024 * 41 + 40) / 41 * 1024 + 1024
    omega

/-- An array of the result's shape read through point `t`'s block: rows `(t / 41) · 1024 + r`. -/
theorem read12_apply (t : Fin cfg0.N) (G : S4096x1.Idx → Elt F .f32) (r : Fin 1024) :
    ((cfg0.win 12).blk t).view.read (Elt F) G (ix2 r (0 : Fin 1))
      = G (ix2 ⟨t.val / 41 * 1024 + r.val, row_lt t r⟩ (0 : Fin 1)) := by
  obtain ⟨-, -, -, -, -, -, -, -, -, -, e0, e1⟩ := idx_facts t
  rw [View.read_apply]
  show G (((cfg0.win 12).blk t).view.emb (ix2 r (0 : Fin 1))) = G _
  refine congrArg G (funext fun a => Fin.ext ?_)
  match a with
  | ⟨0, _⟩ => show win0_12.index t (0 : Fin 2) * 1024 + 1 * r.val = t.val / 41 * 1024 + r.val; omega
  | ⟨1, _⟩ => show win0_12.index t (1 : Fin 2) * 1 + 1 * 0 = 0; omega

end Cert.KernelIdeal.BlockReads

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«131451_j14499809591732_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.Spec.lean ====
/-
  The function both programs compute, on the extended reals.

  From the twelve argument arrays: a feature row is the inner product of an input row (41024 entries) with a row of
  the first weight matrix, plus that row's bias; the two perspectives' features are laid side by side in both orders
  and mixed by the two per-row scalars; then three layers follow, each an affine map (a sum of products plus a bias),
  the first three clipped to the unit interval. The result has one entry per input row.
-/
import Idealize.ShloMosaic.PureOps.Ideal
import Idealize.ShloMosaic.Lib.ValueIdx

noncomputable section

open scoped BigOperators

namespace Cert.Nnue

open Idealize.ShloMosaic Idealize.ShloMosaic.ValueIdx

/-- The clip to the unit interval, with the two bounds kept as the float words the programs print. -/
def clip01 (x : EReal) : EReal :=
  min (Ideal.ofBits .f32 0x3F800000#32) (max (Ideal.ofBits .f32 0x00000000#32) x)

/-- One feature entry: the inner product of row `r` of `x` with row `j` of `Win`, plus the bias at `j`. -/
def feat (x : (⟨2, ![4096, 41024]⟩ : Shape).Idx → EReal) (Win : (⟨2, ![256, 41024]⟩ : Shape).Idx → EReal)
    (bias : (⟨1, ![256]⟩ : Shape).Idx → EReal) (r : Fin 4096) (j : Fin 256) : EReal :=
  (∑ k : Fin 41024, x (ix2 r k) * Win (ix2 j k)) + bias (ix1 j)

/-- Two feature rows side by side: columns below 256 from the first, the others from the second. -/
def side (f g : Fin 256 → EReal) (p : Fin 512) : EReal :=
  if h : p.val < 256 then f ⟨p.val, h⟩ else g ⟨p.val - 256, by have := p.isLt; omega⟩

section
variable (us them : (⟨2, ![4096, 1]⟩ : Shape).Idx → EReal)
  (win bin : (⟨2, ![4096, 41024]⟩ : Shape).Idx → EReal)
  (Win : (⟨2, ![256, 41024]⟩ : Shape).Idx → EReal) (bias : (⟨1, ![256]⟩ : Shape).Idx → EReal)
  (W1 : (⟨2, ![32, 512]⟩ : Shape).Idx → EReal) (b1 : (⟨1, ![32]⟩ : Shape).Idx → EReal)
  (W2 : (⟨2, ![32, 32]⟩ : Shape).Idx → EReal) (b2 : (⟨1, ![32]⟩ : Shape).Idx → EReal)
  (Wo : (⟨2, ![1, 32]⟩ : Shape).Idx → EReal) (bo : (⟨1, ![1]⟩ : Shape).Idx → EReal)

/-- The mixed, clipped first layer at row `r`, column `p`. -/
def l0 (r : Fin 4096) (p : Fin 512) : EReal :=
  clip01 (us (ix2 r (0 : Fin 1)) * side (feat win Win bias r) (feat bin Win bias r) p
    + them (ix2 r (0 : Fin 1)) * side (feat bin Win bias r) (feat win Win bias r) p)

/-- The second layer. -/
def l1 (r : Fin 4096) (q : Fin 32) : EReal :=
  clip01 ((∑ p : Fin 512, l0 us them win bin Win bias r p * W1 (ix2 q p)) + b1 (ix1 q))

/-- The third layer. -/
def l2 (r : Fin 4096) (q : Fin 32) : EReal :=
  clip01 ((∑ p : Fin 32, l1 us them win bin Win bias W1 b1 r p * W2 (ix2 q p)) + b2 (ix1 q))

/-- The result at row `r`. -/
def out (r : Fin 4096) : EReal :=
  (∑ p : Fin 32, l2 us them win bin Win bias W1 b1 W2 b2 r p * Wo (ix2 (0 : Fin 1) p)) + bo (ix1 (0 : Fin 1))

/-- The result array. -/
def G : (⟨2, ![4096, 1]⟩ : Shape).Idx → EReal :=
  fun i => out us them win bin Win bias W1 b1 W2 b2 Wo bo (i 0)
end

end Cert.Nnue

end
-- ==== Proof.PayloadValue.lean ====
/-
  The kernel's arithmetic read at an index, on the extended reals.

  Each value the kernel body stores is a pure term over the vectors it loaded. Here each such term is read at one
  entry: the two accumulators start at zero; a step adds to an accumulator entry the inner product of a row of the
  input block with a column of the weight block; the last step does the same with the input block's columns from
  the 64th on replaced by zero, since only 64 of its 1024 columns lie inside the 41024-column array.
-/
import proofs.«131451_j14499809591732_2_alg».proof.Proof.Gen.KernelIdeal.Skeleton
import proofs.«131451_j14499809591732_2_alg».proof.Proof.LibAffineBlock
import proofs.«131451_j14499809591732_2_alg».proof.Proof.MaskWord
import proofs.«131451_j14499809591732_2_alg».proof.Proof.Spec
import Idealize.ShloMosaic.Lib.Pipeline.Value
import Idealize.ShloMosaic.Lib.ValueLayout

noncomputable section

open scoped BigOperators

namespace Cert.KernelIdeal.PayValue

open Idealize.ShloMosaic Idealize.ShloMosaic.ValueIdx Idealize.SL.Sem Cert.KernelIdeal Cert.KernelIdeal.Gen
open Cert.KernelIdeal.MaskWord (pay7_apply)

/-- The first accumulator starts as the zero word at every entry. -/
theorem pay1_apply (r : Fin 1024) (j : Fin 256) :
    k0_pay1 (F := Ideal) (ix2 r j) = Ideal.ofBits .f32 0x00000000#32 := by
  unfold k0_pay1
  rw [shapeCast_self]
  rfl

/-- So it starts at zero. -/
theorem pay1_apply_zero (r : Fin 1024) (j : Fin 256) : k0_pay1 (F := Ideal) (ix2 r j) = 0 :=
  (pay1_apply r j).trans Ideal.ofBits_zero_f32

/-- The second accumulator starts as the zero word at every entry. -/
theorem pay2_apply (r : Fin 1024) (j : Fin 256) :
    k0_pay2 (F := Ideal) (ix2 r j) = Ideal.ofBits .f32 0x00000000#32 := by
  unfold k0_pay2
  rw [shapeCast_self]
  rfl

/-- So it starts at zero. -/
theorem pay2_apply_zero (r : Fin 1024) (j : Fin 256) : k0_pay2 (F := Ideal) (ix2 r j) = 0 :=
  (pay2_apply r j).trans Ideal.ofBits_zero_f32

/-- A full step of the first accumulator: the old entry plus the inner product of row `r` of the input block with
    column `j` of the weight block. -/
theorem pay4_apply (v3 : Vec Ideal S1024x256 .bf16) (v5 : Vec Ideal S1024x1024 .f32) (v13 : Vec Ideal S1024x256 .f32)
    (r : Fin 1024) (j : Fin 256) :
    k0_pay4 (F := Ideal) v3 v5 v13 (ix2 r j) = v13 (ix2 r j) + ∑ q : Fin 1024, v5 (ix2 r q) * v3 (ix2 q j) := by
  unfold k0_pay4 k0_pay3
  rw [shapeCast_self, shapeCast_self, addf_apply]
  rw [Cert.LibMatmulNN.matmul_zero_apply' _ rfl rfl rfl rfl rfl rfl]
  rfl

/-- A full step of the second accumulator. -/
theorem pay5_apply (v3 : Vec Ideal S1024x256 .bf16) (v6 : Vec Ideal S1024x1024 .f32) (v20 : Vec Ideal S1024x256 .f32)
    (r : Fin 1024) (j : Fin 256) :
    k0_pay5 (F := Ideal) v3 v6 v20 (ix2 r j) = v20 (ix2 r j) + ∑ q : Fin 1024, v6 (ix2 r q) * v3 (ix2 q j) := by
  unfold k0_pay5 k0_pay3
  rw [shapeCast_self, shapeCast_self, addf_apply]
  rw [Cert.LibMatmulNN.matmul_zero_apply' _ rfl rfl rfl rfl rfl rfl]
  rfl

/-- The masked input block of the last step at an entry: the entry itself in the first 64 columns, zero after. -/
theorem masked_apply (v5 : Vec Ideal S1024x1024 .f32) (r q : Fin 1024) :
    select (k0_pay7 40#32) v5 (broadcast S1024x1024 (Scalar.ofBits (F := Ideal) .f32 0x00000000#32)) (ix2 r q)
      = if q.val < 64 then v5 (ix2 r q) else 0 := by
  rw [select_apply, pay7_apply]
  by_cases h : q.val < 64
  · rw [if_pos h, if_pos h, select_one]
  · rw [if_neg h, if_neg h, select_zero, broadcast_apply]; exact Ideal.ofBits_zero_f32

/-- The last step of the first accumulator: the old entry plus the inner product over the 64 columns inside the array. -/
theorem pay8_apply (v4 : FVec Ideal S1024x256 .bf16) (v5 : Vec Ideal S1024x1024 .f32) (v25 : Vec Ideal S1024x256 .f32)
    (r : Fin 1024) (j : Fin 256) :
    k0_pay8 (F := Ideal) 40#32 v4 v5 v25 (ix2 r j)
      = v25 (ix2 r j) + ∑ q : Fin 1024, (if q.val < 64 then v5 (ix2 r q) else 0) * v4 (ix2 q j) := by
  unfold k0_pay8
  rw [shapeCast_self, addf_apply, Cert.LibMatmulNN.matmul_zero_apply' _ rfl rfl rfl rfl rfl rfl]
  refine congrArg (v25 (ix2 r j) + ·) (Finset.sum_congr rfl fun q _ => ?_)
  refine congrArg (· * v4 (ix2 q j)) ?_
  rw [truncf_apply]
  exact masked_apply v5 r q

/-- The last step of the second accumulator. -/
theorem pay9_apply (v4 : FVec Ideal S1024x256 .bf16) (v6 : Vec Ideal S1024x1024 .f32) (v31 : Vec Ideal S1024x256 .f32)
    (r : Fin 1024) (j : Fin 256) :
    k0_pay9 (F := Ideal) 40#32 v4 v6 v31 (ix2 r j)
      = v31 (ix2 r j) + ∑ q : Fin 1024, (if q.val < 64 then v6 (ix2 r q) else 0) * v4 (ix2 q j) := by
  unfold k0_pay9
  rw [shapeCast_self, addf_apply, Cert.LibMatmulNN.matmul_zero_apply' _ rfl rfl rfl rfl rfl rfl]
  refine congrArg (v31 (ix2 r j) + ·) (Finset.sum_congr rfl fun q _ => ?_)
  refine congrArg (· * v4 (ix2 q j)) ?_
  rw [truncf_apply]
  exact masked_apply v6 r q

end Cert.KernelIdeal.PayValue

end
-- ==== Proof.PayloadTail.lean ====
/-
  The kernel's last step read at an entry, on the extended reals.

  After the last accumulation the body adds the bias row to both accumulators, lays the two results side by side in
  both orders, mixes them by the two per-row scalars, clips to the unit interval, and applies three affine maps, the
  first two of them clipped. Read at row `r`, the stored value is the last affine map of the clipped layers `L2`,
  `L1`, `L0` written as sums over columns.
-/
import proofs.«131451_j14499809591732_2_alg».proof.Proof.Gen.KernelIdeal.Skeleton
import proofs.«131451_j14499809591732_2_alg».proof.Proof.LibAffineBlock
import proofs.«131451_j14499809591732_2_alg».proof.Proof.Spec
import Idealize.ShloMosaic.Lib.Pipeline.Value
import Idealize.ShloMosaic.Lib.ValueLayout

noncomputable section

open scoped BigOperators

namespace Cert.KernelIdeal.PayValue

open Idealize.ShloMosaic Idealize.ShloMosaic.ValueIdx Idealize.SL.Sem Cert.KernelIdeal Cert.KernelIdeal.Gen

open Cert.Nnue (clip01 side)

/-! ## Layout pieces read at an entry -/

/-- A one-column array spread over `n` columns reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first perspective's features with the bias added, at row `r`. -/
def fw (v37 : Vec Ideal S1x256 .f32) (v39 : Vec Ideal S1024x256 .f32) (r : Fin 1024) (j : Fin 256) : EReal :=
  v39 (ix2 r j) + v37 (ix2 (0 : Fin 1) j)

theorem pay11_apply (v37 : Vec Ideal S1x256 .f32) (v39 : Vec Ideal S1024x256 .f32) (r : Fin 1024) (j : Fin 256) :
    k0_pay11 (F := Ideal) v37 v39 (ix2 r j) = fw v37 v39 r j := by
  unfold k0_pay11 k0_pay10 fw
  rw [addf_apply, shapeCast_self, broadcastTo_1b_ab_apply]

theorem pay12_apply (v37 : Vec Ideal S1x256 .f32) (v42 : Vec Ideal S1024x256 .f32) (r : Fin 1024) (j : Fin 256) :
    k0_pay12 (F := Ideal) v37 v42 (ix2 r j) = fw v37 v42 r j := by
  unfold k0_pay12 k0_pay10 fw
  rw [addf_apply, shapeCast_self, broadcastTo_1b_ab_apply]

/-- Two 256-column arrays side by side, read at `(r, p)`. -/
theorem concat_apply (x₁ x₂ : FVec Ideal S1024x256 .f32) (r : Fin 1024) (p : Fin 512) :
    concatenate S1024x512 1 [⟨S1024x256, x₁⟩, ⟨S1024x256, x₂⟩] concatenates_S1024x256_S1024x256_S1024x512_d1 (ix2 r p)
      = side (fun j => x₁ (ix2 r j)) (fun j => x₂ (ix2 r j)) p := by
  unfold side
  by_cases h : p.val < 256
  · rw [dif_pos h]
    refine concatenate_pair_apply_left (1 : Fin 2) x₁ x₂ _ (ix2 r p) rfl (ix2 r ⟨p.val, h⟩) fun b => ?_
    match b with
    | ⟨0, _⟩ => rfl
    | ⟨1, _⟩ => rfl
  · rw [dif_neg h]
    have hp := p.isLt
    refine concatenate_pair_apply_right (1 : Fin 2) x₁ x₂ _ (ix2 r p) rfl rfl (ix2 r ⟨p.val - 256, by omega⟩) (fun b hb => ?_) ?_
    · match b with
      | ⟨0, _⟩ => rfl
      | ⟨1, _⟩ => exact absurd rfl hb
    · show p.val - 256 + 256 = p.val
      omega

theorem pay13_apply (v37 : Vec Ideal S1x256 .f32) (v39 v42 : Vec Ideal S1024x256 .f32) (r : Fin 1024) (p : Fin 512) :
    k0_pay13 (F := Ideal) v37 v39 v42 (ix2 r p) = side (fw v37 v39 r) (fw v37 v42 r) p := by
  unfold k0_pay13
  rw [concat_apply]
  exact congrArg₂ (fun f g => side f g p) (funext (pay11_apply v37 v39 r)) (funext (pay12_apply v37 v42 r))

theorem pay14_apply (v37 : Vec Ideal S1x256 .f32) (v39 v42 : Vec Ideal S1024x256 .f32) (r : Fin 1024) (p : Fin 512) :
    k0_pay14 (F := Ideal) v37 v39 v42 (ix2 r p) = side (fw v37 v42 r) (fw v37 v39 r) p := by
  unfold k0_pay14
  rw [concat_apply]
  exact congrArg₂ (fun f g => side f g p) (funext (pay12_apply v37 v42 r)) (funext (pay11_apply v37 v39 r))

theorem pay15_apply (v47 : Vec Ideal S1024x1 .f32) (r : Fin 1024) (p : Fin 512) :
    k0_pay15 (F := Ideal) v47 (ix2 r p) = v47 (ix2 r (0 : Fin 1)) := by
  unfold k0_pay15
  exact broadcastTo_a1_ab_apply v47 _ r p

theorem pay17_apply (v83 : Vec Ideal S1x1 .f32) (r : Fin 1024) :
    k0_pay17 (F := Ideal) v83 (ix2 r (0 : Fin 1)) = v83 (ix2 (0 : Fin 1) (0 : Fin 1)) := by
  unfold k0_pay17
  rw [shapeCast_self, broadcastTo_1b_ab_apply]

/-! ## The clipped layers -/

/-- The clip to the unit interval applied entrywise. -/
def clipV (s : Shape) (x : FVec Ideal s .f32) : FVec Ideal s .f32 :=
  minimumf (broadcast s (Scalar.ofBits (F := Ideal) .f32 0x3F800000#32))
    (maximumf (broadcast s (Scalar.ofBits (F := Ideal) .f32 0x00000000#32)) x)

theorem clipV_apply (s : Shape) (x : FVec Ideal s .f32) (i : s.Idx) : clipV s x i = clip01 (x i) := rfl

/-- One clipped affine layer at an entry. -/
theorem layer_apply {K N : Nat} (d : DotDims ⟨2, ![1024, K]⟩ ⟨2, ![K, N]⟩ ⟨2, ![1024, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![1024, K]⟩ .f32) (W : FVec Ideal ⟨2, ![K, N]⟩ .f32) (hW : (⟨2, ![K, N]⟩ : Shape).ShapeCasts ⟨2, ![K, N]⟩)
    (b : FVec Ideal ⟨2, ![1, N]⟩ .f32) (hbs : (⟨2, ![1, N]⟩ : Shape).ShapeCasts ⟨2, ![1, N]⟩)
    (hb : (⟨2, ![1, N]⟩ : Shape).Broadcasts ⟨2, ![1024, N]⟩) (r : Fin 1024) (j : Fin N) :
    clipV ⟨2, ![1024, N]⟩ (addf (matmul d none x (shapeCast ⟨2, ![K, N]⟩ W hW) (constant (F := Ideal) ⟨2, ![1024, N]⟩ .f32 0x00000000#32))
        (broadcastTo ⟨2, ![1024, N]⟩ (shapeCast ⟨2, ![1, N]⟩ b hbs) hb)) (ix2 r j)
      = clip01 ((∑ k : Fin K, x (ix2 r k) * W (ix2 k j)) + b (ix2 (0 : Fin 1) j)) := by
  rw [clipV_apply, shapeCast_self, shapeCast_self, Cert.LibAffineBlock.affine_apply d hlc hrc hln hrn hlb hrb]

/-- The mixed, clipped first layer as a vector. -/
def X0 (v45 v46 v48 : FVec Ideal S1024x512 .f32) (v50 : Vec Ideal S1024x1 .f32) : FVec Ideal S1024x512 .f32 :=
  clipV S1024x512 (addf (mulf v48 v45) (mulf (broadcastTo S1024x512 v50 broadcasts_S1024x1_S1024x512) v46))

/-- The second layer as a vector. -/
def X1 (x0 : FVec Ideal S1024x512 .f32) (v58 : Vec Ideal S512x32 .f32) (v61 : Vec Ideal S1x32 .f32) : FVec Ideal S1024x32 .f32 :=
  clipV S1024x32 (addf (matmul dot_S1024x512_S512x32_S1024x32_1_0_0_1_n_n none x0 (shapeCast S512x32 v58 shapeCasts_S512x32_S512x32 : FVec Ideal S512x32 .f32)
      (constant (F := Ideal) S1024x32 .f32 0x00000000#32))
    (broadcastTo S1024x32 (shapeCast S1x32 v61 shapeCasts_S1x32_S1x32 : FVec Ideal S1x32 .f32) broadcasts_S1x32_S1024x32))

/-- The third layer as a vector. -/
def X2 (x1 : FVec Ideal S1024x32 .f32) (v69 : Vec Ideal S32x32 .f32) (v72 : Vec Ideal S1x32 .f32) : FVec Ideal S1024x32 .f32 :=
  clipV S1024x32 (addf (matmul dot_S1024x32_S32x32_S1024x32_1_0_0_1_n_n none x1 (shapeCast S32x32 v69 shapeCasts_S32x32_S32x32 : FVec Ideal S32x32 .f32)
      (constant (F := Ideal) S1024x32 .f32 0x00000000#32))
    (broadcastTo S1024x32 (shapeCast S1x32 v72 shapeCasts_S1x32_S1x32 : FVec Ideal S1x32 .f32) broadcasts_S1x32_S1024x32))

/-- The last product's left operand is the three layers composed. -/
theorem pay16_eq (v45 v46 v48 : FVec Ideal S1024x512 .f32) (v50 : Vec Ideal S1024x1 .f32) (v58 : Vec Ideal S512x32 .f32)
    (v61 : Vec Ideal S1x32 .f32) (v69 : Vec Ideal S32x32 .f32) (v72 : Vec Ideal S1x32 .f32) (v80 : Vec Ideal S32x1 .f32) :
    k0_pay16 (F := Ideal) v45 v46 v48 v50 v58 v61 v69 v72 v80
      = matmul dot_S1024x32_S32x1_S1024x1_1_0_0_1_n_n none (X2 (X1 (X0 v45 v46 v48 v50) v58 v61) v69 v72)
          (shapeCast S32x1 v80 shapeCasts_S32x1_S32x1 : FVec Ideal S32x1 .f32) (constant (F := Ideal) S1024x1 .f32 0x00000000#32) := rfl

section
variable (v37 : Vec Ideal S1x256 .f32) (v39 v42 : Vec Ideal S1024x256 .f32) (v47 v50 : Vec Ideal S1024x1 .f32)
  (v58 : Vec Ideal S512x32 .f32) (v61 : Vec Ideal S1x32 .f32) (v69 : Vec Ideal S32x32 .f32) (v72 : Vec Ideal S1x32 .f32)
  (v80 : Vec Ideal S32x1 .f32) (v83 : Vec Ideal S1x1 .f32)

/-- The mixed, clipped first layer at row `r`, column `p`. -/
def L0 (r : Fin 1024) (p : Fin 512) : EReal :=
  clip01 (v47 (ix2 r (0 : Fin 1)) * side (fw v37 v39 r) (fw v37 v42 r) p
    + v50 (ix2 r (0 : Fin 1)) * side (fw v37 v42 r) (fw v37 v39 r) p)

/-- The second layer at row `r`, column `q`. -/
def L1 (r : Fin 1024) (q : Fin 32) : EReal :=
  clip01 ((∑ p : Fin 512, L0 v37 v39 v42 v47 v50 r p * v58 (ix2 p q)) + v61 (ix2 (0 : Fin 1) q))

/-- The third layer at row `r`, column `q`. -/
def L2 (r : Fin 1024) (q : Fin 32) : EReal :=
  clip01 ((∑ p : Fin 32, L1 v37 v39 v42 v47 v50 v58 v61 r p * v69 (ix2 p q)) + v72 (ix2 (0 : Fin 1) q))

theorem X0_apply (r : Fin 1024) (p : Fin 512) :
    X0 (k0_pay13 v37 v39 v42) (k0_pay14 v37 v39 v42) (k0_pay15 v47) v50 (ix2 r p) = L0 v37 v39 v42 v47 v50 r p := by
  unfold X0 L0
  rw [clipV_apply, addf_apply, mulf_apply, mulf_apply, pay15_apply, pay13_apply, pay14_apply, broadcastTo_a1_ab_apply]

theorem X1_apply (r : Fin 1024) (q : Fin 32) :
    X1 (X0 (k0_pay13 v37 v39 v42) (k0_pay14 v37 v39 v42) (k0_pay15 v47) v50) v58 v61 (ix2 r q)
      = L1 v37 v39 v42 v47 v50 v58 v61 r q := by
  unfold X1 L1
  rw [layer_apply _ rfl rfl rfl rfl rfl rfl]
  refine congrArg (fun s => clip01 (s + v61 (ix2 (0 : Fin 1) q))) (Finset.sum_congr rfl fun p _ => ?_)
  rw [X0_apply]

theorem X2_apply (r : Fin 1024) (q : Fin 32) :
    X2 (X1 (X0 (k0_pay13 v37 v39 v42) (k0_pay14 v37 v39 v42) (k0_pay15 v47) v50) v58 v61) v69 v72 (ix2 r q)
      = L2 v37 v39 v42 v47 v50 v58 v61 v69 v72 r q := by
  unfold X2 L2
  rw [layer_apply _ rfl rfl rfl rfl rfl rfl]
  refine congrArg (fun s => clip01 (s + v72 (ix2 (0 : Fin 1) q))) (Finset.sum_congr rfl fun p _ => ?_)
  rw [X1_apply]

/-- The stored result at row `r`: the last affine map of the three clipped layers. -/
theorem tail_apply (r : Fin 1024) :
    k0_pay6 (F := Ideal)
        (k0_pay16 (k0_pay13 v37 v39 v42) (k0_pay14 v37 v39 v42) (k0_pay15 v47) v50 v58 v61 v69 v72 v80)
        (k0_pay17 v83) (ix2 r (0 : Fin 1))
      = (∑ p : Fin 32, L2 v37 v39 v42 v47 v50 v58 v61 v69 v72 r p * v80 (ix2 p (0 : Fin 1)))
        + v83 (ix2 (0 : Fin 1) (0 : Fin 1)) := by
  unfold k0_pay6
  rw [addf_apply, pay16_eq, Cert.LibMatmulNN.matmul_zero_apply' _ rfl rfl rfl rfl rfl rfl, shapeCast_self, pay17_apply]
  refine congrArg (· + v83 (ix2 (0 : Fin 1) (0 : Fin 1))) (Finset.sum_congr rfl fun p _ => ?_)
  rw [X2_apply]

end

end Cert.KernelIdeal.PayValue
end
-- ==== Proof.LibOnlineSoftmax.lean ====
/-
  Online softmax, tile by tile.

  A row of scores is visited in `n` tiles of `K` columns. The running maximum starts at
  `-∞` and absorbs each tile's maximum; the running sum starts at `0`, is rescaled by
  `exp (old maximum - new maximum)` at each tile and then absorbs the tile's weighted
  exponentials taken against the new maximum. This file proves that after `n` tiles the
  pair equals the one-shot maximum of all visited scores and the one-shot weighted sum
  of exponentials against that maximum, and that both are finite reals. It also holds
  the regrouping of a sum, and of a supremum, over one long axis of `n * K` positions
  into `n` tiles of `K`.

  Values are extended reals; `Ideal.exp` sends `-∞` to `0`, so the first rescaling,
  against the starting maximum `-∞`, multiplies the starting sum `0` by `0`.
-/
import Idealize.ShloMosaic.PureOps.Ideal
import Mathlib.Algebra.BigOperators.Fin
import Mathlib.Logic.Equiv.Fin.Basic
import Mathlib.Data.Finset.Lattice.Fold

open Idealize.ShloMosaic
open scoped BigOperators

namespace Cert.Lib.OnlineSoftmax

/-! ### Coercion of a finite real sum -/

/-- The extended real of a finite sum of reals is the sum of the extended reals. -/
theorem coe_finset_sum {ι : Type*} (s : Finset ι) (f : ι → ℝ) :
    ((∑ i ∈ s, f i : ℝ) : EReal) = ∑ i ∈ s, ((f i : ℝ) : EReal) := by
  classical
  refine Finset.induction_on s ?_ ?_
  · simp
  · intro i s hi ih
    rw [Finset.sum_insert hi, Finset.sum_insert hi, EReal.coe_add, ih]

/-- One weighted exponential term with a real score, a real maximum and a real weight is
    the extended real of the real term. -/
theorem term_coe (x M y : ℝ) :
    Ideal.exp (((x : ℝ) : EReal) - ((M : ℝ) : EReal)) * ((y : ℝ) : EReal)
      = ((Real.exp (x - M) * y : ℝ) : EReal) := by
  rw [← EReal.coe_sub, Ideal.exp_coe, ← EReal.coe_mul]

section Run
variable {K : ℕ} (a w : ℕ → Fin K → ℝ)

/-- The running maximum after `j` tiles: `-∞` before the first tile, then the larger of
    the previous value and the tile's maximum. -/
noncomputable def runMax : ℕ → EReal
  | 0 => ⊥
  | j+1 => max (runMax j) (Finset.univ.sup fun q : Fin K => ((a j q : ℝ) : EReal))

/-- The running sum after `j` tiles: `0` before the first tile, then the previous value
    rescaled from the old maximum to the new one, plus the tile's weighted exponentials
    against the new maximum. -/
noncomputable def runSum : ℕ → EReal
  | 0 => 0
  | j+1 => Ideal.exp (runMax a j - runMax a (j+1)) * runSum j
            + ∑ q : Fin K, Ideal.exp (((a j q : ℝ) : EReal) - runMax a (j+1)) * ((w j q : ℝ) : EReal)

@[simp] theorem runMax_zero : runMax a 0 = ⊥ := rfl

/-- One step of the running maximum. -/
theorem runMax_succ (j : ℕ) :
    runMax a (j+1) = max (runMax a j) (Finset.univ.sup fun q : Fin K => ((a j q : ℝ) : EReal)) := rfl

@[simp] theorem runSum_zero : runSum a w 0 = 0 := rfl

/-- One step of the running sum. -/
theorem runSum_succ (j : ℕ) :
    runSum a w (j+1) = Ideal.exp (runMax a j - runMax a (j+1)) * runSum a w j
      + ∑ q : Fin K, Ideal.exp (((a j q : ℝ) : EReal) - runMax a (j+1)) * ((w j q : ℝ) : EReal) := rfl

/-- The running maximum after `n` tiles is the maximum over all visited tiles of the
    tile maxima. -/
theorem runMax_eq (n : ℕ) :
    runMax a n = (Finset.range n).sup fun j => Finset.univ.sup fun q : Fin K => ((a j q : ℝ) : EReal) := by
  induction n with
  | zero => simp
  | succ n ih =>
    rw [runMax_succ, Finset.range_add_one, Finset.sup_insert, ih]
    exact max_comm _ _

/-- With at least one column per tile and at least one tile visited, the running maximum
    is a real number, it bounds every visited score, and some visited score attains it. -/
theorem runMax_real_attained (hK : 0 < K) (n : ℕ) (hn : 0 < n) :
    ∃ M : ℝ, runMax a n = (M : EReal) ∧ (∀ j < n, ∀ q, a j q ≤ M) ∧ ∃ j < n, ∃ q, a j q = M := by
  obtain ⟨j, hj, hjeq⟩ := Finset.exists_mem_eq_sup (Finset.range n) ⟨0, Finset.mem_range.2 hn⟩
    (fun j => Finset.univ.sup fun q : Fin K => ((a j q : ℝ) : EReal))
  obtain ⟨q, -, hq⟩ := Finset.exists_mem_eq_sup (Finset.univ : Finset (Fin K))
    ⟨⟨0, hK⟩, Finset.mem_univ _⟩ (fun q : Fin K => ((a j q : ℝ) : EReal))
  have hM : runMax a n = ((a j q : ℝ) : EReal) := (runMax_eq a n).trans (hjeq.trans hq)
  refine ⟨a j q, hM, ?_, j, Finset.mem_range.1 hj, q, rfl⟩
  intro j' hj' q'
  rw [← EReal.coe_le_coe_iff, ← hM, runMax_eq]
  exact le_trans
    (Finset.le_sup (f := fun q : Fin K => ((a j' q : ℝ) : EReal)) (Finset.mem_univ q'))
    (Finset.le_sup (f := fun j => Finset.univ.sup fun q : Fin K => ((a j q : ℝ) : EReal))
      (Finset.mem_range.2 hj'))

/-- With at least one column per tile and at least one tile visited, the running maximum
    is a real number that bounds every visited score. -/
theorem runMax_real (hK : 0 < K) (n : ℕ) (hn : 0 < n) :
    ∃ M : ℝ, runMax a n = (M : EReal) ∧ ∀ j < n, ∀ q, a j q ≤ M := by
  obtain ⟨M, hM, hle, -⟩ := runMax_real_attained a hK n hn
  exact ⟨M, hM, hle⟩

/-- The one-shot weighted sum of real exponentials of the first `n` tiles against a real
    reference point `M`. -/
noncomputable def realSum (M : ℝ) (n : ℕ) : ℝ :=
  ∑ j ∈ Finset.range n, ∑ q : Fin K, Real.exp (a j q - M) * w j q

/-- Against a real reference point, the one-shot sum of extended-real terms is the
    extended real of the real one-shot sum. -/
theorem sum_coe (M : ℝ) (n : ℕ) :
    (∑ j ∈ Finset.range n, ∑ q : Fin K,
        Ideal.exp (((a j q : ℝ) : EReal) - ((M : ℝ) : EReal)) * ((w j q : ℝ) : EReal))
      = ((realSum a w M n : ℝ) : EReal) := by
  unfold realSum
  rw [coe_finset_sum]
  refine Finset.sum_congr rfl fun j _ => ?_
  rw [coe_finset_sum]
  exact Finset.sum_congr rfl fun q _ => term_coe _ _ _

/-- Moving the reference point from `M` to `M'` multiplies the real one-shot sum by
    `exp (M - M')`: this is `exp (M - M') * exp (x - M) = exp (x - M')` term by term. -/
theorem realSum_shift (M M' : ℝ) (n : ℕ) :
    Real.exp (M - M') * realSum a w M n = realSum a w M' n := by
  unfold realSum
  rw [Finset.mul_sum]
  refine Finset.sum_congr rfl fun j _ => ?_
  rw [Finset.mul_sum]
  refine Finset.sum_congr rfl fun q _ => ?_
  have h : M - M' + (a j q - M) = a j q - M' := by ring
  rw [← mul_assoc, ← Real.exp_add, h]

/-- With nonnegative weights the real one-shot sum is nonnegative. -/
theorem realSum_nonneg (M : ℝ) (n : ℕ) (hw : ∀ j < n, ∀ q, 0 ≤ w j q) :
    0 ≤ realSum a w M n :=
  Finset.sum_nonneg fun j hj => Finset.sum_nonneg fun q _ =>
    mul_nonneg (Real.exp_pos _).le (hw j (Finset.mem_range.1 hj) q)

/-- The running sum after `n` tiles is the one-shot weighted sum of exponentials of all
    visited scores against the running maximum after `n` tiles. At the first tile the
    old maximum is `-∞` and the rescaling factor `exp (-∞ - real)` is `0` against the sum
    `0`; at every later tile both maxima are real and the rescaling is the shift of the
    reference point in the reals. -/
theorem runSum_eq (hK : 0 < K) (n : ℕ) :
    runSum a w n = ∑ j ∈ Finset.range n, ∑ q : Fin K,
      Ideal.exp (((a j q : ℝ) : EReal) - runMax a n) * ((w j q : ℝ) : EReal) := by
  induction n with
  | zero => simp
  | succ n ih =>
    rw [runSum_succ, Finset.sum_range_succ, ih]
    refine congrArg₂ (· + ·) ?_ rfl
    rcases Nat.eq_zero_or_pos n with h0 | hpos
    · subst h0
      simp
    · obtain ⟨M, hM, -⟩ := runMax_real a hK n hpos
      obtain ⟨M', hM', -⟩ := runMax_real a hK (n+1) (Nat.succ_pos n)
      rw [hM, hM', sum_coe a w M n, sum_coe a w M' n, ← EReal.coe_sub, Ideal.exp_coe,
        ← EReal.coe_mul, realSum_shift]

/-- When the running maximum after `n` tiles is the real `M`, the running sum is the
    extended real of the real one-shot sum against `M`. -/
theorem runSum_eq_coe (hK : 0 < K) (n : ℕ) (M : ℝ) (hM : runMax a n = (M : EReal)) :
    runSum a w n = ((realSum a w M n : ℝ) : EReal) := by
  rw [runSum_eq a w hK, hM, sum_coe]

/-- The running sum is a finite real, nonnegative when the visited weights are. -/
theorem runSum_real_nonneg (hK : 0 < K) (n : ℕ) :
    ∃ s : ℝ, runSum a w n = (s : EReal) ∧ ((∀ j < n, ∀ q, 0 ≤ w j q) → 0 ≤ s) := by
  rcases Nat.eq_zero_or_pos n with h0 | hpos
  · subst h0
    exact ⟨0, by simp, fun _ => le_rfl⟩
  · obtain ⟨M, hM, -⟩ := runMax_real a hK n hpos
    exact ⟨realSum a w M n, runSum_eq_coe a w hK n M hM, fun hw => realSum_nonneg a w M n hw⟩

/-- The running sum is a finite real. -/
theorem runSum_real (hK : 0 < K) (n : ℕ) : ∃ s : ℝ, runSum a w n = (s : EReal) := by
  obtain ⟨s, hs, -⟩ := runSum_real_nonneg a w hK n
  exact ⟨s, hs⟩

end Run

/-! ### One long axis of `n * K` positions as `n` tiles of `K` -/

/-- Position `q` of tile `j` lies inside the long axis. -/
theorem tile_lt {n K : ℕ} (j : Fin n) (q : Fin K) : j.val * K + q.val < n * K :=
  calc j.val * K + q.val < j.val * K + K := Nat.add_lt_add_left q.isLt _
    _ = (j.val + 1) * K := (Nat.succ_mul _ _).symm
    _ ≤ n * K := Nat.mul_le_mul_right K j.isLt

/-- Every position of the long axis is position `q` of tile `j` for some `j` and `q`
    (quotient and remainder by `K`). -/
theorem tile_decomp {n K : ℕ} (c : Fin (n * K)) :
    ∃ (j : Fin n) (q : Fin K), c = ⟨j.val * K + q.val, tile_lt j q⟩ := by
  have hK : 0 < K := by
    rcases Nat.eq_zero_or_pos K with h | h
    · exact absurd c.isLt (by simp [h])
    · exact h
  refine ⟨⟨c.val / K, (Nat.div_lt_iff_lt_mul hK).2 c.isLt⟩, ⟨c.val % K, Nat.mod_lt _ hK⟩, Fin.ext ?_⟩
  show c.val = c.val / K * K + c.val % K
  exact (Nat.div_add_mod' c.val K).symm

/-- A sum over the long axis is the sum over tiles of the sums inside each tile. -/
theorem sum_tiles {n K : ℕ} {M : Type*} [AddCommMonoid M] (f : Fin (n * K) → M) :
    ∑ c : Fin (n * K), f c
      = ∑ j : Fin n, ∑ q : Fin K, f ⟨j.val * K + q.val, tile_lt j q⟩ := by
  refine Eq.trans ?_ (Fintype.sum_prod_type'
    (fun (j : Fin n) (q : Fin K) => f ⟨j.val * K + q.val, tile_lt j q⟩))
  refine (Fintype.sum_equiv finProdFinEquiv
    (fun p : Fin n × Fin K => f ⟨p.1.val * K + p.2.val, tile_lt p.1 p.2⟩) f fun p => ?_).symm
  refine congrArg f (Fin.ext ?_)
  show p.1.val * K + p.2.val = p.2.val + K * p.1.val
  ring

/-- The sum over the long axis against a family indexed by tile number and position. -/
theorem sum_tiles_of {n K : ℕ} {M : Type*} [AddCommMonoid M] (f : Fin (n * K) → M)
    (F : ℕ → Fin K → M)
    (h : ∀ (j : Fin n) (q : Fin K), f ⟨j.val * K + q.val, tile_lt j q⟩ = F j.val q) :
    ∑ c : Fin (n * K), f c = ∑ j ∈ Finset.range n, ∑ q : Fin K, F j q := by
  rw [sum_tiles, Finset.sum_range]
  exact Finset.sum_congr rfl fun j _ => Finset.sum_congr rfl fun q _ => h j q

/-- The same regrouping for a function of a natural-number position, over ranges. -/
theorem sum_tiles_range {n K : ℕ} {M : Type*} [AddCommMonoid M] (f : ℕ → M) :
    ∑ c ∈ Finset.range (n * K), f c
      = ∑ j ∈ Finset.range n, ∑ q ∈ Finset.range K, f (j * K + q) := by
  rw [Finset.sum_range, sum_tiles, Finset.sum_range]
  refine Finset.sum_congr rfl fun j _ => ?_
  rw [Finset.sum_range]

/-- A supremum over the long axis is the supremum over tiles of the suprema inside each
    tile. -/
theorem sup_tiles {n K : ℕ} {α : Type*} [SemilatticeSup α] [OrderBot α] (g : Fin (n * K) → α) :
    Finset.univ.sup g
      = Finset.univ.sup fun j : Fin n => Finset.univ.sup fun q : Fin K =>
          g ⟨j.val * K + q.val, tile_lt j q⟩ := by
  apply le_antisymm
  · refine Finset.sup_le fun c _ => ?_
    obtain ⟨j, q, hc⟩ := tile_decomp c
    subst hc
    exact le_trans
      (Finset.le_sup (f := fun q : Fin K => g ⟨j.val * K + q.val, tile_lt j q⟩) (Finset.mem_univ q))
      (Finset.le_sup (f := fun j : Fin n => Finset.univ.sup fun q : Fin K =>
          g ⟨j.val * K + q.val, tile_lt j q⟩) (Finset.mem_univ j))
  · exact Finset.sup_le fun j _ => Finset.sup_le fun q _ => Finset.le_sup (Finset.mem_univ _)

/-- A supremum over the first `n` naturals is the supremum over `Fin n`. -/
theorem sup_range_eq_sup_fin {α : Type*} [SemilatticeSup α] [OrderBot α] (n : ℕ) (F : ℕ → α) :
    (Finset.range n).sup F = Finset.univ.sup fun j : Fin n => F j.val := by
  apply le_antisymm
  · exact Finset.sup_le fun j hj =>
      Finset.le_sup (f := fun j : Fin n => F j.val)
        (Finset.mem_univ (⟨j, Finset.mem_range.1 hj⟩ : Fin n))
  · exact Finset.sup_le fun j _ => Finset.le_sup (f := F) (Finset.mem_range.2 j.isLt)

/-- The supremum over the long axis against a family indexed by tile number and
    position. -/
theorem sup_tiles_of {n K : ℕ} {α : Type*} [SemilatticeSup α] [OrderBot α] (g : Fin (n * K) → α)
    (G : ℕ → Fin K → α)
    (h : ∀ (j : Fin n) (q : Fin K), g ⟨j.val * K + q.val, tile_lt j q⟩ = G j.val q) :
    Finset.univ.sup g = (Finset.range n).sup fun j => Finset.univ.sup fun q : Fin K => G j q := by
  rw [sup_tiles, sup_range_eq_sup_fin]
  exact Finset.sup_congr rfl fun j _ => Finset.sup_congr rfl fun q _ => h j q

/-! ### The tiled recurrences against one long row -/

section Long
variable {n K : ℕ} (a w : ℕ → Fin K → ℝ) (x y : Fin (n * K) → ℝ)

/-- When the tiles are the consecutive blocks of a long row `x`, the running maximum after
    all `n` tiles is the maximum of the long row. -/
theorem runMax_eq_long
    (ha : ∀ (j : Fin n) (q : Fin K), a j.val q = x ⟨j.val * K + q.val, tile_lt j q⟩) :
    runMax a n = Finset.univ.sup fun c : Fin (n * K) => ((x c : ℝ) : EReal) := by
  rw [runMax_eq]
  exact (sup_tiles_of (fun c : Fin (n * K) => ((x c : ℝ) : EReal))
    (fun j q => ((a j q : ℝ) : EReal))
    (fun j q => congrArg (fun r : ℝ => (r : EReal)) (ha j q).symm)).symm

/-- When the tiles are the consecutive blocks of a long row of scores `x` and of weights
    `y`, the running sum after all `n` tiles is the weighted sum of exponentials of the
    long row against its maximum. -/
theorem runSum_eq_long (hK : 0 < K)
    (ha : ∀ (j : Fin n) (q : Fin K), a j.val q = x ⟨j.val * K + q.val, tile_lt j q⟩)
    (hw : ∀ (j : Fin n) (q : Fin K), w j.val q = y ⟨j.val * K + q.val, tile_lt j q⟩) :
    runSum a w n = ∑ c : Fin (n * K),
      Ideal.exp (((x c : ℝ) : EReal) - Finset.univ.sup fun c : Fin (n * K) => ((x c : ℝ) : EReal))
        * ((y c : ℝ) : EReal) := by
  rw [runSum_eq a w hK, ← runMax_eq_long a x ha]
  exact (sum_tiles_of
    (fun c : Fin (n * K) => Ideal.exp (((x c : ℝ) : EReal) - runMax a n) * ((y c : ℝ) : EReal))
    (fun j q => Ideal.exp (((a j q : ℝ) : EReal) - runMax a n) * ((w j q : ℝ) : EReal))
    (fun j q => by beta_reduce; rw [ha j q, hw j q])).symm

/-- The same with the maximum named as a real `M`: the running sum is the extended real of
    the real weighted sum of exponentials of the long row against `M`. -/
theorem runSum_eq_long_coe (hK : 0 < K)
    (ha : ∀ (j : Fin n) (q : Fin K), a j.val q = x ⟨j.val * K + q.val, tile_lt j q⟩)
    (hw : ∀ (j : Fin n) (q : Fin K), w j.val q = y ⟨j.val * K + q.val, tile_lt j q⟩)
    (M : ℝ) (hM : runMax a n = (M : EReal)) :
    runSum a w n = ((∑ c : Fin (n * K), Real.exp (x c - M) * y c : ℝ) : EReal) := by
  rw [runSum_eq_coe a w hK n M hM]
  refine congrArg (fun r : ℝ => (r : EReal)) ?_
  unfold realSum
  exact (sum_tiles_of (fun c : Fin (n * K) => Real.exp (x c - M) * y c)
    (fun j q => Real.exp (a j q - M) * w j q)
    (fun j q => by beta_reduce; rw [ha j q, hw j q])).symm

end Long

end Cert.Lib.OnlineSoftmax
-- ==== Proof.TiledDot.lean ====
/-
  A long inner product accumulated tile by tile.

  An inner product over 41024 positions is visited in tiles of 1024 positions: forty full tiles and a last one of
  which only the first 64 positions lie on the axis, the others being replaced by zero. Starting from zero and
  adding each tile's partial inner product in turn gives the whole inner product. Values are extended reals; only
  the laws of a commutative additive monoid and `0 * y = 0` are used.
-/
import proofs.«131451_j14499809591732_2_alg».proof.Proof.LibOnlineSoftmax

noncomputable section

open scoped BigOperators

namespace Cert.Nnue.TiledDot

open Cert.Lib.OnlineSoftmax

section
variable (x w : Fin 41024 → EReal)

/-- The product at a position of the axis, and zero past its end. -/
def g (c : ℕ) : EReal := if h : c < 41024 then x ⟨c, h⟩ * w ⟨c, h⟩ else 0

/-- The part of the sum that tile `j` covers. -/
def T (j : ℕ) : EReal := ∑ q : Fin 1024, g x w (j * 1024 + q.val)

/-- Summing over 41 · 1024 positions, the 960 past the end contributing zero, is the inner product. -/
theorem sum_g : ∑ c ∈ Finset.range (41 * 1024), g x w c = ∑ k : Fin 41024, x k * w k := by
  have hsub : Finset.range 41024 ⊆ Finset.range (41 * 1024) := Finset.range_mono (by norm_num)
  rw [← Finset.sum_subset hsub (fun c _ hc => by
    have hn : ¬ c < 41024 := fun h => hc (Finset.mem_range.2 h)
    unfold g
    rw [dif_neg hn]), Finset.sum_range]
  refine Finset.sum_congr rfl fun k _ => ?_
  unfold g
  rw [dif_pos k.isLt]

/-- The 41 tiles' parts add up to the inner product. -/
theorem sum_T : ∑ j ∈ Finset.range 41, T x w j = ∑ k : Fin 41024, x k * w k := by
  rw [← sum_g, sum_tiles_range]
  refine Finset.sum_congr rfl fun j _ => ?_
  unfold T
  rw [Finset.sum_range]

variable (X Wt : ℕ → Fin 1024 → EReal)
  (hX : ∀ (k : ℕ) (q : Fin 1024) (h : k * 1024 + q.val < 41024), X k q = x ⟨k * 1024 + q.val, h⟩)
  (hW : ∀ (k : ℕ) (q : Fin 1024) (h : k * 1024 + q.val < 41024), Wt k q = w ⟨k * 1024 + q.val, h⟩)

include hX hW

/-- A full tile's part is the inner product of the two tiles. -/
theorem T_full (j : ℕ) (hj : j < 40) : T x w j = ∑ q : Fin 1024, X j q * Wt j q := by
  unfold T
  refine Finset.sum_congr rfl fun q _ => ?_
  have hq := q.isLt
  have h : j * 1024 + q.val < 41024 := by omega
  unfold g
  rw [dif_pos h, hX j q h, hW j q h]

/-- The last tile's part is the inner product with the positions from the 64th on replaced by zero. -/
theorem T_last : T x w 40 = ∑ q : Fin 1024, (if q.val < 64 then X 40 q else 0) * Wt 40 q := by
  unfold T
  refine Finset.sum_congr rfl fun q _ => ?_
  unfold g
  by_cases h : q.val < 64
  · have h' : 40 * 1024 + q.val < 41024 := by omega
    rw [dif_pos h', if_pos h, hX 40 q h', hW 40 q h']
  · have h' : ¬ 40 * 1024 + q.val < 41024 := by omega
    rw [dif_neg h', if_neg h, zero_mul]

/-- Accumulating the tiles' partial inner products from zero, the last one masked, gives the whole inner product. -/
theorem tiled_dot (a : ℕ → EReal) (h0 : a 0 = 0 + ∑ q : Fin 1024, X 0 q * Wt 0 q)
    (hs : ∀ k, k + 1 < 40 → a (k + 1) = a k + ∑ q : Fin 1024, X (k + 1) q * Wt (k + 1) q)
    (h40 : a 40 = a 39 + ∑ q : Fin 1024, (if q.val < 64 then X 40 q else 0) * Wt 40 q) :
    a 40 = ∑ k : Fin 41024, x k * w k := by
  have hfull : ∀ k, k < 40 → a k = ∑ j ∈ Finset.range (k + 1), T x w j := by
    intro k
    induction k with
    | zero =>
      intro _
      rw [h0, Finset.sum_range_succ, Finset.sum_range_zero, T_full x w X Wt hX hW 0 (by norm_num)]
    | succ k ih =>
      intro hk
      rw [hs k hk, ih (by omega), Finset.sum_range_succ _ (k + 1), T_full x w X Wt hX hW (k + 1) hk]
  have h39 : a 39 = ∑ j ∈ Finset.range 40, T x w j := hfull 39 (by norm_num)
  have e41 : ∑ j ∈ Finset.range 41, T x w j = ∑ j ∈ Finset.range 40, T x w j + T x w 40 :=
    Finset.sum_range_succ (T x w) 40
  rw [h40, h39, ← sum_T x w, e41, T_last x w X Wt hX hW]

end

end Cert.Nnue.TiledDot

end
-- ==== Proof.HostSide.lean ====
/-
  What the kernel's region finds in the arrays its windows stage, read at an entry, on the extended reals.

  Before the region the host transposes the first weight matrix and pads it with 960 zero rows, transposes the other
  three weight matrices, and views each bias vector as a one-row matrix. Each resulting array is read here at an
  entry as an entry of the argument it was made from; the padded matrix reads zero in its added rows.
-/
import proofs.«131451_j14499809591732_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostSide

open Idealize.ShloMosaic Idealize.ShloMosaic.ValueIdx Idealize.SL.Sem Cert.KernelIdeal Cert.KernelIdeal.Gen
open Idealize.ShloMosaic.StableHlo Idealize.ShloMosaic.TcCoe

variable (m : (ℓ : Loc nD τ sig) → Buf (Elt Ideal) ℓ) (c : Dev nD)

/-! ## Each staged array as the host operations' term of the arguments -/

theorem e_v2 : (V m c main_v2 : S41984x256.Idx → EReal)
    = truncf (F := Ideal) .bf16
        (pad S41984x256 ![0, 0] ![960, 0] ![0, 0]
          (transpose S41024x256 [1, 0] (m ((c : Thread nD τ).loc main_arg4) : S256x41024.Idx → EReal) transposes_S256x41024_S41024x256_1_0)
          (sitofp (F := Ideal) .f32 (constantI S_ 32 0#32)) pads_S41024x256_S41984x256_09600_000 h_S_ : FVec Ideal S41984x256 .f32)
        bitsLt_bf16_f32 := by
  dsimp only [Gen.V]
  simp only [Gen.hostOps0, Gen.hostOps0_1, Gen.hostOps0_2, List.flatten_cons, List.flatten_nil, List.append_nil, List.cons_append, List.nil_append]
  after_results
  all_goals rfl

theorem e_v3 : (V m c main_v3 : S1x256.Idx → EReal)
    = shapeCast S1x256 (m ((c : Thread nD τ).loc main_arg5) : S256.Idx → EReal) shapeCasts_S256_S1x256 := by
  dsimp only [Gen.V]
  simp only [Gen.hostOps0, Gen.hostOps0_1, Gen.hostOps0_2, List.flatten_cons, List.flatten_nil, List.append_nil, List.cons_append, List.nil_append]
  after_results
  all_goals rfl

theorem e_v4 : (V m c main_v4 : S512x32.Idx → EReal)
    = transpose S512x32 [1, 0] (m ((c : Thread nD τ).loc main_arg6) : S32x512.Idx → EReal) transposes_S32x512_S512x32_1_0 := by
  dsimp only [Gen.V]
  simp only [Gen.hostOps0, Gen.hostOps0_1, Gen.hostOps0_2, List.flatten_cons, List.flatten_nil, List.append_nil, List.cons_append, List.nil_append]
  after_results
  all_goals rfl

theorem e_v5 : (V m c main_v5 : S32x32.Idx → EReal)
    = transpose S32x32 [1, 0] (m ((c : Thread nD τ).loc main_arg8) : S32x32.Idx → EReal) transposes_S32x32_S32x32_1_0 := by
  dsimp only [Gen.V]
  simp only [Gen.hostOps0, Gen.hostOps0_1, Gen.hostOps0_2, List.flatten_cons, List.flatten_nil, List.append_nil, List.cons_append, List.nil_append]
  after_results
  all_goals rfl

theorem e_v6 : (V m c main_v6 : S32x1.Idx → EReal)
    = transpose S32x1 [1, 0] (m ((c : Thread nD τ).loc main_arg10) : S1x32.Idx → EReal) transposes_S1x32_S32x1_1_0 := by
  dsimp only [Gen.V]
  simp only [Gen.hostOps0, Gen.hostOps0_1, Gen.hostOps0_2, List.flatten_cons, List.flatten_nil, List.append_nil, List.cons_append, List.nil_append]
  after_results
  all_goals rfl

theorem e_v7 : (V m c main_v7 : S1x32.Idx → EReal)
    = shapeCast S1x32 (m ((c : Thread nD τ).loc main_arg7) : S32.Idx → EReal) shapeCasts_S32_S1x32 := by
  dsimp only [Gen.V]
  simp only [Gen.hostOps0, Gen.hostOps0_1, Gen.hostOps0_2, List.flatten_cons, List.flatten_nil, List.append_nil, List.cons_append, List.nil_append]
  after_results
  all_goals rfl

theorem e_v8 : (V m c main_v8 : S1x32.Idx → EReal)
    = shapeCast S1x32 (m ((c : Thread nD τ).loc main_arg9) : S32.Idx → EReal) shapeCasts_S32_S1x32 := by
  dsimp only [Gen.V]
  simp only [Gen.hostOps0, Gen.hostOps0_1, Gen.hostOps0_2, List.flatten_cons, List.flatten_nil, List.append_nil, List.cons_append, List.nil_append]
  after_results
  all_goals rfl

theorem e_v9 : (V m c main_v9 : S1x1.Idx → EReal)
    = shapeCast S1x1 (m ((c : Thread nD τ).loc main_arg11) : S1.Idx → EReal) shapeCasts_S1_S1x1 := by
  dsimp only [Gen.V]
  simp only [Gen.hostOps0, Gen.hostOps0_1, Gen.hostOps0_2, List.flatten_cons, List.flatten_nil, List.append_nil, List.cons_append, List.nil_append]
  after_results
  all_goals rfl

/-! ## Read at an entry -/

/-- The transposed first weight matrix padded to 41984 rows: row `k`, column `j` is the matrix's `(j, k)` entry for
    `k < 41024` and zero in the added rows. -/
theorem V_v2_apply (k : Fin 41984) (j : Fin 256) :
    (V m c main_v2 : S41984x256.Idx → EReal) (ix2 k j)
      = if h : k.val < 41024 then (m ((c : Thread nD τ).loc main_arg4) : S256x41024.Idx → EReal) (ix2 j ⟨k.val, h⟩) else (0 : EReal) := by
  rw [e_v2, truncf_apply]
  by_cases h : k.val < 41024
  · rw [dif_pos h]
    refine (pad_apply_of_inside _ _ _ _ _ pads_S41024x256_S41984x256_09600_000 h_S_ (ix2 k j)
      (ix2 (⟨k.val, h⟩ : Fin 41024) j) fun a => ?_).trans ?_
    · match a with
      | ⟨0, _⟩ => show k.val = 0 + k.val * (0 + 1); omega
      | ⟨1, _⟩ => show j.val = 0 + j.val * (0 + 1); omega
    · exact transpose_ix2_apply _ _ (⟨k.val, h⟩ : Fin 41024) j
  · rw [dif_neg h]
    refine (pad_apply_of_not_inside _ _ _ _ _ pads_S41024x256_S41984x256_09600_000 h_S_ (ix2 k j) (0 : Fin 2) ?_).trans ?_
    · show ¬(0 ≤ k.val ∧ (k.val - 0) % (0 + 1) = 0 ∧ (k.val - 0) / (0 + 1) < 41024)
      intro hh
      have := hh.2.2
      omega
    · exact sitofp_zero (φ := .f32)

theorem V_v3_apply (j : Fin 256) :
    (V m c main_v3 : S1x256.Idx → EReal) (ix2 (0 : Fin 1) j) = (m ((c : Thread nD τ).loc main_arg5) : S256.Idx → EReal) (ix1 j) := by
  rw [e_v3]; exact shapeCast_a_1a_apply _ _ 0 j

theorem V_v4_apply (p : Fin 512) (q : Fin 32) :
    (V m c main_v4 : S512x32.Idx → EReal) (ix2 p q) = (m ((c : Thread nD τ).loc main_arg6) : S32x512.Idx → EReal) (ix2 q p) := by
  rw [e_v4]; exact transpose_ix2_apply _ _ p q

theorem V_v5_apply (p q : Fin 32) :
    (V m c main_v5 : S32x32.Idx → EReal) (ix2 p q) = (m ((c : Thread nD τ).loc main_arg8) : S32x32.Idx → EReal) (ix2 q p) := by
  rw [e_v5]; exact transpose_ix2_apply _ _ p q

theorem V_v6_apply (p : Fin 32) :
    (V m c main_v6 : S32x1.Idx → EReal) (ix2 p (0 : Fin 1)) = (m ((c : Thread nD τ).loc main_arg10) : S1x32.Idx → EReal) (ix2 (0 : Fin 1) p) := by
  rw [e_v6]; exact transpose_ix2_apply _ _ p 0

theorem V_v7_apply (q : Fin 32) :
    (V m c main_v7 : S1x32.Idx → EReal) (ix2 (0 : Fin 1) q) = (m ((c : Thread nD τ).loc main_arg7) : S32.Idx → EReal) (ix1 q) := by
  rw [e_v7]; exact shapeCast_a_1a_apply _ _ 0 q

theorem V_v8_apply (q : Fin 32) :
    (V m c main_v8 : S1x32.Idx → EReal) (ix2 (0 : Fin 1) q) = (m ((c : Thread nD τ).loc main_arg9) : S32.Idx → EReal) (ix1 q) := by
  rw [e_v8]; exact shapeCast_a_1a_apply _ _ 0 q

theorem V_v9_apply :
    (V m c main_v9 : S1x1.Idx → EReal) (ix2 (0 : Fin 1) (0 : Fin 1)) = (m ((c : Thread nD τ).loc main_arg11) : S1.Idx → EReal) (ix1 (0 : Fin 1)) := by
  rw [e_v9]; exact shapeCast_a_1a_apply _ _ 0 0

end Cert.KernelIdeal.HostSide

end
-- ==== Proof.KernelValue.lean ====
/-
  The kernel's values against the proof data, on the extended reals.

  Along a row tile the two accumulators are a running sum over the 41 column tiles: each tile adds the inner product
  of its 1024 columns of the input row with the matching rows of the weight block, the last tile only its 64 columns
  inside the array. So after the last tile an accumulator entry is the whole 41024-term inner product. The result
  rows stored at the last tile are then the specification's layers applied to these inner products.
-/
import proofs.«131451_j14499809591732_2_alg».proof.Proof.BodyAcc
import proofs.«131451_j14499809591732_2_alg».proof.Proof.BlockReads
import proofs.«131451_j14499809591732_2_alg».proof.Proof.PayloadValue
import proofs.«131451_j14499809591732_2_alg».proof.Proof.PayloadTail
import proofs.«131451_j14499809591732_2_alg».proof.Proof.TiledDot
import proofs.«131451_j14499809591732_2_alg».proof.Proof.HostSide
import proofs.«131451_j14499809591732_2_alg».proof.Proof.Spec

set_option maxRecDepth 16384

noncomputable section

open scoped BigOperators

namespace Cert.KernelIdeal.KValue

open Cert.KernelIdeal Cert.KernelIdeal.Gen Cert.KernelIdeal.Body Cert.KernelIdeal.BlockReads Cert.KernelIdeal.PayValue
open Cert.KernelIdeal.HostSide
open Idealize.ShloMosaic Idealize.ShloMosaic.TcCoe Idealize.SL.Sem Idealize.ShloMosaic.ValueIdx

variable (m : (ℓ : Loc nD τ sig) → Buf (Elt Ideal) ℓ) (c : Dev nD)

/-! The twelve argument arrays as functions on their index sets. -/
abbrev A0 : S4096x1.Idx → EReal := m ((c : Thread nD τ).loc main_arg0)
abbrev A1 : S4096x1.Idx → EReal := m ((c : Thread nD τ).loc main_arg1)
abbrev A2 : S4096x41024.Idx → EReal := m ((c : Thread nD τ).loc main_arg2)
abbrev A3 : S4096x41024.Idx → EReal := m ((c : Thread nD τ).loc main_arg3)
abbrev A4 : S256x41024.Idx → EReal := m ((c : Thread nD τ).loc main_arg4)
abbrev A5 : S256.Idx → EReal := m ((c : Thread nD τ).loc main_arg5)
abbrev A6 : S32x512.Idx → EReal := m ((c : Thread nD τ).loc main_arg6)
abbrev A7 : S32.Idx → EReal := m ((c : Thread nD τ).loc main_arg7)
abbrev A8 : S32x32.Idx → EReal := m ((c : Thread nD τ).loc main_arg8)
abbrev A9 : S32.Idx → EReal := m ((c : Thread nD τ).loc main_arg9)
abbrev A10 : S1x32.Idx → EReal := m ((c : Thread nD τ).loc main_arg10)
abbrev A11 : S1.Idx → EReal := m ((c : Thread nD τ).loc main_arg11)

/-- Column tile `k` of row tile `mi` as a grid point. -/
abbrev pt (mi : Fin 4) (k : ℕ) (hk : k ≤ 40) : Fin cfg0.N :=
  ⟨mi.val * 41 + k, Nat.lt_of_lt_of_eq (by have := mi.isLt; omega) N_0.symm⟩

theorem pt_mod (mi : Fin 4) (k : ℕ) (hk : k ≤ 40) : (pt mi k hk).val % 41 = k := by
  show (mi.val * 41 + k) % 41 = k; omega
theorem pt_div (mi : Fin 4) (k : ℕ) (hk : k ≤ 40) : (pt mi k hk).val / 41 = mi.val := by
  show (mi.val * 41 + k) / 41 = mi.val; omega

/-- The accumulators depend on the point's number only. -/
theorem acc_congr (n n' : ℕ) (h : n < cfg0.N) (h' : n' < cfg0.N) (e : n = n') : acc m c n h = acc m c n' h' := by
  subst e; rfl

/-- The first long input's filled block at an entry inside the array. -/
theorem x0c_apply (t : Fin cfg0.N) (r q : Fin 1024) (a : Fin 4096) (b : Fin 41024)
    (ha : a.val = t.val / 41 * 1024 + r.val) (hb : b.val = t.val % 41 * 1024 + q.val) :
    x0c m c t (ix2 r q) = A2 m c (ix2 a b) := by
  have h : t.val % 41 * 1024 + q.val < 41024 := by rw [← hb]; exact b.isLt
  unfold x0c
  refine (fill0_apply m c t _ r q).trans ?_
  rw [dif_pos h, V_main_arg2]
  exact congrArg₂ (fun a b => A2 m c (ix2 a b)) (Fin.ext ha.symm) (Fin.ext hb.symm)

theorem x1c_apply (t : Fin cfg0.N) (r q : Fin 1024) (a : Fin 4096) (b : Fin 41024)
    (ha : a.val = t.val / 41 * 1024 + r.val) (hb : b.val = t.val % 41 * 1024 + q.val) :
    x1c m c t (ix2 r q) = A3 m c (ix2 a b) := by
  have h : t.val % 41 * 1024 + q.val < 41024 := by rw [← hb]; exact b.isLt
  unfold x1c
  refine (fill1_apply m c t _ r q).trans ?_
  rw [dif_pos h, V_main_arg3]
  exact congrArg₂ (fun a b => A3 m c (ix2 a b)) (Fin.ext ha.symm) (Fin.ext hb.symm)

/-- The weight block at an entry inside the array. -/
theorem w2_apply (t : Fin cfg0.N) (q : Fin 1024) (j : Fin 256) (b : Fin 41024)
    (hb : b.val = t.val % 41 * 1024 + q.val) :
    (iblk m c 2 t : Vec Ideal S1024x256 .bf16) (ix2 q j)
      = A4 m c (ix2 j b) := by
  have h : t.val % 41 * 1024 + q.val < 41024 := by rw [← hb]; exact b.isLt
  refine (iblk2_apply m c t q j).trans ((V_v2_apply m c ⟨t.val % 41 * 1024 + q.val, wrow_lt t q⟩ j).trans ?_)
  rw [dif_pos h]
  exact congrArg (fun b => A4 m c (ix2 j b)) (Fin.ext hb.symm)

/-- A shape cast of the weight block to its own shape is the block. -/
theorem pay3_eq (v : Vec Ideal S1024x256 .bf16) : k0_pay3 (F := Ideal) v = v := by
  unfold k0_pay3
  exact shapeCast_self v _

/-- A row of the 4096-row arrays inside row tile `mi`. -/
abbrev row (mi : Fin 4) (r : Fin 1024) : Fin 4096 := ⟨mi.val * 1024 + r.val, by have := mi.isLt; have := r.isLt; omega⟩

/-- The weight tile's column. -/
def WT (mi : Fin 4) (j : Fin 256) (k : ℕ) (q : Fin 1024) : EReal :=
  if hk : k ≤ 40 then (iblk m c 2 (pt mi k hk) : Vec Ideal S1024x256 .bf16) (ix2 q j) else 0
theorem WT_of_le (mi : Fin 4) (j : Fin 256) (k : ℕ) (hk : k ≤ 40) (q : Fin 1024) :
    WT m c mi j k q = (iblk m c 2 (pt mi k hk) : Vec Ideal S1024x256 .bf16) (ix2 q j) := dif_pos hk

theorem WT_inside (mi : Fin 4) (j : Fin 256) (k : ℕ) (q : Fin 1024) (h : k * 1024 + q.val < 41024) :
    WT m c mi j k q = A4 m c (ix2 j ⟨k * 1024 + q.val, h⟩) := by
  have hk : k ≤ 40 := by have := q.isLt; omega
  rw [WT_of_le m c mi j k hk q]
  exact w2_apply m c (pt mi k hk) q j ⟨k * 1024 + q.val, h⟩ (by rw [pt_mod])

section Acc1
variable (mi : Fin 4) (r : Fin 1024) (j : Fin 256)

theorem acc1_first (h : mi.val * 41 + 0 < cfg0.N) :
    (acc m c (mi.val * 41 + 0) h).1 (ix2 r j)
      = 0 + ∑ q : Fin 1024, x0c m c (pt mi 0 (Nat.zero_le _)) (ix2 r q)
          * (iblk m c 2 (pt mi 0 (Nat.zero_le _)) : Vec Ideal S1024x256 .bf16) (ix2 q j) := by
  have e : acc m c (mi.val * 41 + 0) h = stepA m c (pt mi 0 (Nat.zero_le _)) :=
    acc_A m c (pt mi 0 (Nat.zero_le _)) (pt_mod mi 0 (Nat.zero_le _))
  rw [e]
  refine (pay4_apply (iblk m c 2 (pt mi 0 (Nat.zero_le _))) (x0c m c (pt mi 0 (Nat.zero_le _))) (k0_pay1 (F := Ideal)) r j).trans ?_
  rw [pay1_apply_zero]

theorem acc1_step (k : ℕ) (hk : k + 1 ≤ 40) (hk2 : k + 1 < 40) (h1 : mi.val * 41 + (k + 1) < cfg0.N) (h0 : mi.val * 41 + k < cfg0.N) :
    (acc m c (mi.val * 41 + (k + 1)) h1).1 (ix2 r j)
      = (acc m c (mi.val * 41 + k) h0).1 (ix2 r j)
        + ∑ q : Fin 1024, x0c m c (pt mi (k + 1) hk) (ix2 r q)
            * (iblk m c 2 (pt mi (k + 1) hk) : Vec Ideal S1024x256 .bf16) (ix2 q j) := by
  have hm := pt_mod mi (k + 1) hk
  have e : acc m c (mi.val * 41 + (k + 1)) h1 = stepB m c (pt mi (k + 1) hk) (acc m c (mi.val * 41 + k) h0) :=
    (acc_B m c (pt mi (k + 1) hk) (by rw [hm]; omega) (by rw [hm]; omega)).trans
      (congrArg (stepB m c (pt mi (k + 1) hk))
        (acc_congr m c _ _ _ _ (by show mi.val * 41 + (k + 1) - 1 = mi.val * 41 + k; omega)))
  rw [e]
  exact pay4_apply (iblk m c 2 (pt mi (k + 1) hk)) (x0c m c (pt mi (k + 1) hk)) (acc m c (mi.val * 41 + k) h0).1 r j

theorem acc1_last (h1 : mi.val * 41 + 40 < cfg0.N) (h0 : mi.val * 41 + 39 < cfg0.N) :
    (acc m c (mi.val * 41 + 40) h1).1 (ix2 r j)
      = (acc m c (mi.val * 41 + 39) h0).1 (ix2 r j)
        + ∑ q : Fin 1024, (if q.val < 64 then x0c m c (pt mi 40 (le_refl _)) (ix2 r q) else 0)
            * (iblk m c 2 (pt mi 40 (le_refl _)) : Vec Ideal S1024x256 .bf16) (ix2 q j) := by
  have hm := pt_mod mi 40 (le_refl _)
  have e : acc m c (mi.val * 41 + 40) h1 = stepC m c (pt mi 40 (le_refl _)) (acc m c (mi.val * 41 + 39) h0) :=
    (acc_C m c (pt mi 40 (le_refl _)) hm).trans
      (congrArg (stepC m c (pt mi 40 (le_refl _)))
        (acc_congr m c _ _ _ _ (by show mi.val * 41 + 40 - 1 = mi.val * 41 + 39; omega)))
  rw [e]
  show k0_pay8 (F := Ideal) (BitVec.ofNat 32 ((grid0.coords (pt mi 40 (le_refl _))) 1).val)
      (k0_pay3 (iblk m c 2 (pt mi 40 (le_refl _)))) (x0c m c (pt mi 40 (le_refl _)))
      (acc m c (mi.val * 41 + 39) h0).1 (ix2 r j) = _
  rw [arg1_last (pt mi 40 (le_refl _)) hm]
  refine (congrArg (fun v4 => k0_pay8 (F := Ideal) 40#32 v4 (x0c m c (pt mi 40 (le_refl _)))
      (acc m c (mi.val * 41 + 39) h0).1 (ix2 r j)) (pay3_eq (iblk m c 2 (pt mi 40 (le_refl _))))).trans ?_
  exact pay8_apply (iblk m c 2 (pt mi 40 (le_refl _))) (x0c m c (pt mi 40 (le_refl _)))
    (acc m c (mi.val * 41 + 39) h0).1 r j

/-- The running value after column tile `k` at the entry, as a function of the tile's number. -/
def aT1 (k : ℕ) : EReal :=
  if hk : k ≤ 40 then (acc m c (mi.val * 41 + k) (pt mi k hk).isLt).1 (ix2 r j) else 0
/-- The input tile's row. -/
def XT1 (k : ℕ) (q : Fin 1024) : EReal :=
  if hk : k ≤ 40 then x0c m c (pt mi k hk) (ix2 r q) else 0

theorem aT1_of_le (k : ℕ) (hk : k ≤ 40) :
    aT1 m c mi r j k = (acc m c (mi.val * 41 + k) (pt mi k hk).isLt).1 (ix2 r j) := dif_pos hk
theorem XT1_of_le (k : ℕ) (hk : k ≤ 40) (q : Fin 1024) :
    XT1 m c mi r k q = x0c m c (pt mi k hk) (ix2 r q) := dif_pos hk

end Acc1

theorem XT1_inside (mi : Fin 4) (r : Fin 1024) (k : ℕ) (q : Fin 1024) (h : k * 1024 + q.val < 41024) :
    XT1 m c mi r k q = A2 m c (ix2 (row mi r) ⟨k * 1024 + q.val, h⟩) := by
  have hk : k ≤ 40 := by have := q.isLt; omega
  rw [XT1_of_le m c mi r k hk q]
  exact x0c_apply m c (pt mi k hk) r q (row mi r) ⟨k * 1024 + q.val, h⟩ (by rw [pt_div]) (by rw [pt_mod])

/-- The accumulator after a row tile's last column tile, at an entry: the whole inner product of the input row with
    the weight row. -/
theorem acc_val_w (mi : Fin 4) (r : Fin 1024) (j : Fin 256) (h : mi.val * 41 + 40 < cfg0.N) :
    (acc m c (mi.val * 41 + 40) h).1 (ix2 r j)
      = ∑ k : Fin 41024, A2 m c (ix2 (row mi r) k)
          * A4 m c (ix2 j k) := by
  have key := Cert.Nnue.TiledDot.tiled_dot
    (fun k : Fin 41024 => A2 m c (ix2 (row mi r) k))
    (fun k : Fin 41024 => A4 m c (ix2 j k))
    (XT1 m c mi r) (WT m c mi j)
    (fun k q hkq => XT1_inside m c mi r k q hkq) (fun k q hkq => WT_inside m c mi j k q hkq)
    (aT1 m c mi r j)
    (by
      rw [aT1_of_le m c mi r j 0 (Nat.zero_le _), acc1_first m c mi r j]
      refine congrArg (0 + ·) (Finset.sum_congr rfl fun q _ => ?_)
      rw [XT1_of_le m c mi r 0 (Nat.zero_le _) q, WT_of_le m c mi j 0 (Nat.zero_le _) q])
    (fun k hk => by
      have hk1 : k + 1 ≤ 40 := by omega
      have hk0 : k ≤ 40 := by omega
      rw [aT1_of_le m c mi r j (k + 1) hk1, aT1_of_le m c mi r j k hk0,
        acc1_step m c mi r j k hk1 hk _ (pt mi k hk0).isLt]
      refine congrArg ((acc m c (mi.val * 41 + k) (pt mi k hk0).isLt).1 (ix2 r j) + ·) (Finset.sum_congr rfl fun q _ => ?_)
      rw [XT1_of_le m c mi r (k + 1) hk1 q, WT_of_le m c mi j (k + 1) hk1 q])
    (by
      rw [aT1_of_le m c mi r j 40 (le_refl _), aT1_of_le m c mi r j 39 (by omega),
        acc1_last m c mi r j _ (pt mi 39 (by omega)).isLt]
      refine congrArg ((acc m c (mi.val * 41 + 39) (pt mi 39 (by omega)).isLt).1 (ix2 r j) + ·) (Finset.sum_congr rfl fun q _ => ?_)
      rw [XT1_of_le m c mi r 40 (le_refl _) q, WT_of_le m c mi j 40 (le_refl _) q])
  rw [aT1_of_le m c mi r j 40 (le_refl _)] at key
  exact key

section Acc2
variable (mi : Fin 4) (r : Fin 1024) (j : Fin 256)

theorem acc2_first (h : mi.val * 41 + 0 < cfg0.N) :
    (acc m c (mi.val * 41 + 0) h).2 (ix2 r j)
      = 0 + ∑ q : Fin 1024, x1c m c (pt mi 0 (Nat.zero_le _)) (ix2 r q)
          * (iblk m c 2 (pt mi 0 (Nat.zero_le _)) : Vec Ideal S1024x256 .bf16) (ix2 q j) := by
  have e : acc m c (mi.val * 41 + 0) h = stepA m c (pt mi 0 (Nat.zero_le _)) :=
    acc_A m c (pt mi 0 (Nat.zero_le _)) (pt_mod mi 0 (Nat.zero_le _))
  rw [e]
  refine (pay5_apply (iblk m c 2 (pt mi 0 (Nat.zero_le _))) (x1c m c (pt mi 0 (Nat.zero_le _))) (k0_pay2 (F := Ideal)) r j).trans ?_
  rw [pay2_apply_zero]

theorem acc2_step (k : ℕ) (hk : k + 1 ≤ 40) (hk2 : k + 1 < 40) (h1 : mi.val * 41 + (k + 1) < cfg0.N) (h0 : mi.val * 41 + k < cfg0.N) :
    (acc m c (mi.val * 41 + (k + 1)) h1).2 (ix2 r j)
      = (acc m c (mi.val * 41 + k) h0).2 (ix2 r j)
        + ∑ q : Fin 1024, x1c m c (pt mi (k + 1) hk) (ix2 r q)
            * (iblk m c 2 (pt mi (k + 1) hk) : Vec Ideal S1024x256 .bf16) (ix2 q j) := by
  have hm := pt_mod mi (k + 1) hk
  have e : acc m c (mi.val * 41 + (k + 1)) h1 = stepB m c (pt mi (k + 1) hk) (acc m c (mi.val * 41 + k) h0) :=
    (acc_B m c (pt mi (k + 1) hk) (by rw [hm]; omega) (by rw [hm]; omega)).trans
      (congrArg (stepB m c (pt mi (k + 1) hk))
        (acc_congr m c _ _ _ _ (by show mi.val * 41 + (k + 1) - 1 = mi.val * 41 + k; omega)))
  rw [e]
  exact pay5_apply (iblk m c 2 (pt mi (k + 1) hk)) (x1c m c (pt mi (k + 1) hk)) (acc m c (mi.val * 41 + k) h0).2 r j

theorem acc2_last (h1 : mi.val * 41 + 40 < cfg0.N) (h0 : mi.val * 41 + 39 < cfg0.N) :
    (acc m c (mi.val * 41 + 40) h1).2 (ix2 r j)
      = (acc m c (mi.val * 41 + 39) h0).2 (ix2 r j)
        + ∑ q : Fin 1024, (if q.val < 64 then x1c m c (pt mi 40 (le_refl _)) (ix2 r q) else 0)
            * (iblk m c 2 (pt mi 40 (le_refl _)) : Vec Ideal S1024x256 .bf16) (ix2 q j) := by
  have hm := pt_mod mi 40 (le_refl _)
  have e : acc m c (mi.val * 41 + 40) h1 = stepC m c (pt mi 40 (le_refl _)) (acc m c (mi.val * 41 + 39) h0) :=
    (acc_C m c (pt mi 40 (le_refl _)) hm).trans
      (congrArg (stepC m c (pt mi 40 (le_refl _)))
        (acc_congr m c _ _ _ _ (by show mi.val * 41 + 40 - 1 = mi.val * 41 + 39; omega)))
  rw [e]
  show k0_pay9 (F := Ideal) (BitVec.ofNat 32 ((grid0.coords (pt mi 40 (le_refl _))) 1).val)
      (k0_pay3 (iblk m c 2 (pt mi 40 (le_refl _)))) (x1c m c (pt mi 40 (le_refl _)))
      (acc m c (mi.val * 41 + 39) h0).2 (ix2 r j) = _
  rw [arg1_last (pt mi 40 (le_refl _)) hm]
  refine (congrArg (fun v4 => k0_pay9 (F := Ideal) 40#32 v4 (x1c m c (pt mi 40 (le_refl _)))
      (acc m c (mi.val * 41 + 39) h0).2 (ix2 r j)) (pay3_eq (iblk m c 2 (pt mi 40 (le_refl _))))).trans ?_
  exact pay9_apply (iblk m c 2 (pt mi 40 (le_refl _))) (x1c m c (pt mi 40 (le_refl _)))
    (acc m c (mi.val * 41 + 39) h0).2 r j

/-- The running value after column tile `k` at the entry, as a function of the tile's number. -/
def aT2 (k : ℕ) : EReal :=
  if hk : k ≤ 40 then (acc m c (mi.val * 41 + k) (pt mi k hk).isLt).2 (ix2 r j) else 0
/-- The input tile's row. -/
def XT2 (k : ℕ) (q : Fin 1024) : EReal :=
  if hk : k ≤ 40 then x1c m c (pt mi k hk) (ix2 r q) else 0

theorem aT2_of_le (k : ℕ) (hk : k ≤ 40) :
    aT2 m c mi r j k = (acc m c (mi.val * 41 + k) (pt mi k hk).isLt).2 (ix2 r j) := dif_pos hk
theorem XT2_of_le (k : ℕ) (hk : k ≤ 40) (q : Fin 1024) :
    XT2 m c mi r k q = x1c m c (pt mi k hk) (ix2 r q) := dif_pos hk

end Acc2

theorem XT2_inside (mi : Fin 4) (r : Fin 1024) (k : ℕ) (q : Fin 1024) (h : k * 1024 + q.val < 41024) :
    XT2 m c mi r k q = A3 m c (ix2 (row mi r) ⟨k * 1024 + q.val, h⟩) := by
  have hk : k ≤ 40 := by have := q.isLt; omega
  rw [XT2_of_le m c mi r k hk q]
  exact x1c_apply m c (pt mi k hk) r q (row mi r) ⟨k * 1024 + q.val, h⟩ (by rw [pt_div]) (by rw [pt_mod])

/-- The accumulator after a row tile's last column tile, at an entry: the whole inner product of the input row with
    the weight row. -/
theorem acc_val_b (mi : Fin 4) (r : Fin 1024) (j : Fin 256) (h : mi.val * 41 + 40 < cfg0.N) :
    (acc m c (mi.val * 41 + 40) h).2 (ix2 r j)
      = ∑ k : Fin 41024, A3 m c (ix2 (row mi r) k)
          * A4 m c (ix2 j k) := by
  have key := Cert.Nnue.TiledDot.tiled_dot
    (fun k : Fin 41024 => A3 m c (ix2 (row mi r) k))
    (fun k : Fin 41024 => A4 m c (ix2 j k))
    (XT2 m c mi r) (WT m c mi j)
    (fun k q hkq => XT2_inside m c mi r k q hkq) (fun k q hkq => WT_inside m c mi j k q hkq)
    (aT2 m c mi r j)
    (by
      rw [aT2_of_le m c mi r j 0 (Nat.zero_le _), acc2_first m c mi r j]
      refine congrArg (0 + ·) (Finset.sum_congr rfl fun q _ => ?_)
      rw [XT2_of_le m c mi r 0 (Nat.zero_le _) q, WT_of_le m c mi j 0 (Nat.zero_le _) q])
    (fun k hk => by
      have hk1 : k + 1 ≤ 40 := by omega
      have hk0 : k ≤ 40 := by omega
      rw [aT2_of_le m c mi r j (k + 1) hk1, aT2_of_le m c mi r j k hk0,
        acc2_step m c mi r j k hk1 hk _ (pt mi k hk0).isLt]
      refine congrArg ((acc m c (mi.val * 41 + k) (pt mi k hk0).isLt).2 (ix2 r j) + ·) (Finset.sum_congr rfl fun q _ => ?_)
      rw [XT2_of_le m c mi r (k + 1) hk1 q, WT_of_le m c mi j (k + 1) hk1 q])
    (by
      rw [aT2_of_le m c mi r j 40 (le_refl _), aT2_of_le m c mi r j 39 (by omega),
        acc2_last m c mi r j _ (pt mi 39 (by omega)).isLt]
      refine congrArg ((acc m c (mi.val * 41 + 39) (pt mi 39 (by omega)).isLt).2 (ix2 r j) + ·) (Finset.sum_congr rfl fun q _ => ?_)
      rw [XT2_of_le m c mi r 40 (le_refl _) q, WT_of_le m c mi j 40 (le_refl _) q])
  rw [aT2_of_le m c mi r j 40 (le_refl _)] at key
  exact key

/-! ## The result rows -/

section Out
open Cert.Nnue (clip01 side feat l0 l1 l2 out)

/-- The last column tile of row tile `mi`. -/
abbrev tl (mi : Fin 4) : Fin cfg0.N := pt mi 40 (le_refl _)

variable (mi : Fin 4) (r : Fin 1024)

theorem us_apply : (iblk m c 4 (tl mi) : Vec Ideal S1024x1 .f32) (ix2 r (0 : Fin 1)) = A0 m c (ix2 (row mi r) (0 : Fin 1)) := by
  refine (iblk4_apply m c (tl mi) r).trans ?_
  rw [V_main_arg0]
  exact congrArg (fun a => A0 m c (ix2 a (0 : Fin 1)))
    (Fin.ext (by show (mi.val * 41 + 40) / 41 * 1024 + r.val = mi.val * 1024 + r.val; omega))

theorem them_apply : (iblk m c 5 (tl mi) : Vec Ideal S1024x1 .f32) (ix2 r (0 : Fin 1)) = A1 m c (ix2 (row mi r) (0 : Fin 1)) := by
  refine (iblk5_apply m c (tl mi) r).trans ?_
  rw [V_main_arg1]
  exact congrArg (fun a => A1 m c (ix2 a (0 : Fin 1)))
    (Fin.ext (by show (mi.val * 41 + 40) / 41 * 1024 + r.val = mi.val * 1024 + r.val; omega))

theorem bias_apply (j : Fin 256) : (iblk m c 3 (tl mi) : Vec Ideal S1x256 .f32) (ix2 (0 : Fin 1) j) = A5 m c (ix1 j) :=
  (congrFun (iblk3_eq m c (tl mi)) (ix2 (0 : Fin 1) j)).trans (V_v3_apply m c j)
theorem W1_apply (p : Fin 512) (q : Fin 32) : (iblk m c 6 (tl mi) : Vec Ideal S512x32 .f32) (ix2 p q) = A6 m c (ix2 q p) :=
  (congrFun (iblk6_eq m c (tl mi)) (ix2 p q)).trans (V_v4_apply m c p q)
theorem b1_apply (q : Fin 32) : (iblk m c 7 (tl mi) : Vec Ideal S1x32 .f32) (ix2 (0 : Fin 1) q) = A7 m c (ix1 q) :=
  (congrFun (iblk7_eq m c (tl mi)) (ix2 (0 : Fin 1) q)).trans (V_v7_apply m c q)
theorem W2_apply (p q : Fin 32) : (iblk m c 8 (tl mi) : Vec Ideal S32x32 .f32) (ix2 p q) = A8 m c (ix2 q p) :=
  (congrFun (iblk8_eq m c (tl mi)) (ix2 p q)).trans (V_v5_apply m c p q)
theorem b2_apply (q : Fin 32) : (iblk m c 9 (tl mi) : Vec Ideal S1x32 .f32) (ix2 (0 : Fin 1) q) = A9 m c (ix1 q) :=
  (congrFun (iblk9_eq m c (tl mi)) (ix2 (0 : Fin 1) q)).trans (V_v8_apply m c q)
theorem Wo_apply (p : Fin 32) : (iblk m c 10 (tl mi) : Vec Ideal S32x1 .f32) (ix2 p (0 : Fin 1)) = A10 m c (ix2 (0 : Fin 1) p) :=
  (congrFun (iblk10_eq m c (tl mi)) (ix2 p (0 : Fin 1))).trans (V_v6_apply m c p)
theorem bo_apply : (iblk m c 11 (tl mi) : Vec Ideal S1x1 .f32) (ix2 (0 : Fin 1) (0 : Fin 1)) = A11 m c (ix1 (0 : Fin 1)) :=
  (congrFun (iblk11_eq m c (tl mi)) (ix2 (0 : Fin 1) (0 : Fin 1))).trans (V_v9_apply m c)

/-- The first perspective's accumulator row plus the bias is the specification's feature row. -/
theorem fw_w : fw (iblk m c 3 (tl mi)) (acc m c (tl mi).val (tl mi).isLt).1 r = feat (A2 m c) (A4 m c) (A5 m c) (row mi r) := by
  funext j
  unfold fw Cert.Nnue.feat
  exact congrArg₂ (· + ·) (acc_val_w m c mi r j _) (bias_apply m c mi j)

theorem fw_b : fw (iblk m c 3 (tl mi)) (acc m c (tl mi).val (tl mi).isLt).2 r = feat (A3 m c) (A4 m c) (A5 m c) (row mi r) := by
  funext j
  unfold fw Cert.Nnue.feat
  exact congrArg₂ (· + ·) (acc_val_b m c mi r j _) (bias_apply m c mi j)

theorem L0_eq (p : Fin 512) :
    L0 (iblk m c 3 (tl mi)) (acc m c (tl mi).val (tl mi).isLt).1 (acc m c (tl mi).val (tl mi).isLt).2 (iblk m c 4 (tl mi)) (iblk m c 5 (tl mi)) r p = l0 (A0 m c) (A1 m c) (A2 m c) (A3 m c) (A4 m c) (A5 m c) (row mi r) p := by
  unfold L0 Cert.Nnue.l0
  rw [fw_w m c mi r, fw_b m c mi r, us_apply m c mi r, them_apply m c mi r]

theorem L1_eq (q : Fin 32) :
    L1 (iblk m c 3 (tl mi)) (acc m c (tl mi).val (tl mi).isLt).1 (acc m c (tl mi).val (tl mi).isLt).2 (iblk m c 4 (tl mi)) (iblk m c 5 (tl mi)) (iblk m c 6 (tl mi)) (iblk m c 7 (tl mi)) r q = l1 (A0 m c) (A1 m c) (A2 m c) (A3 m c) (A4 m c) (A5 m c) (A6 m c) (A7 m c) (row mi r) q := by
  unfold L1 Cert.Nnue.l1
  refine congrArg₂ (fun s b => clip01 (s + b)) (Finset.sum_congr rfl fun p _ => ?_) (b1_apply m c mi q)
  rw [L0_eq m c mi r p]
  exact congrArg (l0 (A0 m c) (A1 m c) (A2 m c) (A3 m c) (A4 m c) (A5 m c) (row mi r) p * ·) (W1_apply m c mi p q)

theorem L2_eq (q : Fin 32) :
    L2 (iblk m c 3 (tl mi)) (acc m c (tl mi).val (tl mi).isLt).1 (acc m c (tl mi).val (tl mi).isLt).2 (iblk m c 4 (tl mi)) (iblk m c 5 (tl mi)) (iblk m c 6 (tl mi)) (iblk m c 7 (tl mi)) (iblk m c 8 (tl mi)) (iblk m c 9 (tl mi)) r q = l2 (A0 m c) (A1 m c) (A2 m c) (A3 m c) (A4 m c) (A5 m c) (A6 m c) (A7 m c) (A8 m c) (A9 m c) (row mi r) q := by
  unfold L2 Cert.Nnue.l2
  refine congrArg₂ (fun s b => clip01 (s + b)) (Finset.sum_congr rfl fun p _ => ?_) (b2_apply m c mi q)
  rw [L1_eq m c mi r p]
  exact congrArg (l1 (A0 m c) (A1 m c) (A2 m c) (A3 m c) (A4 m c) (A5 m c) (A6 m c) (A7 m c) (row mi r) p * ·) (W2_apply m c mi p q)

/-- The result rows stored at a row tile's last column tile are the specification's result at those rows. -/
theorem out12_val :
    out12 m c (tl mi) (ix2 r (0 : Fin 1)) = out (A0 m c) (A1 m c) (A2 m c) (A3 m c) (A4 m c) (A5 m c) (A6 m c) (A7 m c) (A8 m c) (A9 m c) (A10 m c) (A11 m c) (row mi r) := by
  unfold out12
  refine (tail_apply (iblk m c 3 (tl mi)) (acc m c (tl mi).val (tl mi).isLt).1 (acc m c (tl mi).val (tl mi).isLt).2 (iblk m c 4 (tl mi)) (iblk m c 5 (tl mi)) (iblk m c 6 (tl mi)) (iblk m c 7 (tl mi)) (iblk m c 8 (tl mi)) (iblk m c 9 (tl mi)) (iblk m c 10 (tl mi)) (iblk m c 11 (tl mi)) r).trans ?_
  unfold Cert.Nnue.out
  refine congrArg₂ (· + ·) (Finset.sum_congr rfl fun p _ => ?_) (bo_apply m c mi)
  rw [L2_eq m c mi r p]
  exact congrArg (l2 (A0 m c) (A1 m c) (A2 m c) (A3 m c) (A4 m c) (A5 m c) (A6 m c) (A7 m c) (A8 m c) (A9 m c) (row mi r) p * ·) (Wo_apply m c mi p)

/-- The same at any grid point that is a last column tile, the row named by the point. -/
theorem out12_val_at (t : Fin cfg0.N) (ht : t.val % 41 = 40) (r : Fin 1024) :
    out12 m c t (ix2 r (0 : Fin 1))
      = out (A0 m c) (A1 m c) (A2 m c) (A3 m c) (A4 m c) (A5 m c) (A6 m c) (A7 m c) (A8 m c) (A9 m c) (A10 m c) (A11 m c) ⟨t.val / 41 * 1024 + r.val, row_lt t r⟩ := by
  have hlt := t_lt t
  obtain ⟨mi, hmi⟩ : ∃ mi : Fin 4, t.val = mi.val * 41 + 40 := ⟨⟨t.val / 41, by omega⟩, by show t.val = t.val / 41 * 41 + 40; omega⟩
  have e : t = tl mi := Fin.ext hmi
  subst e
  refine (out12_val m c mi r).trans (congrArg (out (A0 m c) (A1 m c) (A2 m c) (A3 m c) (A4 m c) (A5 m c) (A6 m c) (A7 m c) (A8 m c) (A9 m c) (A10 m c) (A11 m c)) (Fin.ext ?_))
  show mi.val * 1024 + r.val = (mi.val * 41 + 40) / 41 * 1024 + r.val
  omega

end Out

end Cert.KernelIdeal.KValue
end
-- ==== Proof.KernelFinal.lean ====
/-
  The result array after the run is the specified function of the argument buffers.

  The result window's blocks are row tiles of 1024 rows; each is written back once, at the last column tile of its row
  tile, and the four written blocks cover the array. So the array ends holding any function whose block at each of
  those four points is what the body left there; the hypothesis is that what it left is, row by row, the specified
  result row.
-/
import proofs.«131451_j14499809591732_2_alg».proof.Proof.BodyAcc
import proofs.«131451_j14499809591732_2_alg».proof.Proof.BlockReads
import proofs.«131451_j14499809591732_2_alg».proof.Proof.Spec
import Idealize.ShloMosaic.Lib.Pipeline.Value

noncomputable section

namespace Cert.KernelIdeal.KFinal

open Cert.KernelIdeal Cert.KernelIdeal.Gen Cert.KernelIdeal.Body Cert.KernelIdeal.BlockReads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The specified result array of device `c`'s twelve argument buffers. -/
abbrev GG (c : Dev nD) : S4096x1.Idx → EReal :=
  Cert.Nnue.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The last column tile of a row tile is a grid point. -/
theorem pt_lt (mi : Fin 4) : mi.val * 41 + 40 < cfg0.N :=
  Nat.lt_of_lt_of_eq (by have := mi.isLt; omega) N_0.symm

/-- A row of a row tile is a row of the array. -/
theorem rowm_lt (mi : Fin 4) (r : Fin 1024) : mi.val * 1024 + r.val < 4096 := by
  have := mi.isLt; have := r.isLt; omega

/-- What a point that writes the result block back writes is that block of the specified array. -/
theorem flushed_eq (c : Dev nD)
    (hval : ∀ (mi : Fin 4) (r : Fin 1024), out12 m c ⟨mi.val * 41 + 40, pt_lt mi⟩ (ix2 r (0 : Fin 1))
      = Cert.Nnue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) ⟨mi.val * 1024 + r.val, rowm_lt mi r⟩)
    (t : Fin cfg0.N) (hf : (cfg0.win 12).flush t = true) :
    (dats m 0 c).flushed 12 t = ((cfg0.win 12).blk t).view.read (Elt Ideal) (GG m c) := by
  have h40 : t.val % 41 = 40 := (flush0_12 t).mp hf
  have ht := t_lt t
  have hmi : t.val / 41 < 4 := by omega
  have et : t = ⟨(⟨t.val / 41, hmi⟩ : Fin 4).val * 41 + 40, pt_lt ⟨t.val / 41, hmi⟩⟩ :=
    Fin.ext (by show t.val = t.val / 41 * 41 + 40; omega)
  show (cfg0.win 12).cut (grid0.coords t) ((dats m 0 c).after 12 t) = _
  rw [after0_12]
  funext (y : S1024x1.Idx)
  obtain ⟨r, z, rfl⟩ : ∃ (r : Fin 1024) (z : Fin 1), y = ix2 r z := ⟨y 0, y 1, eq_ix2 (n0 := 1024) (n1 := 1) y⟩
  obtain rfl : z = 0 := Subsingleton.elim _ _
  rw [read12_apply]
  show out12 m c t (ix2 r (0 : Fin 1)) = _
  exact (congrArg (fun t' => out12 m c t' (ix2 r (0 : Fin 1))) et).trans ((hval ⟨t.val / 41, hmi⟩ r).trans rfl)

/-- The result array after the run. -/
theorem final12_of (c : Dev nD)
    (hval : ∀ (mi : Fin 4) (r : Fin 1024), out12 m c ⟨mi.val * 41 + 40, pt_lt mi⟩ (ix2 r (0 : Fin 1))
      = Cert.Nnue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) ⟨mi.val * 1024 + r.val, rowm_lt mi r⟩) :
    (dats m 0 c).arrAt 12 cfg0.N = GG m c :=
  (dats m 0 c).arrAt_eq_of_cover 12 (GG m c) (flushed_eq m c hval) cover12

/-- From a run of the program to the region's frame post: the result buffer ends at the specified array and the twelve
    arguments end unchanged, on every device. -/
theorem run_G_of_run (ρ : Dev nD → PrngReg)
    (hval : ∀ (c : Dev nD) (mi : Fin 4) (r : Fin 1024), out12 m c ⟨mi.val * 41 + 40, pt_lt mi⟩ (ix2 r (0 : Fin 1))
      = Cert.Nnue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) ⟨mi.val * 1024 + r.val, rowm_lt mi r⟩)
    (h : θ_run defs (onTc (τ := τ) (main (F := Ideal))) (s₀ m ρ) (Pipeline.FramePost cfgs (dats m) 0 (V m))) :
    θ_run defs (onTc (τ := τ) (main (F := Ideal))) ⟨m, fun _ => 0, ρ⟩ (fun r => ∀ c : Dev nD,
      r.2.mem ((c.tc : Thread nD τ).loc main_v10) = GG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 12).trans (final12_of m c (hval c)),
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.KernelIdeal.KFinal

end
-- ==== Proof.RefValue.lean ====
/-
  The reference program's result is the specified function of the twelve argument arrays.

  The program computes, stage by stage: two feature arrays (an input row against the rows of the first weight matrix,
  written as a product with the transposed matrix, plus the bias vector laid along every row); the two arrays joined
  side by side in both orders, each scaled by a per-row scalar laid along the columns, and added; a clip to the unit
  interval (a maximum with zero laid everywhere, then a minimum with one laid everywhere); and three more affine layers,
  the first two clipped. Each stage is read at an entry and identified with the corresponding named quantity of the
  specification. A product with a transposed matrix at (r, j) is the sum over k of x (r, k) · W (j, k), which is how the
  specification writes every layer.
-/
import proofs.«131451_j14499809591732_2_alg».proof.Proof.Gen.ReferenceIdeal.Read
import proofs.«131451_j14499809591732_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Nnue

/-- Two rank-2 indices with the same coordinates are equal. -/
theorem idx2_ext {n0 n1 : Nat} (a b : (⟨2, ![n0, n1]⟩ : Shape).Idx) (h0 : a 0 = b 0) (h1 : a 1 = b 1) : a = b := by
  funext d; match d with | ⟨0, _⟩ => exact h0 | ⟨1, _⟩ => exact h1

/-- Two rank-1 indices with the same coordinate are equal. -/
theorem idx1_ext {n : Nat} (a b : (⟨1, ![n]⟩ : Shape).Idx) (h0 : a 0 = b 0) : a = b := by
  funext d; match d with | ⟨0, _⟩ => exact h0

/-- The first feature array at row `r`, column `j`. -/
theorem v4_apply (x2 : (⟨S4096x41024, .f32⟩ : BufTy).Contents (Elt Ideal)) (x4 : (⟨S256x41024, .f32⟩ : BufTy).Contents (Elt Ideal))
    (x5 : (⟨S256, .f32⟩ : BufTy).Contents (Elt Ideal)) (r : Fin 4096) (j : Fin 256) :
    val_main_v4 (F := Ideal) x2 x4 x5 (ix2 r j) = feat x2 x4 x5 r j := by
  rw [val_main_v4_apply, val_main_v1_apply, val_main_v3_apply, val_main_v2_apply]
  unfold feat
  show (∑ k : Fin 41024, _) + _ = _
  refine congrArg₂ (· + ·) (Finset.sum_congr rfl fun k _ => ?_) ?_
  · rw [val_main_v0_apply]
    exact congrArg₂ (· * ·) (congrArg x2 (idx2_ext _ _ rfl rfl)) (congrArg x4 (idx2_ext _ _ rfl rfl))
  · exact congrArg x5 (idx1_ext _ _ rfl)

/-- The second feature array at row `r`, column `j`. -/
theorem v9_apply (x3 : (⟨S4096x41024, .f32⟩ : BufTy).Contents (Elt Ideal)) (x4 : (⟨S256x41024, .f32⟩ : BufTy).Contents (Elt Ideal))
    (x5 : (⟨S256, .f32⟩ : BufTy).Contents (Elt Ideal)) (r : Fin 4096) (j : Fin 256) :
    val_main_v9 (F := Ideal) x3 x4 x5 (ix2 r j) = feat x3 x4 x5 r j := by
  rw [val_main_v9_apply, val_main_v6_apply, val_main_v8_apply, val_main_v7_apply]
  unfold feat
  show (∑ k : Fin 41024, _) + _ = _
  refine congrArg₂ (· + ·) (Finset.sum_congr rfl fun k _ => ?_) ?_
  · rw [val_main_v5_apply]
    exact congrArg₂ (· * ·) (congrArg x3 (idx2_ext _ _ rfl rfl)) (congrArg x4 (idx2_ext _ _ rfl rfl))
  · exact congrArg x5 (idx1_ext _ _ rfl)

/-- Two 4096×256 arrays joined along the columns, at row `r`, column `p`: the first array's entry when `p` is below
    256, the second's at `p - 256` otherwise. -/
theorem concat_apply (f g : (⟨S4096x256, .f32⟩ : BufTy).Contents (Elt Ideal)) (r : Fin 4096) (p : Fin 512) :
    concatenate S4096x512 1 [⟨S4096x256, f⟩, ⟨S4096x256, g⟩] concatenates_S4096x256_S4096x256_S4096x512_d1 (ix2 r p)
      = side (fun j => f (ix2 r j)) (fun j => g (ix2 r j)) p := by
  unfold side
  split
  · rename_i h
    exact concatenate_pair_apply_left (1 : Fin S4096x512.rank) f g concatenates_S4096x256_S4096x256_S4096x512_d1 (ix2 r p) rfl
      (ix2 r ⟨p.val, h⟩) (fun b => match b with
        | ⟨0, _⟩ => rfl
        | ⟨1, _⟩ => rfl)
  · rename_i h
    exact concatenate_pair_apply_right (1 : Fin S4096x512.rank) f g concatenates_S4096x256_S4096x256_S4096x512_d1 (ix2 r p) rfl rfl
      (ix2 r ⟨p.val - 256, by have := p.isLt; omega⟩) (fun b => match b with
        | ⟨0, _⟩ => fun _ => rfl
        | ⟨1, _⟩ => fun hb => absurd rfl hb)
      (by show (p.val - 256) + 256 = p.val; omega)

/-- The features joined own-side first, at row `r`, column `p`. -/
theorem v10_apply (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (r : Fin 4096) (p : Fin 512) :
    val_main_v10 (F := Ideal) x2 x3 x4 x5 (ix2 r p) = side (feat x2 x4 x5 r) (feat x3 x4 x5 r) p := by
  unfold val_main_v10
  rw [concat_apply]
  exact congrArg₂ (fun f g => side f g p) (funext fun j => v4_apply x2 x4 x5 r j) (funext fun j => v9_apply x3 x4 x5 r j)

/-- The features joined other-side first, at row `r`, column `p`. -/
theorem v13_apply (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (r : Fin 4096) (p : Fin 512) :
    val_main_v13 (F := Ideal) x2 x3 x4 x5 (ix2 r p) = side (feat x3 x4 x5 r) (feat x2 x4 x5 r) p := by
  unfold val_main_v13
  rw [concat_apply]
  exact congrArg₂ (fun f g => side f g p) (funext fun j => v9_apply x3 x4 x5 r j) (funext fun j => v4_apply x2 x4 x5 r j)

/-- The clipped mixture at row `r`, column `p` is the specification's first layer. -/
theorem v17_apply (x0 x1 : (⟨S4096x1, .f32⟩ : BufTy).Contents (Elt Ideal)) (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (r : Fin 4096) (p : Fin 512) :
    val_main_v17 (F := Ideal) x0 x1 x2 x3 x4 x5 (ix2 r p) = l0 x0 x1 x2 x3 x4 x5 r p := by
  rw [val_main_v17_apply, val_main_call0_v4_apply, val_main_call0_v3_apply, val_main_cst_0_apply,
    val_main_call0_v2_apply, val_main_call0_v1_apply, val_main_call0_v0_apply, val_main_cst_apply,
    val_main_v16_apply, val_main_v12_apply, val_main_v15_apply, val_main_v11_apply, val_main_v14_apply,
    v10_apply, v13_apply]
  unfold l0 clip01
  have e0 : idx_main_v11 (ix2 r p) = ix2 r (0 : Fin 1) := idx2_ext _ _ rfl rfl
  have e1 : idx_main_v14 (ix2 r p) = ix2 r (0 : Fin 1) := idx2_ext _ _ rfl rfl
  rw [e0, e1]
  rfl

/-- The second layer at row `r`, column `q`. -/
theorem v23_apply (x0 x1 : (⟨S4096x1, .f32⟩ : BufTy).Contents (Elt Ideal)) (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (x6 : (⟨S32x512, .f32⟩ : BufTy).Contents (Elt Ideal)) (x7 : (⟨S32, .f32⟩ : BufTy).Contents (Elt Ideal))
    (r : Fin 4096) (q : Fin 32) :
    val_main_v23 (F := Ideal) x0 x1 x2 x3 x4 x5 x6 x7 (ix2 r q) = l1 x0 x1 x2 x3 x4 x5 x6 x7 r q := by
  rw [val_main_v23_apply, val_main_call1_v4_apply, val_main_call1_v3_apply, val_main_cst_2_apply,
    val_main_call1_v2_apply, val_main_call1_v1_apply, val_main_call1_v0_apply, val_main_cst_1_apply,
    val_main_v22_apply, val_main_v19_apply, val_main_v21_apply, val_main_v20_apply]
  unfold l1 clip01
  show min _ (max _ ((∑ k : Fin 512, _) + _)) = _
  refine congrArg (min _) (congrArg (max _) (congrArg₂ (· + ·) (Finset.sum_congr rfl fun k _ => ?_) ?_))
  · rw [val_main_v18_apply]
    have el : lidx_main_v19 (ix2 r q) k = ix2 r k := idx2_ext _ _ rfl rfl
    rw [el, v17_apply]
    exact congrArg₂ (· * ·) rfl (congrArg x6 (idx2_ext _ _ rfl rfl))
  · exact congrArg x7 (idx1_ext _ _ rfl)

/-- The third layer at row `r`, column `q`. -/
theorem v29_apply (x0 x1 : (⟨S4096x1, .f32⟩ : BufTy).Contents (Elt Ideal)) (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (x6 : (⟨S32x512, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (r : Fin 4096) (q : Fin 32) :
    val_main_v29 (F := Ideal) x0 x1 x2 x3 x4 x5 x6 x7 x8 x9 (ix2 r q) = l2 x0 x1 x2 x3 x4 x5 x6 x7 x8 x9 r q := by
  rw [val_main_v29_apply, val_main_call2_v4_apply, val_main_call2_v3_apply, val_main_cst_4_apply,
    val_main_call2_v2_apply, val_main_call2_v1_apply, val_main_call2_v0_apply, val_main_cst_3_apply,
    val_main_v28_apply, val_main_v25_apply, val_main_v27_apply, val_main_v26_apply]
  unfold l2 clip01
  show min _ (max _ ((∑ k : Fin 32, _) + _)) = _
  refine congrArg (min _) (congrArg (max _) (congrArg₂ (· + ·) (Finset.sum_congr rfl fun k _ => ?_) ?_))
  · rw [val_main_v24_apply]
    have el : lidx_main_v25 (ix2 r q) k = ix2 r k := idx2_ext _ _ rfl rfl
    rw [el, v23_apply]
    exact congrArg₂ (· * ·) rfl (congrArg x8 (idx2_ext _ _ rfl rfl))
  · exact congrArg x9 (idx1_ext _ _ rfl)

/-- The result at row `r` (its one column). -/
theorem v34_apply (x0 x1 : (⟨S4096x1, .f32⟩ : BufTy).Contents (Elt Ideal)) (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (x6 : (⟨S32x512, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S1x32, .f32⟩ : BufTy).Contents (Elt Ideal)) (x11 : (⟨S1, .f32⟩ : BufTy).Contents (Elt Ideal))
    (r : Fin 4096) (z : Fin 1) :
    val_main_v34 (F := Ideal) x0 x1 x2 x3 x4 x5 x6 x7 x8 x9 x10 x11 (ix2 r z)
      = out x0 x1 x2 x3 x4 x5 x6 x7 x8 x9 x10 x11 r := by
  rw [val_main_v34_apply, val_main_v31_apply, val_main_v33_apply, val_main_v32_apply]
  unfold out
  show (∑ k : Fin 32, _) + _ = _
  refine congrArg₂ (· + ·) (Finset.sum_congr rfl fun k _ => ?_) ?_
  · rw [val_main_v30_apply]
    have el : lidx_main_v31 (ix2 r z) k = ix2 r k := idx2_ext _ _ rfl rfl
    rw [el, v29_apply]
    exact congrArg₂ (· * ·) rfl (congrArg x10 (idx2_ext _ _ (Subsingleton.elim (α := Fin 1) _ _) rfl))
  · exact congrArg x11 (idx1_ext _ _ rfl)

/-- The reference's result array is the specified function of the twelve arguments. -/
theorem val_eq (x0 x1 : (⟨S4096x1, .f32⟩ : BufTy).Contents (Elt Ideal)) (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (x6 : (⟨S32x512, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S1x32, .f32⟩ : BufTy).Contents (Elt Ideal)) (x11 : (⟨S1, .f32⟩ : BufTy).Contents (Elt Ideal)) :
    val_main_v34 (F := Ideal) x0 x1 x2 x3 x4 x5 x6 x7 x8 x9 x10 x11 = G x0 x1 x2 x3 x4 x5 x6 x7 x8 x9 x10 x11 := by
  funext i
  obtain ⟨r, z, rfl⟩ : ∃ (r : Fin 4096) (z : Fin 1), i = ix2 r z := ⟨i 0, i 1, eq_ix2 (n0 := 4096) (n1 := 1) i⟩
  exact v34_apply x0 x1 x2 x3 x4 x5 x6 x7 x8 x9 x10 x11 r z

/-- The composed term the reference's run leaves in its result, over any twelve argument arrays, is the specified
    function of them. -/
theorem result_eq (x0 x1 : (⟨S4096x1, .f32⟩ : BufTy).Contents (Elt Ideal)) (x2 x3 : (⟨S4096x41024, .f32⟩ : BufTy).Contents (Elt Ideal))
    (x4 : (⟨S256x41024, .f32⟩ : BufTy).Contents (Elt Ideal)) (x5 : (⟨S256, .f32⟩ : BufTy).Contents (Elt Ideal))
    (x6 : (⟨S32x512, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S1x32, .f32⟩ : BufTy).Contents (Elt Ideal)) (x11 : (⟨S1, .f32⟩ : BufTy).Contents (Elt Ideal)) :
    addf (Host.dotGeneral (F := Ideal) (φ₁ := .f32) (φ₂ := .f32) dot_S4096x32_S32x1_S4096x1_1_0_0_1_n_n none (minimumf (broadcastInDim S4096x32 ![] bcast_S_S4096x32 (id (constant (F := Ideal) S_ .f32 0x3F800000#32))) (maximumf (broadcastInDim S4096x32 ![] bcast_S_S4096x32 (id (constant (F := Ideal) S_ .f32 0x00000000#32))) (addf (Host.dotGeneral (F := Ideal) (φ₁ := .f32) (φ₂ := .f32) dot_S4096x32_S32x32_S4096x32_1_0_0_1_n_n none (minimumf (broadcastInDim S4096x32 ![] bcast_S_S4096x32 (id (constant (F := Ideal) S_ .f32 0x3F800000#32))) (maximumf (broadcastInDim S4096x32 ![] bcast_S_S4096x32 (id (constant (F := Ideal) S_ .f32 0x00000000#32))) (addf (Host.dotGeneral (F := Ideal) (φ₁ := .f32) (φ₂ := .f32) dot_S4096x512_S512x32_S4096x32_1_0_0_1_n_n none (minimumf (broadcastInDim S4096x512 ![] bcast_S_S4096x512 (id (constant (F := Ideal) S_ .f32 0x3F800000#32))) (maximumf (broadcastInDim S4096x512 ![] bcast_S_S4096x512 (id (constant (F := Ideal) S_ .f32 0x00000000#32))) (addf (mulf (broadcastInDim S4096x512 ![0, 1] bcast_S4096x1_S4096x512_0_1 (x0)) (concatenate S4096x512 1 [⟨S4096x256, (addf (Host.dotGeneral (F := Ideal) (φ₁ := .f32) (φ₂ := .f32) dot_S4096x41024_S41024x256_S4096x256_1_0_0_1_n_n none (x2) (transpose S41024x256 [1, 0] (x4) transposes_S256x41024_S41024x256_1_0)) (broadcastInDim S4096x256 ![0, 1] bcast_S1x256_S4096x256_0_1 (broadcastInDim S1x256 ![1] bcast_S256_S1x256_1 (x5))))⟩, ⟨S4096x256, (addf (Host.dotGeneral (F := Ideal) (φ₁ := .f32) (φ₂ := .f32) dot_S4096x41024_S41024x256_S4096x256_1_0_0_1_n_n none (x3) (transpose S41024x256 [1, 0] (x4) transposes_S256x41024_S41024x256_1_0)) (broadcastInDim S4096x256 ![0, 1] bcast_S1x256_S4096x256_0_1 (broadcastInDim S1x256 ![1] bcast_S256_S1x256_1 (x5))))⟩] concatenates_S4096x256_S4096x256_S4096x512_d1)) (mulf (broadcastInDim S4096x512 ![0, 1] bcast_S4096x1_S4096x512_0_1 (x1)) (concatenate S4096x512 1 [⟨S4096x256, (addf (Host.dotGeneral (F := Ideal) (φ₁ := .f32) (φ₂ := .f32) dot_S4096x41024_S41024x256_S4096x256_1_0_0_1_n_n none (x3) (transpose S41024x256 [1, 0] (x4) transposes_S256x41024_S41024x256_1_0)) (broadcastInDim S4096x256 ![0, 1] bcast_S1x256_S4096x256_0_1 (broadcastInDim S1x256 ![1] bcast_S256_S1x256_1 (x5))))⟩, ⟨S4096x256, (addf (Host.dotGeneral (F := Ideal) (φ₁ := .f32) (φ₂ := .f32) dot_S4096x41024_S41024x256_S4096x256_1_0_0_1_n_n none (x2) (transpose S41024x256 [1, 0] (x4) transposes_S256x41024_S41024x256_1_0)) (broadcastInDim S4096x256 ![0, 1] bcast_S1x256_S4096x256_0_1 (broadcastInDim S1x256 ![1] bcast_S256_S1x256_1 (x5))))⟩] concatenates_S4096x256_S4096x256_S4096x512_d1))))) (transpose S512x32 [1, 0] (x6) transposes_S32x512_S512x32_1_0)) (broadcastInDim S4096x32 ![0, 1] bcast_S1x32_S4096x32_0_1 (broadcastInDim S1x32 ![1] bcast_S32_S1x32_1 (x7)))))) (transpose S32x32 [1, 0] (x8) transposes_S32x32_S32x32_1_0)) (broadcastInDim S4096x32 ![0, 1] bcast_S1x32_S4096x32_0_1 (broadcastInDim S1x32 ![1] bcast_S32_S1x32_1 (x9)))))) (transpose S32x1 [1, 0] (x10) transposes_S1x32_S32x1_1_0)) (broadcastInDim S4096x1 ![0, 1] bcast_S1x1_S4096x1_0_1 (broadcastInDim S1x1 ![1] bcast_S1_S1x1_1 (x11)))
      = G x0 x1 x2 x3 x4 x5 x6 x7 x8 x9 x10 x11 :=
  (val_main_v34_eq (F := Ideal) x0 x1 x2 x3 x4 x5 x6 x7 x8 x9 x10 x11).trans
    (val_eq x0 x1 x2 x3 x4 x5 x6 x7 x8 x9 x10 x11)

open Idealize.ShloMosaic.TcCoe Idealize.SL.Sem Idealize.ShloMosaic.StableHlo in
/-- The same, with the twelve arrays read from a memory at a device's argument buffers: the term exactly as the run's
    postcondition states it. -/
theorem run_result_eq (m : (ℓ : Loc nD τ sig) → Buf (Elt Ideal) ℓ) (c : Dev nD) :
    addf (Host.dotGeneral (F := Ideal) (φ₁ := .f32) (φ₂ := .f32) dot_S4096x32_S32x1_S4096x1_1_0_0_1_n_n none (minimumf (broadcastInDim S4096x32 ![] bcast_S_S4096x32 (id (constant (F := Ideal) S_ .f32 0x3F800000#32))) (maximumf (broadcastInDim S4096x32 ![] bcast_S_S4096x32 (id (constant (F := Ideal) S_ .f32 0x00000000#32))) (addf (Host.dotGeneral (F := Ideal) (φ₁ := .f32) (φ₂ := .f32) dot_S4096x32_S32x32_S4096x32_1_0_0_1_n_n none (minimumf (broadcastInDim S4096x32 ![] bcast_S_S4096x32 (id (constant (F := Ideal) S_ .f32 0x3F800000#32))) (maximumf (broadcastInDim S4096x32 ![] bcast_S_S4096x32 (id (constant (F := Ideal) S_ .f32 0x00000000#32))) (addf (Host.dotGeneral (F := Ideal) (φ₁ := .f32) (φ₂ := .f32) dot_S4096x512_S512x32_S4096x32_1_0_0_1_n_n none (minimumf (broadcastInDim S4096x512 ![] bcast_S_S4096x512 (id (constant (F := Ideal) S_ .f32 0x3F800000#32))) (maximumf (broadcastInDim S4096x512 ![] bcast_S_S4096x512 (id (constant (F := Ideal) S_ .f32 0x00000000#32))) (addf (mulf (broadcastInDim S4096x512 ![0, 1] bcast_S4096x1_S4096x512_0_1 (m ((c.tc : Thread nD τ).loc main_arg0))) (concatenate S4096x512 1 [⟨S4096x256, (addf (Host.dotGeneral (F := Ideal) (φ₁ := .f32) (φ₂ := .f32) dot_S4096x41024_S41024x256_S4096x256_1_0_0_1_n_n none (m ((c.tc : Thread nD τ).loc main_arg2)) (transpose S41024x256 [1, 0] (m ((c.tc : Thread nD τ).loc main_arg4)) transposes_S256x41024_S41024x256_1_0)) (broadcastInDim S4096x256 ![0, 1] bcast_S1x256_S4096x256_0_1 (broadcastInDim S1x256 ![1] bcast_S256_S1x256_1 (m ((c.tc : Thread nD τ).loc main_arg5)))))⟩, ⟨S4096x256, (addf (Host.dotGeneral (F := Ideal) (φ₁ := .f32) (φ₂ := .f32) dot_S4096x41024_S41024x256_S4096x256_1_0_0_1_n_n none (m ((c.tc : Thread nD τ).loc main_arg3)) (transpose S41024x256 [1, 0] (m ((c.tc : Thread nD τ).loc main_arg4)) transposes_S256x41024_S41024x256_1_0)) (broadcastInDim S4096x256 ![0, 1] bcast_S1x256_S4096x256_0_1 (broadcastInDim S1x256 ![1] bcast_S256_S1x256_1 (m ((c.tc : Thread nD τ).loc main_arg5)))))⟩] concatenates_S4096x256_S4096x256_S4096x512_d1)) (mulf (broadcastInDim S4096x512 ![0, 1] bcast_S4096x1_S4096x512_0_1 (m ((c.tc : Thread nD τ).loc main_arg1))) (concatenate S4096x512 1 [⟨S4096x256, (addf (Host.dotGeneral (F := Ideal) (φ₁ := .f32) (φ₂ := .f32) dot_S4096x41024_S41024x256_S4096x256_1_0_0_1_n_n none (m ((c.tc : Thread nD τ).loc main_arg3)) (transpose S41024x256 [1, 0] (m ((c.tc : Thread nD τ).loc main_arg4)) transposes_S256x41024_S41024x256_1_0)) (broadcastInDim S4096x256 ![0, 1] bcast_S1x256_S4096x256_0_1 (broadcastInDim S1x256 ![1] bcast_S256_S1x256_1 (m ((c.tc : Thread nD τ).loc main_arg5)))))⟩, ⟨S4096x256, (addf (Host.dotGeneral (F := Ideal) (φ₁ := .f32) (φ₂ := .f32) dot_S4096x41024_S41024x256_S4096x256_1_0_0_1_n_n none (m ((c.tc : Thread nD τ).loc main_arg2)) (transpose S41024x256 [1, 0] (m ((c.tc : Thread nD τ).loc main_arg4)) transposes_S256x41024_S41024x256_1_0)) (broadcastInDim S4096x256 ![0, 1] bcast_S1x256_S4096x256_0_1 (broadcastInDim S1x256 ![1] bcast_S256_S1x256_1 (m ((c.tc : Thread nD τ).loc main_arg5)))))⟩] concatenates_S4096x256_S4096x256_S4096x512_d1))))) (transpose S512x32 [1, 0] (m ((c.tc : Thread nD τ).loc main_arg6)) transposes_S32x512_S512x32_1_0)) (broadcastInDim S4096x32 ![0, 1] bcast_S1x32_S4096x32_0_1 (broadcastInDim S1x32 ![1] bcast_S32_S1x32_1 (m ((c.tc : Thread nD τ).loc main_arg7))))))) (transpose S32x32 [1, 0] (m ((c.tc : Thread nD τ).loc main_arg8)) transposes_S32x32_S32x32_1_0)) (broadcastInDim S4096x32 ![0, 1] bcast_S1x32_S4096x32_0_1 (broadcastInDim S1x32 ![1] bcast_S32_S1x32_1 (m ((c.tc : Thread nD τ).loc main_arg9))))))) (transpose S32x1 [1, 0] (m ((c.tc : Thread nD τ).loc main_arg10)) transposes_S1x32_S32x1_1_0)) (broadcastInDim S4096x1 ![0, 1] bcast_S1x1_S4096x1_0_1 (broadcastInDim S1x1 ![1] bcast_S1_S1x1_1 (m ((c.tc : Thread nD τ).loc main_arg11))))
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) :=
  result_eq _ _ _ _ _ _ _ _ _ _ _ _

open Idealize.ShloMosaic.TcCoe Idealize.SL.Sem Idealize.ShloMosaic.StableHlo in
/-- Every weakly fair execution of the reference from a memory `m` with zero counters terminates with the result
    buffer holding the specified function of the argument buffers' launch contents, on every device. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) :=
  (θ_run defs _ _).mono (fun _ h c => (h c).1.trans (run_result_eq m c)) (Cert.ReferenceIdeal.Value.run (F := Ideal) m ρ)

end Cert.ReferenceIdeal.RefValue

end
-- ==== Proof.lean ====
/-
  The kernel and its reference compute one function on the extended reals.

  The reference forms two feature matrices, each the product of a long input (41024 columns) with the transposed first
  weight matrix plus a bias row; lays them side by side in both orders, mixes the two layouts by two per-row scalars
  and clips to the unit interval; then applies two more clipped affine layers and a last affine layer, giving one
  number per row.

  The kernel walks a grid of 4 row tiles by 41 column tiles. For a row tile it keeps two accumulators: zeroed at the
  first column tile, and at each column tile increased by the product of the tile of the input with the matching rows
  of the (zero-padded) transposed weight matrix. The 41 tiles cover 41984 columns while the inputs have 41024: in the
  last tile only the first 64 columns lie inside the input, and the kernel replaces the other columns of the tile by
  zero before it multiplies, so nothing that lies past the input's end is ever used. Over the extended reals a sum may be
  regrouped freely, so after the last column tile each accumulator entry is the whole inner product of 41024 terms;
  the kernel then adds the bias, and applies the same mixing, clipping and three layers as the reference to the row
  tile, and writes the tile's 1024 results. The four row tiles' write-backs cover the result array.

  Both programs run to the end without a fault and leave their arguments unchanged: for the kernel this is shown once
  for any float interpretation, by running its body symbolically in each of its three cases (first, middle and last
  column tile) and carrying the accumulators' values from grid point to grid point; the word-level program and the
  idealized one are the same text. No rewrite was applied when the kernel was idealized.
-/
import proofs.«131451_j14499809591732_2_alg».proof.Defs
import proofs.«131451_j14499809591732_2_alg».proof.Proof.Gen.Kernel
import proofs.«131451_j14499809591732_2_alg».proof.Proof.Gen.KernelIdeal
import proofs.«131451_j14499809591732_2_alg».proof.Proof.Gen.ReferenceIdeal
import proofs.«131451_j14499809591732_2_alg».proof.Proof.Gen.Pre_finite_inputs
import proofs.«131451_j14499809591732_2_alg».proof.Proof.WBodyFrame
import proofs.«131451_j14499809591732_2_alg».proof.Proof.BodyFrame
import proofs.«131451_j14499809591732_2_alg».proof.Proof.KernelValue
import proofs.«131451_j14499809591732_2_alg».proof.Proof.KernelFinal
import proofs.«131451_j14499809591732_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- And the reference: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array holding the one function of the
    arguments: the kernel's result array by the four write-backs of the result rows, the reference's by reading its
    operations one after the other. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KFinal.GG m c,
    Cert.KernelIdeal.KFinal.run_G_of_run m ρ (fun c mi r => Cert.KernelIdeal.KValue.out12_val m c mi r)
      (Cert.KernelIdeal.Body.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.run_result_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
